-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S32768x2 : Shape := ⟨2, ![32768, 2]⟩
abbrev S64x96 : Shape := ⟨2, ![64, 96]⟩
abbrev S96 : Shape := ⟨1, ![96]⟩
abbrev S3x96x96 : Shape := ⟨3, ![3, 96, 96]⟩
abbrev S3x96 : Shape := ⟨2, ![3, 96]⟩
abbrev S192x96 : Shape := ⟨2, ![192, 96]⟩
abbrev S96x1 : Shape := ⟨2, ![96, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x96 : S_.BroadcastsInDim S64x96 (![] : Fin 0 → Fin S64x96.rank)
  reducesTo_S64x96_S_d0_1 : S64x96.ReducesTo [0, 1] S_
  bcast_S_S96 : S_.BroadcastsInDim S96 (![] : Fin 0 → Fin S96.rank)
  reducesTo_S96_S_d0 : S96.ReducesTo [0] S_
  bcast_S_S3x96x96 : S_.BroadcastsInDim S3x96x96 (![] : Fin 0 → Fin S3x96x96.rank)
  reducesTo_S3x96x96_S_d0_1_2 : S3x96x96.ReducesTo [0, 1, 2] S_
  bcast_S_S3x96 : S_.BroadcastsInDim S3x96 (![] : Fin 0 → Fin S3x96.rank)
  reducesTo_S3x96_S_d0_1 : S3x96.ReducesTo [0, 1] S_
  bcast_S_S192x96 : S_.BroadcastsInDim S192x96 (![] : Fin 0 → Fin S192x96.rank)
  reducesTo_S192x96_S_d0_1 : S192x96.ReducesTo [0, 1] S_
  bcast_S_S96x1 : S_.BroadcastsInDim S96x1 (![] : Fin 0 → Fin S96x1.rank)
  reducesTo_S96x1_S_d0_1 : S96x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S96 .f32) (main_arg10 : FVec F S96x1 .f32) (main_arg11 : FVec F S1 .f32) (main_v33 : IVec S_ 1) : IVec S_ 1 :=
  let main_v34 : FVec F S96 .f32 := Host.absf main_arg9
  let main_cst_12 : FVec F S_ .f32 := constant S_ .f32 0x7F800000#32
  let main_v35 : FVec F S96 .f32 := broadcastInDim S96 ![] bcast_S_S96 main_cst_12
  let main_v36 : IVec S96 1 := cmpf .olt main_v34 main_v35
  let main_c_13 : IVec S_ 1 := constantI S_ 1 1#1
  let main_v37 : IVec S_ 1 := (fun x v => Host.reduce IntOp.andi x v reducesTo_S96_S_d0 h_S_) main_v36 main_c_13
  let main_v38 : IVec S_ 1 := andi main_v33 main_v37
  let main_v39 : FVec F S96x1 .f32 := Host.absf main_arg10
  let main_cst_14 : FVec F S_ .f32 := constant S_ .f32 0x7F800000#32
  let main_v40 : FVec F S96x1 .f32 := broadcastInDim S96x1 ![] bcast_S_S96x1 main_cst_14
  let main_v41 : IVec S96x1 1 := cmpf .olt main_v39 main_v40
  let main_c_15 : IVec S_ 1 := constantI S_ 1 1#1
  let main_v42 : IVec S_ 1 := (fun x v => Host.reduce IntOp.andi x v reducesTo_S96x1_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg6 : FVec F S3x96 .f32) (main_arg7 : FVec F S3x96x96 .f32) (main_arg8 : FVec F S192x96 .f32) (main_arg9 : FVec F S96 .f32) (main_arg10 : FVec F S96x1 .f32) (main_arg11 : FVec F S1 .f32) (main_v13 : IVec S_ 1) (main_v16 : IVec S3x96x96 1) : IVec S_ 1 :=
  let main_c_5 : IVec S_ 1 := constantI S_ 1 1#1
  let main_v17 : IVec S_ 1 := (fun x v => Host.reduce IntOp.andi x v reducesTo_S3x96x96_S_d0_1_2 h_S_) main_v16 main_c_5
  let main_v18 : IVec S_ 1 := andi main_v13 main_v17
  let main_v19 : FVec F S3x96 .f32 := Host.absf main_arg6
  let main_cst_6 : FVec F S_ .f32 := constant S_ .f32 0x7F800000#32
  let main_v20 : FVec F S3x96 .f32 := broadcastInDim S3x96 ![] bcast_S_S3x96 main_cst_6
  let main_v21 : IVec S3x96 1 := cmpf .olt main_v19 main_v20
  let main_c_7 : IVec S_ 1 := constantI S_ 1 1#1
  let main_v22 : IVec S_ 1 := (fun x v => Host.reduce IntOp.andi x v reducesTo_S3x96_S_d0_1 h_S_) main_v21 main_c_7
  let main_v23 : IVec S_ 1 := andi main_v18 main_v22
  let main_v24 : FVec F S3x96x96 .f32 := Host.absf main_arg7
  let main_cst_8 : FVec F S_ .f32 := constant S_ .f32 0x7F800000#32
  let main_v25 : FVec F S3x96x96 .f32 := broadcastInDim S3x96x96 ![] bcast_S_S3x96x96 main_cst_8
  let main_v26 : IVec S3x96x96 1 := cmpf .olt main_v24 main_v25
  let main_c_9 : IVec S_ 1 := constantI S_ 1 1#1
  let main_v27 : IVec S_ 1 := (fun x v => Host.reduce IntOp.andi x v reducesTo_S3x96x96_S_d0_1_2 h_S_) main_v26 main_c_9
  let main_v28 : IVec S_ 1 := andi main_v23 main_v27
  let main_v29 : FVec F S192x96 .f32 := Host.absf main_arg8
  let main_cst_10 : FVec F S_ .f32 := constant S_ .f32 0x7F800000#32
  let main_v30 : FVec F S192x96 .f32 := broadcastInDim S192x96 ![] bcast_S_S192x96 main_cst_10
  let main_v31 : IVec S192x96 1 := cmpf .olt main_v29 main_v30
  let main_c_11 : IVec S_ 1 := constantI S_ 1 1#1
  let main_v32 : IVec S_ 1 := (fun x v => Host.reduce IntOp.andi x v reducesTo_S192x96_S_d0_1 h_S_) main_v31 main_c_11
  let main_v33 : IVec S_ 1 := andi main_v28 main_v32
  fn_part2 (F := F) main_arg9 main_arg10 main_arg11 main_v33

def fn {F : FTy → Type} [FloatOps F] (main_arg0 : FVec F S50000x64 .f32) (main_arg1 : IVec S2x800000 32) (main_arg2 : IVec S32768x2 32) (main_arg3 : FVec F S64x96 .f32) (main_arg4 : FVec F S96 .f32) (main_arg5 : FVec F S3x96x96 .f32) (main_arg6 : FVec F S3x96 .f32) (main_arg7 : FVec F S3x96x96 .f32) (main_arg8 : FVec F S192x96 .f32) (main_arg9 : FVec F S96 .f32) (main_arg10 : FVec F S96x1 .f32) (main_arg11 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x96 .f32 := Host.absf main_arg3
  let main_cst_0 : FVec F S_ .f32 := constant S_ .f32 0x7F800000#32
  let main_v5 : FVec F S64x96 .f32 := broadcastInDim S64x96 ![] bcast_S_S64x96 main_cst_0
  let main_v6 : IVec S64x96 1 := cmpf .olt main_v4 main_v5
  let main_c_1 : IVec S_ 1 := constantI S_ 1 1#1
  let main_v7 : IVec S_ 1 := (fun x v => Host.reduce IntOp.andi x v reducesTo_S64x96_S_d0_1 h_S_) main_v6 main_c_1
  let main_v8 : IVec S_ 1 := andi main_v3 main_v7
  let main_v9 : FVec F S96 .f32 := Host.absf main_arg4
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S3x96x96 .f32 := Host.absf main_arg5
  let main_cst_4 : FVec F S_ .f32 := constant S_ .f32 0x7F800000#32
  let main_v15 : FVec F S3x96x96 .f32 := broadcastInDim S3x96x96 ![] bcast_S_S3x96x96 main_cst_4
  let main_v16 : IVec S3x96x96 1 := cmpf .olt main_v14 main_v15
  fn_part1 (F := F) main_arg6 main_arg7 main_arg8 main_arg9 main_arg10 main_arg11 main_v13 main_v16
-- ==== Kernel.lean ====
abbrev S50000x64 : Shape := ⟨2, ![50000, 64]⟩
abbrev S2x800000 : Shape := ⟨2, ![2, 800000]⟩
abbrev S32768x2 : Shape := ⟨2, ![32768, 2]⟩
abbrev S64x96 : Shape := ⟨2, ![64, 96]⟩
abbrev S96 : Shape := ⟨1, ![96]⟩
abbrev S3x96x96 : Shape := ⟨3, ![3, 96, 96]⟩
abbrev S3x96 : Shape := ⟨2, ![3, 96]⟩
abbrev S192x96 : Shape := ⟨2, ![192, 96]⟩
abbrev S96x1 : Shape := ⟨2, ![96, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S1x96 : Shape := ⟨2, ![1, 96]⟩
abbrev S50000x96 : Shape := ⟨2, ![50000, 96]⟩
abbrev S5000x64 : Shape := ⟨2, ![5000, 64]⟩
abbrev S5000x96 : Shape := ⟨2, ![5000, 96]⟩
abbrev S800000x96 : Shape := ⟨2, ![800000, 96]⟩
abbrev S50000x1 : Shape := ⟨2, ![50000, 1]⟩
abbrev S1x96x96 : Shape := ⟨3, ![1, 96, 96]⟩
abbrev S96x96 : Shape := ⟨2, ![96, 96]⟩
abbrev S32768x2x1 : Shape := ⟨3, ![32768, 2, 1]⟩
abbrev S32768x2x96 : Shape := ⟨3, ![32768, 2, 96]⟩
abbrev S32768x192 : Shape := ⟨2, ![32768, 192]⟩
abbrev S1x1 : Shape := ⟨2, ![1, 1]⟩
abbrev S32768x1 : Shape := ⟨2, ![32768, 1]⟩
abbrev S4096x192 : Shape := ⟨2, ![4096, 192]⟩
abbrev S4096x1 : Shape := ⟨2, ![4096, 1]⟩
abbrev S4096x96 : Shape := ⟨2, ![4096, 96]⟩

abbrev nBuf : Space → Nat
  | .hbm => 115
  | .vmem => 41
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S32768x2, .i32⟩
  | .hbm, ⟨3, _⟩ => ⟨S64x96, .f32⟩
  | .hbm, ⟨4, _⟩ => ⟨S96, .f32⟩
  | .hbm, ⟨5, _⟩ => ⟨S3x96x96, .f32⟩
  | .hbm, ⟨6, _⟩ => ⟨S3x96, .f32⟩
  | .hbm, ⟨7, _⟩ => ⟨S3x96x96, .f32⟩
  | .hbm, ⟨8, _⟩ => ⟨S192x96, .f32⟩
  | .hbm, ⟨9, _⟩ => ⟨S96, .f32⟩
  | .hbm, ⟨10, _⟩ => ⟨S96x1, .f32⟩
  | .hbm, ⟨11, _⟩ => ⟨S1, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .f32⟩
  | .hbm, ⟨17, _⟩ => ⟨S800000, .f32⟩
  | .hbm, ⟨18, _⟩ => ⟨S_, .f32⟩
  | .hbm, ⟨19, _⟩ => ⟨S50000, .f32⟩
  | .hbm, ⟨20, _⟩ => ⟨S800000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S1x96, .f32⟩
  | .hbm, ⟨29, _⟩ => ⟨S50000x96, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x96, .f32⟩
  | .hbm, ⟨39, _⟩ => ⟨S_, .f32⟩
  | .hbm, ⟨40, _⟩ => ⟨S50000x96, .f32⟩
  | .hbm, ⟨41, _⟩ => ⟨S800000x1, .i32⟩
  | .hbm, ⟨42, _⟩ => ⟨S50000x96, .f32⟩
  | .hbm, ⟨43, _⟩ => ⟨S50000x1, .f32⟩
  | .hbm, ⟨44, _⟩ => ⟨S50000x96, .f32⟩
  | .hbm, ⟨45, _⟩ => ⟨S50000x96, .f32⟩
  | .hbm, ⟨46, _⟩ => ⟨S1x96x96, .f32⟩
  | .hbm, ⟨47, _⟩ => ⟨S96x96, .f32⟩
  | .hbm, ⟨48, _⟩ => ⟨S1x96x96, .f32⟩
  | .hbm, ⟨49, _⟩ => ⟨S96x96, .f32⟩
  | .hbm, ⟨50, _⟩ => ⟨S1x96, .f32⟩
  | .hbm, ⟨51, _⟩ => ⟨S96, .f32⟩
  | .hbm, ⟨52, _⟩ => ⟨S1x96, .f32⟩
  | .hbm, ⟨53, _⟩ => ⟨S50000x96, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x96, .f32⟩
  | .hbm, ⟨63, _⟩ => ⟨S_, .f32⟩
  | .hbm, ⟨64, _⟩ => ⟨S50000x96, .f32⟩
  | .hbm, ⟨65, _⟩ => ⟨S800000x1, .i32⟩
  | .hbm, ⟨66, _⟩ => ⟨S50000x96, .f32⟩
  | .hbm, ⟨67, _⟩ => ⟨S50000x1, .f32⟩
  | .hbm, ⟨68, _⟩ => ⟨S50000x96, .f32⟩
  | .hbm, ⟨69, _⟩ => ⟨S50000x96, .f32⟩
  | .hbm, ⟨70, _⟩ => ⟨S1x96x96, .f32⟩
  | .hbm, ⟨71, _⟩ => ⟨S96x96, .f32⟩
  | .hbm, ⟨72, _⟩ => ⟨S1x96x96, .f32⟩
  | .hbm, ⟨73, _⟩ => ⟨S96x96, .f32⟩
  | .hbm, ⟨74, _⟩ => ⟨S1x96, .f32⟩
  | .hbm, ⟨75, _⟩ => ⟨S96, .f32⟩
  | .hbm, ⟨76, _⟩ => ⟨S1x96, .f32⟩
  | .hbm, ⟨77, _⟩ => ⟨S50000x96, .f32⟩
  | .hbm, ⟨78, _⟩ => ⟨S_, .i32⟩
  | .hbm, ⟨79, _⟩ => ⟨S800000, .i32⟩
  | .hbm, ⟨80, _⟩ => ⟨S800000, .i1⟩
  | .hbm, ⟨81, _⟩ => ⟨S_, .i32⟩
  | .hbm, ⟨82, _⟩ => ⟨S800000, .i32⟩
  | .hbm, ⟨83, _⟩ => ⟨S800000, .i32⟩
  | .hbm, ⟨84, _⟩ => ⟨S800000, .i32⟩
  | .hbm, ⟨85, _⟩ => ⟨S800000x1, .i32⟩
  | .hbm, ⟨86, _⟩ => ⟨S800000x96, .f32⟩
  | .hbm, ⟨87, _⟩ => ⟨S_, .f32⟩
  | .hbm, ⟨88, _⟩ => ⟨S50000x96, .f32⟩
  | .hbm, ⟨89, _⟩ => ⟨S800000x1, .i32⟩
  | .hbm, ⟨90, _⟩ => ⟨S50000x96, .f32⟩
  | .hbm, ⟨91, _⟩ => ⟨S50000x1, .f32⟩
  | .hbm, ⟨92, _⟩ => ⟨S50000x96, .f32⟩
  | .hbm, ⟨93, _⟩ => ⟨S50000x96, .f32⟩
  | .hbm, ⟨94, _⟩ => ⟨S1x96x96, .f32⟩
  | .hbm, ⟨95, _⟩ => ⟨S96x96, .f32⟩
  | .hbm, ⟨96, _⟩ => ⟨S1x96x96, .f32⟩
  | .hbm, ⟨97, _⟩ => ⟨S96x96, .f32⟩
  | .hbm, ⟨98, _⟩ => ⟨S1x96, .f32⟩
  | .hbm, ⟨99, _⟩ => ⟨S96, .f32⟩
  | .hbm, ⟨100, _⟩ => ⟨S1x96, .f32⟩
  | .hbm, ⟨101, _⟩ => ⟨S50000x96, .f32⟩
  | .hbm, ⟨102, _⟩ => ⟨S_, .i32⟩
  | .hbm, ⟨103, _⟩ => ⟨S32768x2, .i32⟩
  | .hbm, ⟨104, _⟩ => ⟨S32768x2, .i1⟩
  | .hbm, ⟨105, _⟩ => ⟨S_, .i32⟩
  | .hbm, ⟨106, _⟩ => ⟨S32768x2, .i32⟩
  | .hbm, ⟨107, _⟩ => ⟨S32768x2, .i32⟩
  | .hbm, ⟨108, _⟩ => ⟨S32768x2, .i32⟩
  | .hbm, ⟨109, _⟩ => ⟨S32768x2x1, .i32⟩
  | .hbm, ⟨110, _⟩ => ⟨S32768x2x96, .f32⟩
  | .hbm, ⟨111, _⟩ => ⟨S32768x192, .f32⟩
  | .hbm, ⟨112, _⟩ => ⟨S1x96, .f32⟩
  | .hbm, ⟨113, _⟩ => ⟨S1x1, .f32⟩
  | .hbm, ⟨114, _⟩ => ⟨S32768x1, .f32⟩
  | .local _ .vmem, ⟨0, _⟩ => ⟨S5000x64, .f32⟩
  | .local _ .vmem, ⟨1, _⟩ => ⟨S5000x64, .f32⟩
  | .local _ .vmem, ⟨2, _⟩ => ⟨S64x96, .f32⟩
  | .local _ .vmem, ⟨3, _⟩ => ⟨S1x96, .f32⟩
  | .local _ .vmem, ⟨4, _⟩ => ⟨S5000x96, .f32⟩
  | .local _ .vmem, ⟨5, _⟩ => ⟨S5000x96, .f32⟩
  | .local _ .vmem, ⟨6, _⟩ => ⟨S5000x96, .f32⟩
  | .local _ .vmem, ⟨7, _⟩ => ⟨S5000x96, .f32⟩
  | .local _ .vmem, ⟨8, _⟩ => ⟨S5000x96, .f32⟩
  | .local _ .vmem, ⟨9, _⟩ => ⟨S5000x96, .f32⟩
  | .local _ .vmem, ⟨10, _⟩ => ⟨S96x96, .f32⟩
  | .local _ .vmem, ⟨11, _⟩ => ⟨S96x96, .f32⟩
  | .local _ .vmem, ⟨12, _⟩ => ⟨S1x96, .f32⟩
  | .local _ .vmem, ⟨13, _⟩ => ⟨S5000x96, .f32⟩
  | .local _ .vmem, ⟨14, _⟩ => ⟨S5000x96, .f32⟩
  | .local _ .vmem, ⟨15, _⟩ => ⟨S5000x96, .f32⟩
  | .local _ .vmem, ⟨16, _⟩ => ⟨S5000x96, .f32⟩
  | .local _ .vmem, ⟨17, _⟩ => ⟨S5000x96, .f32⟩
  | .local _ .vmem, ⟨18, _⟩ => ⟨S5000x96, .f32⟩
  | .local _ .vmem, ⟨19, _⟩ => ⟨S96x96, .f32⟩
  | .local _ .vmem, ⟨20, _⟩ => ⟨S96x96, .f32⟩
  | .local _ .vmem, ⟨21, _⟩ => ⟨S1x96, .f32⟩
  | .local _ .vmem, ⟨22, _⟩ => ⟨S5000x96, .f32⟩
  | .local _ .vmem, ⟨23, _⟩ => ⟨S5000x96, .f32⟩
  | .local _ .vmem, ⟨24, _⟩ => ⟨S5000x96, .f32⟩
  | .local _ .vmem, ⟨25, _⟩ => ⟨S5000x96, .f32⟩
  | .local _ .vmem, ⟨26, _⟩ => ⟨S5000x96, .f32⟩
  | .local _ .vmem, ⟨27, _⟩ => ⟨S5000x96, .f32⟩
  | .local _ .vmem, ⟨28, _⟩ => ⟨S96x96, .f32⟩
  | .local _ .vmem, ⟨29, _⟩ => ⟨S96x96, .f32⟩
  | .local _ .vmem, ⟨30, _⟩ => ⟨S1x96, .f32⟩
  | .local _ .vmem, ⟨31, _⟩ => ⟨S5000x96, .f32⟩
  | .local _ .vmem, ⟨32, _⟩ => ⟨S5000x96, .f32⟩
  | .local _ .vmem, ⟨33, _⟩ => ⟨S4096x192, .f32⟩
  | .local _ .vmem, ⟨34, _⟩ => ⟨S4096x192, .f32⟩
  | .local _ .vmem, ⟨35, _⟩ => ⟨S192x96, .f32⟩
  | .local _ .vmem, ⟨36, _⟩ => ⟨S1x96, .f32⟩
  | .local _ .vmem, ⟨37, _⟩ => ⟨S96x1, .f32⟩
  | .local _ .vmem, ⟨38, _⟩ => ⟨S1x1, .f32⟩
  | .local _ .vmem, ⟨39, _⟩ => ⟨S4096x1, .f32⟩
  | .local _ .vmem, ⟨40, _⟩ => ⟨S4096x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_5 : Ref sig .tc := ⟨.hbm, 54, rfl⟩
abbrev main_v35 : Ref sig .tc := ⟨.hbm, 55, rfl⟩
abbrev main_v36 : Ref sig .tc := ⟨.hbm, 56, rfl⟩
abbrev main_c_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_8 : Ref sig .tc := ⟨.hbm, 78, rfl⟩
abbrev main_v56 : Ref sig .tc := ⟨.hbm, 79, rfl⟩
abbrev main_v57 : Ref sig .tc := ⟨.hbm, 80, rfl⟩
abbrev main_c_9 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_10 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_c_11 : Ref sig .tc := ⟨.hbm, 102, rfl⟩
abbrev main_v77 : Ref sig .tc := ⟨.hbm, 103, rfl⟩
abbrev main_v78 : Ref sig .tc := ⟨.hbm, 104, rfl⟩
abbrev main_c_12 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg5_0 : Ref sig .tc := ⟨.vmem, 39, rfl⟩
abbrev cc4_stg5_1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem5_1 : DmaSem sig := 32
abbrev cc4_sem0_0 : DmaSem sig := 33
abbrev cc4_sem0_1 : DmaSem sig := 34
abbrev cc4_sem1_0 : DmaSem sig := 35
abbrev cc4_sem2_0 : DmaSem sig := 36
abbrev cc4_sem3_0 : DmaSem sig := 37
abbrev cc4_sem4_0 : DmaSem sig := 38
abbrev cc4_sem5_0 : DmaSem sig := 39
abbrev cc4_sem5_1 : DmaSem sig := 40

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S96x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S96x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x96 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x96 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S96x96 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S96x96 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x96 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x96 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x96 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S96x96 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S96x96 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x96 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x96 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4096x192 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S192x96 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x96 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S96x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S4096x1 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S96_S1x96 : S96.ShapeCasts S1x96
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x96_S64x96_0_0 : ∀ a, (![0, 0] : Fin 2 → Nat) a + S64x96.size a ≤ S64x96.size a
  h_S64x96 : 0 < S64x96.numel
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  inb_S5000x96_S5000x96_0_0 : ∀ a, (![0, 0] : Fin 2 → Nat) a + S5000x96.size a ≤ S5000x96.size a
  h_S5000x96 : 0 < S5000x96.numel
  bcast_S_S50000x96 : S_.BroadcastsInDim S50000x96 (![] : Fin 0 → Fin S50000x96.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  slices_S3x96x96_S1x96x96_0_0_0 : S3x96x96.Slices ![0, 0, 0] S1x96x96
  shapeCasts_S1x96x96_S96x96 : S1x96x96.ShapeCasts S96x96
  slices_S3x96_S1x96_0_0 : S3x96.Slices ![0, 0] S1x96
  shapeCasts_S1x96_S96 : S1x96.ShapeCasts S96
  shapeCasts_S5000x96_S5000x96 : S5000x96.ShapeCasts S5000x96
  inb_S96x96_S96x96_0_0 : ∀ a, (![0, 0] : Fin 2 → Nat) a + S96x96.size a ≤ S96x96.size a
  h_S96x96 : 0 < S96x96.numel
  shapeCasts_S96x96_S96x96 : S96x96.ShapeCasts S96x96
  slices_S3x96x96_S1x96x96_1_0_0 : S3x96x96.Slices ![1, 0, 0] S1x96x96
  slices_S3x96_S1x96_1_0 : S3x96.Slices ![1, 0] S1x96
  slices_S3x96x96_S1x96x96_2_0_0 : S3x96x96.Slices ![2, 0, 0] S1x96x96
  slices_S3x96_S1x96_2_0 : S3x96.Slices ![2, 0] S1x96
  bcast_S_S32768x2 : S_.BroadcastsInDim S32768x2 (![] : Fin 0 → Fin S32768x2.rank)
  bcast_S32768x2_S32768x2x1_0_1 : S32768x2.BroadcastsInDim S32768x2x1 (![0, 1] : Fin 2 → Fin S32768x2x1.rank)
  shapeCasts_S32768x2x96_S32768x192 : S32768x2x96.ShapeCasts S32768x192
  shapeCasts_S1_S1x1 : S1.ShapeCasts S1x1
  inb_S4096x192_S4096x192_0_0 : ∀ a, (![0, 0] : Fin 2 → Nat) a + S4096x192.size a ≤ S4096x192.size a
  h_S4096x192 : 0 < S4096x192.numel
  shapeCasts_S4096x192_S4096x192 : S4096x192.ShapeCasts S4096x192
  inb_S192x96_S192x96_0_0 : ∀ a, (![0, 0] : Fin 2 → Nat) a + S192x96.size a ≤ S192x96.size a
  h_S192x96 : 0 < S192x96.numel
  broadcasts_S1x96_S4096x96 : S1x96.Broadcasts S4096x96
  inb_S96x1_S96x1_0_0 : ∀ a, (![0, 0] : Fin 2 → Nat) a + S96x1.size a ≤ S96x1.size a
  h_S96x1 : 0 < S96x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  scatter_S50000_S800000x1_S800000_n_0_0_1_wf : ScatterDims.WF S50000 S800000x1 S800000 [] [0] [0] 1
  dot_S5000x64_S64x96_S5000x96_1_0_0_1_n_n_wf : DotDims.WF S5000x64 S64x96 S5000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S5000x96_S96x96_S5000x96_1_0_0_1_n_n_wf : DotDims.WF S5000x96 S96x96 S5000x96 [1] [0] [0] [1] [] []
  gather_S50000x96_S32768x2x1_S32768x2x96_2_0_n_n_0_2_196_wf : GatherDims.WF S50000x96 S32768x2x1 S32768x2x96 [2] [0] [] [0] [] 2 ![1, 96]
  dot_S4096x192_S192x96_S4096x96_1_0_0_1_n_n_wf : DotDims.WF S4096x192 S192x96 S4096x96 [1] [0] [0] [1] [] []
  dot_S4096x96_S96x1_S4096x1_1_0_0_1_n_n_wf : DotDims.WF S4096x96 S96x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x96.size a ≤ S64x96.size a
  hwx0_1 : ∀ i : grid0.Coords, EltTy.bits .f32 = 32 ∨ (Rect.block (s := S64x96) S64x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x96.size a ≤ S1x96.size a
  hwx0_2 : ∀ i : grid0.Coords, EltTy.bits .f32 = 32 ∨ (Rect.block (s := S1x96) S1x96.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x96.size a ≤ S50000x96.size a
  hwx0_3 : ∀ i : grid0.Coords, EltTy.bits .f32 = 32 ∨ (Rect.block (s := S50000x96) S5000x96.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x96.size a ≤ S50000x96.size a
  hwx1_1 : ∀ i : grid1.Coords, EltTy.bits .f32 = 32 ∨ (Rect.block (s := S50000x96) S5000x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96x96.size a ≤ S96x96.size a
  hwx1_2 : ∀ i : grid1.Coords, EltTy.bits .f32 = 32 ∨ (Rect.block (s := S96x96) S96x96.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S96x96.size a ≤ S96x96.size a
  hwx1_3 : ∀ i : grid1.Coords, EltTy.bits .f32 = 32 ∨ (Rect.block (s := S96x96) S96x96.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x96.size a ≤ S1x96.size a
  hwx1_4 : ∀ i : grid1.Coords, EltTy.bits .f32 = 32 ∨ (Rect.block (s := S1x96) S1x96.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x96.size a ≤ S50000x96.size a
  hwx1_5 : ∀ i : grid1.Coords, EltTy.bits .f32 = 32 ∨ (Rect.block (s := S50000x96) S5000x96.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x96.size a ≤ S50000x96.size a
  hwx2_0 : ∀ i : grid2.Coords, EltTy.bits .f32 = 32 ∨ (Rect.block (s := S50000x96) S5000x96.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x96.size a ≤ S50000x96.size a
  hwx2_1 : ∀ i : grid2.Coords, EltTy.bits .f32 = 32 ∨ (Rect.block (s := S50000x96) S5000x96.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S96x96.size a ≤ S96x96.size a
  hwx2_2 : ∀ i : grid2.Coords, EltTy.bits .f32 = 32 ∨ (Rect.block (s := S96x96) S96x96.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S96x96.size a ≤ S96x96.size a
  hwx2_3 : ∀ i : grid2.Coords, EltTy.bits .f32 = 32 ∨ (Rect.block (s := S96x96) S96x96.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x96.size a ≤ S1x96.size a
  hwx2_4 : ∀ i : grid2.Coords, EltTy.bits .f32 = 32 ∨ (Rect.block (s := S1x96) S1x96.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x96.size a ≤ S50000x96.size a
  hwx2_5 : ∀ i : grid2.Coords, EltTy.bits .f32 = 32 ∨ (Rect.block (s := S50000x96) S5000x96.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x96.size a ≤ S50000x96.size a
  hwx3_0 : ∀ i : grid3.Coords, EltTy.bits .f32 = 32 ∨ (Rect.block (s := S50000x96) S5000x96.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x96.size a ≤ S50000x96.size a
  hwx3_1 : ∀ i : grid3.Coords, EltTy.bits .f32 = 32 ∨ (Rect.block (s := S50000x96) S5000x96.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S96x96.size a ≤ S96x96.size a
  hwx3_2 : ∀ i : grid3.Coords, EltTy.bits .f32 = 32 ∨ (Rect.block (s := S96x96) S96x96.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S96x96.size a ≤ S96x96.size a
  hwx3_3 : ∀ i : grid3.Coords, EltTy.bits .f32 = 32 ∨ (Rect.block (s := S96x96) S96x96.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x96.size a ≤ S1x96.size a
  hwx3_4 : ∀ i : grid3.Coords, EltTy.bits .f32 = 32 ∨ (Rect.block (s := S1x96) S1x96.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x96.size a ≤ S50000x96.size a
  hwx3_5 : ∀ i : grid3.Coords, EltTy.bits .f32 = 32 ∨ (Rect.block (s := S50000x96) S5000x96.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x192.size a ≤ S32768x192.size a
  hwx4_0 : ∀ i : grid4.Coords, EltTy.bits .f32 = 32 ∨ (Rect.block (s := S32768x192) S4096x192.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S192x96.size a ≤ S192x96.size a
  hwx4_1 : ∀ i : grid4.Coords, EltTy.bits .f32 = 32 ∨ (Rect.block (s := S192x96) S192x96.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x96.size a ≤ S1x96.size a
  hwx4_2 : ∀ i : grid4.Coords, EltTy.bits .f32 = 32 ∨ (Rect.block (s := S1x96) S1x96.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S96x1.size a ≤ S96x1.size a
  hwx4_3 : ∀ i : grid4.Coords, EltTy.bits .f32 = 32 ∨ (Rect.block (s := S96x1) S96x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S4096x1.size a ≤ S32768x1.size a
  hwx4_5 : ∀ i : grid4.Coords, EltTy.bits .f32 = 32 ∨ (Rect.block (s := S32768x1) S4096x1.size (cc4_transform_5 i) (hinb4_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x64_S64x96_S5000x96_1_0_0_1_n_n : DotDims S5000x64 S64x96 S5000x96 where
  lhsContracting := [1]
  rhsContracting := [0]
  lhsNonContracting := [0]
  rhsNonContracting := [1]
  lhsBatch := []
  rhsBatch := []
  wf := dot_S5000x64_S64x96_S5000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def gather_S50000x96_S32768x2x1_S32768x2x96_2_0_n_n_0_2_196 : GatherDims S50000x96 S32768x2x1 S32768x2x96 where
  offsetDims := [2]
  collapsedSliceDims := [0]
  operandBatchingDims := []
  startIndicesBatchingDims := []
  startIndexMap := [0]
  indexVectorDim := 2
  sliceSizes := ![1, 96]
  wf := gather_S50000x96_S32768x2x1_S32768x2x96_2_0_n_n_0_2_196_wf
def dot_S4096x192_S192x96_S4096x96_1_0_0_1_n_n : DotDims S4096x192 S192x96 S4096x96 where
  lhsContracting := [1]
  rhsContracting := [0]
  lhsNonContracting := [0]
  rhsNonContracting := [1]
  lhsBatch := []
  rhsBatch := []
  wf := dot_S4096x192_S192x96_S4096x96_1_0_0_1_n_n_wf
def dot_S4096x96_S96x1_S4096x1_1_0_0_1_n_n : DotDims S4096x96 S96x1 S4096x1 where
  lhsContracting := [1]
  rhsContracting := [0]
  lhsNonContracting := [0]
  rhsNonContracting := [1]
  lhsBatch := []
  rhsBatch := []
  wf := dot_S4096x96_S96x1_S4096x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S5000x96.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S96x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S96x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S1x96.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S5000x96.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v47) S5000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S5000x96.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v49) S96x96.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S96x96.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S1x96.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v55) S5000x96.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v68) S5000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S5000x96.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v70) S96x96.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v72) S96x96.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v75) S1x96.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v76) S5000x96.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v84) S4096x192.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S192x96.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v85) S1x96.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg10) S96x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v86) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v87) S4096x1.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S32768x2 : Shape := ⟨2, ![32768, 2]⟩
abbrev S64x96 : Shape := ⟨2, ![64, 96]⟩
abbrev S96 : Shape := ⟨1, ![96]⟩
abbrev S3x96x96 : Shape := ⟨3, ![3, 96, 96]⟩
abbrev S3x96 : Shape := ⟨2, ![3, 96]⟩
abbrev S192x96 : Shape := ⟨2, ![192, 96]⟩
abbrev S96x1 : Shape := ⟨2, ![96, 1]⟩
abbrev S1 : Shape := ⟨1, ![1]⟩
abbrev S1x800000 : Shape := ⟨2, ![1, 800000]⟩
abbrev S800000 : Shape := ⟨1, ![800000]⟩
abbrev S50000x96 : Shape := ⟨2, ![50000, 96]⟩
abbrev S1x96 : Shape := ⟨2, ![1, 96]⟩
abbrev S1x96x96 : Shape := ⟨3, ![1, 96, 96]⟩
abbrev S96x96 : Shape := ⟨2, ![96, 96]⟩
abbrev S_ : Shape := ⟨0, ![]⟩
abbrev S800000x1 : Shape := ⟨2, ![800000, 1]⟩
abbrev S800000x96 : Shape := ⟨2, ![800000, 96]⟩
abbrev S50000 : Shape := ⟨1, ![50000]⟩
abbrev S50000x1 : Shape := ⟨2, ![50000, 1]⟩
abbrev S32768x2x1 : Shape := ⟨3, ![32768, 2, 1]⟩
abbrev S32768x2x96 : Shape := ⟨3, ![32768, 2, 96]⟩
abbrev S32768x192 : Shape := ⟨2, ![32768, 192]⟩
abbrev S32768x96 : Shape := ⟨2, ![32768, 96]⟩
abbrev S32768x1 : Shape := ⟨2, ![32768, 1]⟩
abbrev S1x1 : Shape := ⟨2, ![1, 1]⟩

abbrev nBuf : Space → Nat
  | .hbm => 173
  | .vmem => 0
  | .smem => 0
  | _ => 0

abbrev hbmTy0_0 (i : Nat) : BufTy := match i % 128 with
  | 0 => ⟨S50000x64, .f32⟩
  | 1 => ⟨S2x800000, .i32⟩
  | 2 => ⟨S32768x2, .i32⟩
  | 3 => ⟨S64x96, .f32⟩
  | 4 => ⟨S96, .f32⟩
  | 5 => ⟨S3x96x96, .f32⟩
  | 6 => ⟨S3x96, .f32⟩
  | 7 => ⟨S3x96x96, .f32⟩
  | 8 => ⟨S192x96, .f32⟩
  | 9 => ⟨S96, .f32⟩
  | 10 => ⟨S96x1, .f32⟩
  | 11 => ⟨S1, .f32⟩
  | 12 => ⟨S1x800000, .i32⟩
  | 13 => ⟨S800000, .i32⟩
  | 14 => ⟨S1x800000, .i32⟩
  | 15 => ⟨S800000, .i32⟩
  | 16 => ⟨S50000x96, .f32⟩
  | 17 => ⟨S1x96, .f32⟩
  | 18 => ⟨S50000x96, .f32⟩
  | 19 => ⟨S50000x96, .f32⟩
  | 20 => ⟨S1x96x96, .f32⟩
  | 21 => ⟨S96x96, .f32⟩
  | 22 => ⟨S1x96, .f32⟩
  | 23 => ⟨S96, .f32⟩
  | 24 => ⟨S1x96x96, .f32⟩
  | 25 => ⟨S96x96, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x96, .f32⟩
  | 35 => ⟨S_, .f32⟩
  | 36 => ⟨S50000x96, .f32⟩
  | 37 => ⟨S800000x1, .i32⟩
  | 38 => ⟨S50000x96, .f32⟩
  | 39 => ⟨S_, .f32⟩
  | 40 => ⟨S800000, .f32⟩
  | 41 => ⟨S_, .f32⟩
  | 42 => ⟨S50000, .f32⟩
  | 43 => ⟨S800000x1, .i32⟩
  | 44 => ⟨S50000, .f32⟩
  | 45 => ⟨S_, .f32⟩
  | 46 => ⟨S50000, .f32⟩
  | 47 => ⟨S50000, .f32⟩
  | 48 => ⟨S50000x1, .f32⟩
  | 49 => ⟨S50000x96, .f32⟩
  | 50 => ⟨S50000x96, .f32⟩
  | 51 => ⟨S50000x96, .f32⟩
  | 52 => ⟨S1x96, .f32⟩
  | 53 => ⟨S50000x96, .f32⟩
  | 54 => ⟨S50000x96, .f32⟩
  | 55 => ⟨S50000x96, .f32⟩
  | 56 => ⟨S50000x96, .f32⟩
  | 57 => ⟨S_, .f32⟩
  | 58 => ⟨S_, .f32⟩
  | 59 => ⟨S50000x96, .f32⟩
  | 60 => ⟨S50000x96, .i1⟩
  | 61 => ⟨S_, .f32⟩
  | 62 => ⟨S50000x96, .f32⟩
  | 63 => ⟨S50000x96, .f32⟩
  | 64 => ⟨S50000x96, .f32⟩
  | 65 => ⟨S1x96x96, .f32⟩
  | 66 => ⟨S96x96, .f32⟩
  | 67 => ⟨S1x96, .f32⟩
  | 68 => ⟨S96, .f32⟩
  | 69 => ⟨S1x96x96, .f32⟩
  | 70 => ⟨S96x96, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x96, .f32⟩
  | 80 => ⟨S_, .f32⟩
  | 81 => ⟨S50000x96, .f32⟩
  | 82 => ⟨S800000x1, .i32⟩
  | 83 => ⟨S50000x96, .f32⟩
  | 84 => ⟨S_, .f32⟩
  | 85 => ⟨S800000, .f32⟩
  | 86 => ⟨S_, .f32⟩
  | 87 => ⟨S50000, .f32⟩
  | 88 => ⟨S800000x1, .i32⟩
  | 89 => ⟨S50000, .f32⟩
  | 90 => ⟨S_, .f32⟩
  | 91 => ⟨S50000, .f32⟩
  | 92 => ⟨S50000, .f32⟩
  | 93 => ⟨S50000x1, .f32⟩
  | 94 => ⟨S50000x96, .f32⟩
  | 95 => ⟨S50000x96, .f32⟩
  | 96 => ⟨S50000x96, .f32⟩
  | 97 => ⟨S1x96, .f32⟩
  | 98 => ⟨S50000x96, .f32⟩
  | 99 => ⟨S50000x96, .f32⟩
  | 100 => ⟨S50000x96, .f32⟩
  | 101 => ⟨S50000x96, .f32⟩
  | 102 => ⟨S_, .f32⟩
  | 103 => ⟨S_, .f32⟩
  | 104 => ⟨S50000x96, .f32⟩
  | 105 => ⟨S50000x96, .i1⟩
  | 106 => ⟨S_, .f32⟩
  | 107 => ⟨S50000x96, .f32⟩
  | 108 => ⟨S50000x96, .f32⟩
  | 109 => ⟨S50000x96, .f32⟩
  | 110 => ⟨S1x96x96, .f32⟩
  | 111 => ⟨S96x96, .f32⟩
  | 112 => ⟨S1x96, .f32⟩
  | 113 => ⟨S96, .f32⟩
  | 114 => ⟨S1x96x96, .f32⟩
  | 115 => ⟨S96x96, .f32⟩
  | 116 => ⟨S_, .i32⟩
  | 117 => ⟨S800000, .i32⟩
  | 118 => ⟨S800000, .i1⟩
  | 119 => ⟨S_, .i32⟩
  | 120 => ⟨S800000, .i32⟩
  | 121 => ⟨S800000, .i32⟩
  | 122 => ⟨S800000, .i32⟩
  | 123 => ⟨S800000x1, .i32⟩
  | 124 => ⟨S800000x96, .f32⟩
  | 125 => ⟨S_, .f32⟩
  | 126 => ⟨S50000x96, .f32⟩
  | 127 => ⟨S800000x1, .i32⟩
  | _ => ⟨S50000x64, .f32⟩

abbrev hbmTy0_1 (i : Nat) : BufTy := match i % 128 with
  | 0 => ⟨S50000x96, .f32⟩
  | 1 => ⟨S_, .f32⟩
  | 2 => ⟨S800000, .f32⟩
  | 3 => ⟨S_, .f32⟩
  | 4 => ⟨S50000, .f32⟩
  | 5 => ⟨S800000x1, .i32⟩
  | 6 => ⟨S50000, .f32⟩
  | 7 => ⟨S_, .f32⟩
  | 8 => ⟨S50000, .f32⟩
  | 9 => ⟨S50000, .f32⟩
  | 10 => ⟨S50000x1, .f32⟩
  | 11 => ⟨S50000x96, .f32⟩
  | 12 => ⟨S50000x96, .f32⟩
  | 13 => ⟨S50000x96, .f32⟩
  | 14 => ⟨S1x96, .f32⟩
  | 15 => ⟨S50000x96, .f32⟩
  | 16 => ⟨S50000x96, .f32⟩
  | 17 => ⟨S50000x96, .f32⟩
  | 18 => ⟨S50000x96, .f32⟩
  | 19 => ⟨S_, .i32⟩
  | 20 => ⟨S32768x2, .i32⟩
  | 21 => ⟨S32768x2, .i1⟩
  | 22 => ⟨S_, .i32⟩
  | 23 => ⟨S32768x2, .i32⟩
  | 24 => ⟨S32768x2, .i32⟩
  | 25 => ⟨S32768x2, .i32⟩
  | 26 => ⟨S32768x2x1, .i32⟩
  | 27 => ⟨S32768x2x96, .f32⟩
  | 28 => ⟨S32768x192, .f32⟩
  | 29 => ⟨S32768x96, .f32⟩
  | 30 => ⟨S1x96, .f32⟩
  | 31 => ⟨S32768x96, .f32⟩
  | 32 => ⟨S32768x96, .f32⟩
  | 33 => ⟨S_, .f32⟩
  | 34 => ⟨S_, .f32⟩
  | 35 => ⟨S32768x96, .f32⟩
  | 36 => ⟨S32768x96, .i1⟩
  | 37 => ⟨S_, .f32⟩
  | 38 => ⟨S32768x96, .f32⟩
  | 39 => ⟨S32768x96, .f32⟩
  | 40 => ⟨S32768x96, .f32⟩
  | 41 => ⟨S32768x1, .f32⟩
  | 42 => ⟨S1x1, .f32⟩
  | 43 => ⟨S32768x1, .f32⟩
  | 44 => ⟨S32768x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_1 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_4 : Ref sig .tc := ⟨.hbm, 57, rfl⟩
abbrev main_call0_cst : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_5 : Ref sig .tc := ⟨.hbm, 71, rfl⟩
abbrev main_v46 : Ref sig .tc := ⟨.hbm, 72, rfl⟩
abbrev main_v47 : Ref sig .tc := ⟨.hbm, 73, rfl⟩
abbrev main_c_6 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_7 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_8 : Ref sig .tc := ⟨.hbm, 84, rfl⟩
abbrev main_v56 : Ref sig .tc := ⟨.hbm, 85, rfl⟩
abbrev main_cst_9 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_10 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_11 : Ref sig .tc := ⟨.hbm, 102, rfl⟩
abbrev main_call1_cst : Ref sig .tc := ⟨.hbm, 103, rfl⟩
abbrev main_call1_v0 : Ref sig .tc := ⟨.hbm, 104, rfl⟩
abbrev main_call1_v1 : Ref sig .tc := ⟨.hbm, 105, rfl⟩
abbrev main_call1_v2 : Ref sig .tc := ⟨.hbm, 106, rfl⟩
abbrev main_call1_v3 : Ref sig .tc := ⟨.hbm, 107, rfl⟩
abbrev main_call1_v4 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_c_12 : Ref sig .tc := ⟨.hbm, 116, rfl⟩
abbrev main_v78 : Ref sig .tc := ⟨.hbm, 117, rfl⟩
abbrev main_v79 : Ref sig .tc := ⟨.hbm, 118, rfl⟩
abbrev main_c_13 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_cst_14 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_cst_15 : Ref sig .tc := ⟨.hbm, 129, rfl⟩
abbrev main_v88 : Ref sig .tc := ⟨.hbm, 130, rfl⟩
abbrev main_cst_16 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_cst_17 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_c_18 : Ref sig .tc := ⟨.hbm, 147, rfl⟩
abbrev main_v103 : Ref sig .tc := ⟨.hbm, 148, rfl⟩
abbrev main_v104 : Ref sig .tc := ⟨.hbm, 149, rfl⟩
abbrev main_c_19 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_cst_20 : Ref sig .tc := ⟨.hbm, 161, rfl⟩
abbrev main_call2_cst : Ref sig .tc := ⟨.hbm, 162, rfl⟩
abbrev main_call2_v0 : Ref sig .tc := ⟨.hbm, 163, rfl⟩
abbrev main_call2_v1 : Ref sig .tc := ⟨.hbm, 164, rfl⟩
abbrev main_call2_v2 : Ref sig .tc := ⟨.hbm, 165, rfl⟩
abbrev main_call2_v3 : Ref sig .tc := ⟨.hbm, 166, rfl⟩
abbrev main_call2_v4 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  slices_S3x96x96_S1x96x96_0_0_0 : S3x96x96.Slices ![0, 0, 0] S1x96x96
  shapeCasts_S1x96x96_S96x96 : S1x96x96.ShapeCasts S96x96
  slices_S3x96_S1x96_0_0 : S3x96.Slices ![0, 0] S1x96
  shapeCasts_S1x96_S96 : S1x96.ShapeCasts S96
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  slices_S3x96x96_S1x96x96_1_0_0 : S3x96x96.Slices ![1, 0, 0] S1x96x96
  slices_S3x96_S1x96_1_0 : S3x96.Slices ![1, 0] S1x96
  slices_S3x96x96_S1x96x96_2_0_0 : S3x96x96.Slices ![2, 0, 0] S1x96x96
  slices_S3x96_S1x96_2_0 : S3x96.Slices ![2, 0] S1x96
  bcast_S_S32768x2 : S_.BroadcastsInDim S32768x2 (![] : Fin 0 → Fin S32768x2.rank)
  bcast_S32768x2_S32768x2x1_0_1 : S32768x2.BroadcastsInDim S32768x2x1 (![0, 1] : Fin 2 → Fin S32768x2x1.rank)
  shapeCasts_S32768x2x96_S32768x192 : S32768x2x96.ShapeCasts S32768x192
  bcast_S1x96_S32768x96_0_1 : S1x96.BroadcastsInDim S32768x96 (![0, 1] : Fin 2 → Fin S32768x96.rank)
  bcast_S_S32768x96 : S_.BroadcastsInDim S32768x96 (![] : Fin 0 → Fin S32768x96.rank)
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  dot_S50000x64_S64x96_S50000x96_1_0_0_1_n_n_wf : DotDims.WF S50000x64 S64x96 S50000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  scatter_S50000_S800000x1_S800000_n_0_0_1_wf : ScatterDims.WF S50000 S800000x1 S800000 [] [0] [0] 1
  dot_S50000x96_S96x96_S50000x96_1_0_0_1_n_n_wf : DotDims.WF S50000x96 S96x96 S50000x96 [1] [0] [0] [1] [] []
  gather_S50000x96_S32768x2x1_S32768x2x96_2_0_n_n_0_2_196_wf : GatherDims.WF S50000x96 S32768x2x1 S32768x2x96 [2] [0] [] [0] [] 2 ![1, 96]
  dot_S32768x192_S192x96_S32768x96_1_0_0_1_n_n_wf : DotDims.WF S32768x192 S192x96 S32768x96 [1] [0] [0] [1] [] []
  dot_S32768x96_S96x1_S32768x1_1_0_0_1_n_n_wf : DotDims.WF S32768x96 S96x1 S32768x1 [1] [0] [0] [1] [] []

variable [Facts₀]

def dot_S50000x64_S64x96_S50000x96_1_0_0_1_n_n : DotDims S50000x64 S64x96 S50000x96 where
  lhsContracting := [1]
  rhsContracting := [0]
  lhsNonContracting := [0]
  rhsNonContracting := [1]
  lhsBatch := []
  rhsBatch := []
  wf := dot_S50000x64_S64x96_S50000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def gather_S50000x96_S32768x2x1_S32768x2x96_2_0_n_n_0_2_196 : GatherDims S50000x96 S32768x2x1 S32768x2x96 where
  offsetDims := [2]
  collapsedSliceDims := [0]
  operandBatchingDims := []
  startIndicesBatchingDims := []
  startIndexMap := [0]
  indexVectorDim := 2
  sliceSizes := ![1, 96]
  wf := gather_S50000x96_S32768x2x1_S32768x2x96_2_0_n_n_0_2_196_wf
def dot_S32768x192_S192x96_S32768x96_1_0_0_1_n_n : DotDims S32768x192 S192x96 S32768x96 where
  lhsContracting := [1]
  rhsContracting := [0]
  lhsNonContracting := [0]
  rhsNonContracting := [1]
  lhsBatch := []
  rhsBatch := []
  wf := dot_S32768x192_S192x96_S32768x96_1_0_0_1_n_n_wf
def dot_S32768x96_S96x1_S32768x1_1_0_0_1_n_n : DotDims S32768x96 S96x1 S32768x1 where
  lhsContracting := [1]
  rhsContracting := [0]
  lhsNonContracting := [0]
  rhsNonContracting := [1]
  lhsBatch := []
  rhsBatch := []
  wf := dot_S32768x96_S96x1_S32768x1_1_0_0_1_n_n_wf

class Facts : Prop extends Facts₀ where

variable [Facts]
-- ==== Proof.KernelRun.lean ====
/-
  The kernel program's run with EVERY final buffer named. The program is five kernel regions among stretches of host
  operations; the contents of the TensorCore's buffers at each boundary are a fold from the launch memory (a stretch
  applies its operations; a region leaves each of its arrays at what its write-backs fold to and every other buffer as
  it found it). Every weakly fair execution terminates, faults nowhere, and ends with every unscoped buffer at the last
  boundary's contents: in particular the result array, and each argument array as launched.
-/
import proofs.«139593_j16183436771650_1_alg».proof.Proof.Gen.KernelIdeal.Frame

set_option maxRecDepth 16384

noncomputable section

namespace Cert.KernelIdeal.RunAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault with every unscoped buffer of every
    core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

/-- The result array ends at the last boundary's contents, and each argument array as launched. -/
theorem run : θ_run defs (onTc (τ := τ) (main (F := F))) ⟨m, fun _ => 0, ρ⟩ (fun r => ∀ c : Dev nD,
      r.2.mem ((c.tc : Thread nD τ).loc main_v87) = W10 m ρ c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun s h c =>
      ⟨h c _ (mem_uc main_v87 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c)⟩)
    (run_all m ρ)

end Cert.KernelIdeal.RunAll

end
-- ==== Proof.KerTerm.lean ====
/-
  The host-side stages of the kernel program, as named compositions of its printed operations.

  For an edge table `e` (row 0 the source node of each edge, row 1 its destination): the two rows as vectors; a vector of
  node indices with the negative ones counted from the end, as a column (what a row gather takes); the destinations as a
  column (what a scatter-add takes); the reciprocal of each node's incoming-edge count clamped below by one; the sum over
  a node's incoming edges of the source rows of `h`; and that sum scaled by the reciprocal count. Also the slices of
  the stacked layer weights, the biases as one-row arrays, and the pair gather (the rows of the two nodes of each pair
  side by side).
-/
import proofs.«139593_j16183436771650_1_alg».proof.KernelIdeal

noncomputable section

namespace Cert.KernelIdeal.KerTerm

open Idealize.ShloMosaic Cert.KernelIdeal

variable {F : FTy → Type} [FloatOps F] [Facts]
open Facts₀ Facts

/-- A tensor of shape `s` and element type `t` over the float values `F`. -/
local notation "Ten[" s ", " t "]" => BufTy.Contents (Elt F) (BufTy.mk s t)

/-- Row 0 of the edge table: the source node of each edge. -/
def srcRow (e : Ten[S2x800000, .i32]) : Ten[S800000, .i32] :=
  shapeCast S800000 (extractStridedSlice S1x800000 ![0, 0] e slices_S2x800000_S1x800000_0_0) shapeCasts_S1x800000_S800000

/-- Row 1 of the edge table: the destination node of each edge. -/
def dstRow (e : Ten[S2x800000, .i32]) : Ten[S800000, .i32] :=
  shapeCast S800000 (extractStridedSlice S1x800000 ![1, 0] e slices_S2x800000_S1x800000_1_0) shapeCasts_S1x800000_S800000

/-- Node indices with the negative ones counted from the end (`v < 0 ↦ v + 50000`), as a column. -/
def wrapCol (v : Ten[S800000, .i32]) : Ten[S800000x1, .i32] :=
  broadcastInDim S800000x1 ![0] bcast_S800000_S800000x1_0
    (select
      (cmpi .slt v (broadcastInDim S800000 ![] bcast_S_S800000 (constantI S_ 32 0#32)))
      (addi v (broadcastInDim S800000 ![] bcast_S_S800000 (constantI S_ 32 50000#32)))
      v)

/-- The destinations as a column. -/
def dstCol (e : Ten[S2x800000, .i32]) : Ten[S800000x1, .i32] :=
  broadcastInDim S800000x1 ![0] bcast_S800000_S800000x1_0 (dstRow e)

/-- Each node's incoming-edge count (a one scatter-added per edge onto zeros), clamped below by one. -/
def clampedCount (e : Ten[S2x800000, .i32]) : Ten[S50000, .f32] :=
  maximumf
    (Host.scatterAdd scatter_S50000_S800000x1_S800000_n_0_0_1
      (broadcastInDim S50000 ![] bcast_S_S50000 (constant S_ .f32 0x00000000#32))
      (dstCol e)
      (broadcastInDim S800000 ![] bcast_S_S800000 (constant S_ .f32 0x3F800000#32)))
    (broadcastInDim S50000 ![] bcast_S_S50000 (constant S_ .f32 0x3F800000#32))

/-- One over the clamped count. -/
def invCount (e : Ten[S2x800000, .i32]) : Ten[S50000, .f32] :=
  Host.divf (broadcastInDim S50000 ![] bcast_S_S50000 (constant S_ .f32 0x3F800000#32)) (clampedCount e)

/-- For each node the sum, over its incoming edges, of the source node's row of `h`, from the two rows of the edge
    table: the rows of `h` gathered at the sources, scatter-added at the destinations onto zeros. -/
def rowSumOf (h : Ten[S50000x96, .f32]) (src dst : Ten[S800000, .i32]) : Ten[S50000x96, .f32] :=
  Host.scatterAdd scatter_S50000x96_S800000x1_S800000x96_1_0_0_1
    (broadcastInDim S50000x96 ![] bcast_S_S50000x96 (constant S_ .f32 0x00000000#32))
    (broadcastInDim S800000x1 ![0] bcast_S800000_S800000x1_0 dst)
    (Host.gather gather_S50000x96_S800000x1_S800000x96_1_0_n_n_0_1_196 h (wrapCol src))

/-- That sum times a per-node factor `inv`, repeated along the features. -/
def aggrOf (h : Ten[S50000x96, .f32]) (src dst : Ten[S800000, .i32]) (inv : Ten[S50000, .f32]) : Ten[S50000x96, .f32] :=
  mulf (rowSumOf h src dst)
    (broadcastInDim S50000x96 ![0, 1] bcast_S50000x1_S50000x96_0_1
      (broadcastInDim S50000x1 ![0] bcast_S50000_S50000x1_0 inv))

/-- The mean of the incoming rows: the sum times one over the clamped count. -/
def aggr (h : Ten[S50000x96, .f32]) (e : Ten[S2x800000, .i32]) : Ten[S50000x96, .f32] :=
  aggrOf h (srcRow e) (dstRow e) (invCount e)

/-- Layer 0's matrix out of three stacked ones. -/
def wSlice0 (W : Ten[S3x96x96, .f32]) : Ten[S96x96, .f32] :=
  shapeCast S96x96 (extractStridedSlice S1x96x96 ![0, 0, 0] W slices_S3x96x96_S1x96x96_0_0_0) shapeCasts_S1x96x96_S96x96
/-- Layer 1's matrix. -/
def wSlice1 (W : Ten[S3x96x96, .f32]) : Ten[S96x96, .f32] :=
  shapeCast S96x96 (extractStridedSlice S1x96x96 ![1, 0, 0] W slices_S3x96x96_S1x96x96_1_0_0) shapeCasts_S1x96x96_S96x96
/-- Layer 2's matrix. -/
def wSlice2 (W : Ten[S3x96x96, .f32]) : Ten[S96x96, .f32] :=
  shapeCast S96x96 (extractStridedSlice S1x96x96 ![2, 0, 0] W slices_S3x96x96_S1x96x96_2_0_0) shapeCasts_S1x96x96_S96x96

/-- Layer 0's bias out of three stacked ones, as a one-row array. -/
def bRow0 (b : Ten[S3x96, .f32]) : Ten[S1x96, .f32] :=
  shapeCast S1x96 (shapeCast S96 (extractStridedSlice S1x96 ![0, 0] b slices_S3x96_S1x96_0_0) shapeCasts_S1x96_S96) shapeCasts_S96_S1x96
/-- Layer 1's bias row. -/
def bRow1 (b : Ten[S3x96, .f32]) : Ten[S1x96, .f32] :=
  shapeCast S1x96 (shapeCast S96 (extractStridedSlice S1x96 ![1, 0] b slices_S3x96_S1x96_1_0) shapeCasts_S1x96_S96) shapeCasts_S96_S1x96
/-- Layer 2's bias row. -/
def bRow2 (b : Ten[S3x96, .f32]) : Ten[S1x96, .f32] :=
  shapeCast S1x96 (shapeCast S96 (extractStridedSlice S1x96 ![2, 0] b slices_S3x96_S1x96_2_0) shapeCasts_S1x96_S96) shapeCasts_S96_S1x96

/-- A bias vector as a one-row array. -/
def biasRow (b : Ten[S96, .f32]) : Ten[S1x96, .f32] := shapeCast S1x96 b shapeCasts_S96_S1x96
/-- A one-entry bias as a one-by-one array. -/
def biasOne (b : Ten[S1, .f32]) : Ten[S1x1, .f32] := shapeCast S1x1 b shapeCasts_S1_S1x1

/-- A matrix out of three stacked ones, from its slice. -/
abbrev unstack (S : Ten[S1x96x96, .f32]) : Ten[S96x96, .f32] := shapeCast S96x96 S shapeCasts_S1x96x96_S96x96

/-- For each pair of nodes (negative indices counted from the end) the two rows of `h` side by side. -/
def pairRows (h : Ten[S50000x96, .f32]) (p : Ten[S32768x2, .i32]) : Ten[S32768x192, .f32] :=
  shapeCast S32768x192
    (Host.gather gather_S50000x96_S32768x2x1_S32768x2x96_2_0_n_n_0_2_196 h
      (broadcastInDim S32768x2x1 ![0, 1] bcast_S32768x2_S32768x2x1_0_1
        (select
          (cmpi .slt p (broadcastInDim S32768x2 ![] bcast_S_S32768x2 (constantI S_ 32 0#32)))
          (addi p (broadcastInDim S32768x2 ![] bcast_S_S32768x2 (constantI S_ 32 50000#32)))
          p)))
    shapeCasts_S32768x2x96_S32768x192

end Cert.KernelIdeal.KerTerm

end
-- ==== Proof.KerChain.lean ====
/-
  The contents of the kernel program's buffers at its boundaries, traced back to the launch memory.

  Between the launch and the return the program alternates five stretches of host operations with five kernel regions.
  A stretch changes only the buffers its operations write; a region changes only its own output array. So a buffer
  that nothing later writes keeps, at every later boundary, the contents it first got — the edge table's two rows, the
  reciprocal neighbour counts, and the untouched arguments are carried this way —, and each region's inputs are
  host-stage functions of carried values and of the previous region's output.
-/
import proofs.«139593_j16183436771650_1_alg».proof.Proof.Gen.KernelIdeal.Frame
import proofs.«139593_j16183436771650_1_alg».proof.Proof.KerTerm
import Idealize.ShloMosaic.Lib.StableHlo.Run

set_option maxRecDepth 16384

noncomputable section

namespace Cert.KernelIdeal.Chain

open Cert.KernelIdeal Cert.KernelIdeal.Gen Cert.KernelIdeal.KerTerm
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-! ## What each stretch writes -/

def wr0 : List (Ref sig .tc) := [main_v0, main_v1, main_v2, main_v3, main_cst, main_v4, main_cst_0, main_v5, main_v6, main_v7, main_cst_1, main_v8, main_v9, main_cst_2, main_v10, main_v11, main_v12]
def wr1 : List (Ref sig .tc) := [main_c, main_v14, main_v15, main_c_3, main_v16, main_v17, main_v18, main_v19, main_v20, main_cst_4, main_v21, main_v22, main_v23, main_v24, main_v25, main_v26, main_v27, main_v28, main_v29, main_v30, main_v31, main_v32, main_v33]
def wr2 : List (Ref sig .tc) := [main_c_5, main_v35, main_v36, main_c_6, main_v37, main_v38, main_v39, main_v40, main_v41, main_cst_7, main_v42, main_v43, main_v44, main_v45, main_v46, main_v47, main_v48, main_v49, main_v50, main_v51, main_v52, main_v53, main_v54]
def wr3 : List (Ref sig .tc) := [main_c_8, main_v56, main_v57, main_c_9, main_v58, main_v59, main_v60, main_v61, main_v62, main_cst_10, main_v63, main_v64, main_v65, main_v66, main_v67, main_v68, main_v69, main_v70, main_v71, main_v72, main_v73, main_v74, main_v75]
def wr4 : List (Ref sig .tc) := [main_c_11, main_v77, main_v78, main_c_12, main_v79, main_v80, main_v81, main_v82, main_v83, main_v84, main_v85, main_v86]

theorem writes0 : (hostOps0 : List (HloOp τ sig (Elt F))).Forall fun op =>
    op.writes ⊆ (wr0.map (Proc.devRef (τ := τ) .tc)).toFinset := by
  simp only [hostOps0, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map.mpr ⟨_, by decide, rfl⟩))

theorem writes1 : (hostOps1 : List (HloOp τ sig (Elt F))).Forall fun op =>
    op.writes ⊆ (wr1.map (Proc.devRef (τ := τ) .tc)).toFinset := by
  simp only [hostOps1, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map.mpr ⟨_, by decide, rfl⟩))

theorem writes2 : (hostOps2 : List (HloOp τ sig (Elt F))).Forall fun op =>
    op.writes ⊆ (wr2.map (Proc.devRef (τ := τ) .tc)).toFinset := by
  simp only [hostOps2, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map.mpr ⟨_, by decide, rfl⟩))

theorem writes3 : (hostOps3 : List (HloOp τ sig (Elt F))).Forall fun op =>
    op.writes ⊆ (wr3.map (Proc.devRef (τ := τ) .tc)).toFinset := by
  simp only [hostOps3, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map.mpr ⟨_, by decide, rfl⟩))

theorem writes4 : (hostOps4 : List (HloOp τ sig (Elt F))).Forall fun op =>
    op.writes ⊆ (wr4.map (Proc.devRef (τ := τ) .tc)).toFinset := by
  simp only [hostOps4, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map.mpr ⟨_, by decide, rfl⟩))

/-! ## One step across a boundary: a buffer the step does not write keeps its contents -/

theorem s1 (b : Ref sig .tc) (hb : b ∉ wr0) : W1 m ρ c (Proc.devRef .tc b) = m ((c.tc : Thread nD τ).loc b) :=
  after_of_writes_sub hostOps0 (W0 m ρ c) writes0 hb
theorem s2 (b : Ref sig .tc) (hb : ∀ w, Pipeline.arrRef spec0 w ≠ b) :
    W2 m ρ c (Proc.devRef .tc b) = W1 m ρ c (Proc.devRef .tc b) := W2_of_ne m ρ c b hb
theorem s3 (b : Ref sig .tc) (hb : b ∉ wr1) : W3 m ρ c (Proc.devRef .tc b) = W2 m ρ c (Proc.devRef .tc b) :=
  after_of_writes_sub hostOps1 (W2 m ρ c) writes1 hb
theorem s4 (b : Ref sig .tc) (hb : ∀ w, Pipeline.arrRef spec1 w ≠ b) :
    W4 m ρ c (Proc.devRef .tc b) = W3 m ρ c (Proc.devRef .tc b) := W4_of_ne m ρ c b hb
theorem s5 (b : Ref sig .tc) (hb : b ∉ wr2) : W5 m ρ c (Proc.devRef .tc b) = W4 m ρ c (Proc.devRef .tc b) :=
  after_of_writes_sub hostOps2 (W4 m ρ c) writes2 hb
theorem s6 (b : Ref sig .tc) (hb : ∀ w, Pipeline.arrRef spec2 w ≠ b) :
    W6 m ρ c (Proc.devRef .tc b) = W5 m ρ c (Proc.devRef .tc b) := W6_of_ne m ρ c b hb
theorem s7 (b : Ref sig .tc) (hb : b ∉ wr3) : W7 m ρ c (Proc.devRef .tc b) = W6 m ρ c (Proc.devRef .tc b) :=
  after_of_writes_sub hostOps3 (W6 m ρ c) writes3 hb
theorem s8 (b : Ref sig .tc) (hb : ∀ w, Pipeline.arrRef spec3 w ≠ b) :
    W8 m ρ c (Proc.devRef .tc b) = W7 m ρ c (Proc.devRef .tc b) := W8_of_ne m ρ c b hb
theorem s9 (b : Ref sig .tc) (hb : b ∉ wr4) : W9 m ρ c (Proc.devRef .tc b) = W8 m ρ c (Proc.devRef .tc b) :=
  after_of_writes_sub hostOps4 (W8 m ρ c) writes4 hb

/-! ## Several steps at once, back to the first boundary -/

theorem to2 (b : Ref sig .tc) (h2 : ∀ w, Pipeline.arrRef spec0 w ≠ b) :
    W2 m ρ c (Proc.devRef .tc b) = W1 m ρ c (Proc.devRef .tc b) := s2 m ρ c b h2
theorem to4 (b : Ref sig .tc) (h2 : ∀ w, Pipeline.arrRef spec0 w ≠ b) (h3 : b ∉ wr1) (h4 : ∀ w, Pipeline.arrRef spec1 w ≠ b) :
    W4 m ρ c (Proc.devRef .tc b) = W1 m ρ c (Proc.devRef .tc b) :=
  (s4 m ρ c b h4).trans ((s3 m ρ c b h3).trans (to2 m ρ c b h2))
theorem to6 (b : Ref sig .tc) (h2 : ∀ w, Pipeline.arrRef spec0 w ≠ b) (h3 : b ∉ wr1) (h4 : ∀ w, Pipeline.arrRef spec1 w ≠ b)
    (h5 : b ∉ wr2) (h6 : ∀ w, Pipeline.arrRef spec2 w ≠ b) :
    W6 m ρ c (Proc.devRef .tc b) = W1 m ρ c (Proc.devRef .tc b) :=
  (s6 m ρ c b h6).trans ((s5 m ρ c b h5).trans (to4 m ρ c b h2 h3 h4))
theorem to8 (b : Ref sig .tc) (h2 : ∀ w, Pipeline.arrRef spec0 w ≠ b) (h3 : b ∉ wr1) (h4 : ∀ w, Pipeline.arrRef spec1 w ≠ b)
    (h5 : b ∉ wr2) (h6 : ∀ w, Pipeline.arrRef spec2 w ≠ b) (h7 : b ∉ wr3) (h8 : ∀ w, Pipeline.arrRef spec3 w ≠ b) :
    W8 m ρ c (Proc.devRef .tc b) = W1 m ρ c (Proc.devRef .tc b) :=
  (s8 m ρ c b h8).trans ((s7 m ρ c b h7).trans (to6 m ρ c b h2 h3 h4 h5 h6))
theorem to9 (b : Ref sig .tc) (h2 : ∀ w, Pipeline.arrRef spec0 w ≠ b) (h3 : b ∉ wr1) (h4 : ∀ w, Pipeline.arrRef spec1 w ≠ b)
    (h5 : b ∉ wr2) (h6 : ∀ w, Pipeline.arrRef spec2 w ≠ b) (h7 : b ∉ wr3) (h8 : ∀ w, Pipeline.arrRef spec3 w ≠ b)
    (h9 : b ∉ wr4) :
    W9 m ρ c (Proc.devRef .tc b) = W1 m ρ c (Proc.devRef .tc b) :=
  (s9 m ρ c b h9).trans (to8 m ρ c b h2 h3 h4 h5 h6 h7 h8)

/-! ## The first boundary: what the first stretch computes from the edge table and the embedding bias -/

theorem W1_src : W1 m ρ c (Proc.devRef .tc main_v1) = srcRow (m ((c.tc : Thread nD τ).loc main_arg1)) := by
  show StableHlo.after hostOps0 (W0 m ρ c) (Proc.devRef .tc main_v1) = _
  after_results
  rfl
theorem W1_dst : W1 m ρ c (Proc.devRef .tc main_v3) = dstRow (m ((c.tc : Thread nD τ).loc main_arg1)) := by
  show StableHlo.after hostOps0 (W0 m ρ c) (Proc.devRef .tc main_v3) = _
  after_results
  rfl
theorem W1_inv : W1 m ρ c (Proc.devRef .tc main_v11) = invCount (m ((c.tc : Thread nD τ).loc main_arg1)) := by
  show StableHlo.after hostOps0 (W0 m ρ c) (Proc.devRef .tc main_v11) = _
  after_results
  rfl
theorem W1_bias : W1 m ρ c (Proc.devRef .tc main_v12) = biasRow (m ((c.tc : Thread nD τ).loc main_arg4)) := by
  show StableHlo.after hostOps0 (W0 m ρ c) (Proc.devRef .tc main_v12) = _
  after_results
  rfl

end Cert.KernelIdeal.Chain

end
-- ==== Proof.Spec.lean ====
/-
  What each stage of the network computes, as functions of whole arrays over the extended reals, and the two
  elementary facts that join the two programs.

  * `lin X W` is the matrix product: entry `(r, c)` is the sum over `k` of `X (r, k) * W (k, c)`.
  * A bias reaches every stage as a `[1, C]` array `B`; it is added to every row: `+ B (0, c)`.
  * The activation multiplies the negative numbers by a slope `s` and keeps the others. One program tests
    `0 < y`, the other `0 ≤ y`; they differ only at `y = 0`, where both give `0` (`s * 0 = 0` for every extended
    real `s`).
  * A node's neighbour sum is divided by its clamped neighbour count `c`. One program multiplies by `1 / c`, the other
    divides by `c`; for `c ≠ 0` both are `x * c⁻¹`.
-/
import Idealize.ShloMosaic.PureOps.Ideal
import Idealize.ShloMosaic.Lib.ValueIdx

noncomputable section

open scoped BigOperators

namespace Cert.Sage

open Idealize.ShloMosaic Idealize.ShloMosaic.ValueIdx

/-- An `a × b` array of extended reals. -/
abbrev Mat (a b : ℕ) := (⟨2, ![a, b]⟩ : Shape).Idx → EReal

/-- The matrix product. -/
def lin {n k m : ℕ} (X : Mat n k) (W : Mat k m) : Mat n m :=
  fun i => ∑ j : Fin k, X (ix2 (i 0) j) * W (ix2 j (i 1))

theorem lin_apply {n k m : ℕ} (X : Mat n k) (W : Mat k m) (r : Fin n) (c : Fin m) :
    lin X W (ix2 r c) = ∑ j : Fin k, X (ix2 r j) * W (ix2 j c) := rfl

/-- The activation as the kernel computes it: keep `y` when `0 < y`, else `s * y`. -/
def actGt (s y : EReal) : EReal := Scalar.select (Ideal.cmp .ogt y 0) y (s * y)

/-- The activation as the reference computes it: keep `y` when `0 ≤ y`, else `s * y`. -/
def actGe (s y : EReal) : EReal := Scalar.select (Ideal.cmp .oge y 0) y (s * y)

/-- The two agree: they differ only in the branch taken at `y = 0`, and there `s * 0 = 0 = y`. -/
theorem actGt_eq_actGe (s y : EReal) : actGt s y = actGe s y := by
  unfold actGt actGe Scalar.select Ideal.cmp
  rcases lt_trichotomy (0 : EReal) y with h | h | h
  · simp [h, h.le]
  · subst h; simp
  · simp [h.not_gt, h.not_ge]

/-- Multiplying by the reciprocal is dividing, when the divisor is not zero: both are `x * c⁻¹`. -/
theorem mul_one_div (x c : EReal) (hc : c ≠ 0) : x * Ideal.div 1 c = Ideal.div x c := by
  unfold Ideal.div
  rw [if_neg hc, if_neg hc, one_mul]

/-- A number clamped below by a positive one is not zero. -/
theorem max_ne_zero (a b : EReal) (hb : 0 < b) : max a b ≠ 0 :=
  (lt_of_lt_of_le hb (le_max_right a b)).ne'

/-- The embedding: `X · W` plus the bias row. -/
def embedF {n k m : ℕ} (X : Mat n k) (W : Mat k m) (B : Mat 1 m) : Mat n m :=
  fun i => lin X W i + B (ix2 (0 : Fin 1) (i 1))

/-- One layer before its activation, in the kernel's order: `(A · Wl + H · Wr) + bias`. -/
def layerK {n k m : ℕ} (A H : Mat n k) (Wl Wr : Mat k m) (B : Mat 1 m) : Mat n m :=
  fun i => (lin A Wl i + lin H Wr i) + B (ix2 (0 : Fin 1) (i 1))

/-- The same in the reference's order: `(A · Wl + bias) + H · Wr`. -/
def layerR {n k m : ℕ} (A H : Mat n k) (Wl Wr : Mat k m) (B : Mat 1 m) : Mat n m :=
  fun i => (lin A Wl i + B (ix2 (0 : Fin 1) (i 1))) + lin H Wr i

/-- Addition of extended reals is commutative and associative, so the two orders agree. -/
theorem layerK_eq_layerR {n k m : ℕ} (A H : Mat n k) (Wl Wr : Mat k m) (B : Mat 1 m) :
    layerK A H Wl Wr B = layerR A H Wl Wr B :=
  funext fun _ => add_right_comm _ _ _

/-- The pair scorer: an activated layer, then a second product and bias. -/
def scoreF {n k m o : ℕ} (s : EReal) (X : Mat n k) (W1 : Mat k m) (B1 : Mat 1 m) (W2 : Mat m o) (B2 : Mat 1 o) : Mat n o :=
  fun i => lin (fun j => actGt s (embedF X W1 B1 j)) W2 i + B2 (ix2 (0 : Fin 1) (i 1))

/-- A row of the embedding depends only on the same row of `X`. -/
theorem embedF_congr {n n' k m : ℕ} (X : Mat n k) (X' : Mat n' k) (W W' : Mat k m) (B B' : Mat 1 m)
    (r : Fin n) (r' : Fin n') (c : Fin m) (hX : ∀ j, X (ix2 r j) = X' (ix2 r' j))
    (hW : ∀ j, W (ix2 j c) = W' (ix2 j c)) (hB : B (ix2 (0 : Fin 1) c) = B' (ix2 (0 : Fin 1) c)) :
    embedF X W B (ix2 r c) = embedF X' W' B' (ix2 r' c) := by
  show (∑ j : Fin k, X (ix2 r j) * W (ix2 j c)) + B (ix2 (0 : Fin 1) c)
    = (∑ j : Fin k, X' (ix2 r' j) * W' (ix2 j c)) + B' (ix2 (0 : Fin 1) c)
  rw [hB]
  exact congrArg (· + _) (Finset.sum_congr rfl fun j _ => by rw [hX j, hW j])

/-- A row of a layer depends only on the same rows of the neighbour means and of the features. -/
theorem layerK_congr {n n' k m : ℕ} (A H : Mat n k) (A' H' : Mat n' k) (Wl Wl' Wr Wr' : Mat k m) (B B' : Mat 1 m)
    (r : Fin n) (r' : Fin n') (c : Fin m) (hA : ∀ j, A (ix2 r j) = A' (ix2 r' j)) (hH : ∀ j, H (ix2 r j) = H' (ix2 r' j))
    (hWl : ∀ j, Wl (ix2 j c) = Wl' (ix2 j c)) (hWr : ∀ j, Wr (ix2 j c) = Wr' (ix2 j c))
    (hB : B (ix2 (0 : Fin 1) c) = B' (ix2 (0 : Fin 1) c)) :
    layerK A H Wl Wr B (ix2 r c) = layerK A' H' Wl' Wr' B' (ix2 r' c) := by
  show ((∑ j : Fin k, A (ix2 r j) * Wl (ix2 j c)) + (∑ j : Fin k, H (ix2 r j) * Wr (ix2 j c))) + B (ix2 (0 : Fin 1) c)
    = ((∑ j : Fin k, A' (ix2 r' j) * Wl' (ix2 j c)) + (∑ j : Fin k, H' (ix2 r' j) * Wr' (ix2 j c))) + B' (ix2 (0 : Fin 1) c)
  have e1 : (∑ j : Fin k, A (ix2 r j) * Wl (ix2 j c)) = ∑ j : Fin k, A' (ix2 r' j) * Wl' (ix2 j c) :=
    Finset.sum_congr rfl fun j _ => by rw [hA j, hWl j]
  have e2 : (∑ j : Fin k, H (ix2 r j) * Wr (ix2 j c)) = ∑ j : Fin k, H' (ix2 r' j) * Wr' (ix2 j c) :=
    Finset.sum_congr rfl fun j _ => by rw [hH j, hWr j]
  rw [hB, e1, e2]

/-- A row of the pair scorer depends only on the same row of its input. -/
theorem scoreF_congr {n n' k m o : ℕ} (s : EReal) (X : Mat n k) (X' : Mat n' k) (W1 W1' : Mat k m) (B1 B1' : Mat 1 m)
    (W2 W2' : Mat m o) (B2 B2' : Mat 1 o) (r : Fin n) (r' : Fin n') (c : Fin o)
    (hX : ∀ j, X (ix2 r j) = X' (ix2 r' j)) (hW1 : ∀ j j', W1 (ix2 j j') = W1' (ix2 j j'))
    (hB1 : ∀ j', B1 (ix2 (0 : Fin 1) j') = B1' (ix2 (0 : Fin 1) j')) (hW2 : ∀ j', W2 (ix2 j' c) = W2' (ix2 j' c))
    (hB2 : B2 (ix2 (0 : Fin 1) c) = B2' (ix2 (0 : Fin 1) c)) :
    scoreF s X W1 B1 W2 B2 (ix2 r c) = scoreF s X' W1' B1' W2' B2' (ix2 r' c) := by
  show (∑ j' : Fin m, actGt s (embedF X W1 B1 (ix2 r j')) * W2 (ix2 j' c)) + B2 (ix2 (0 : Fin 1) c)
    = (∑ j' : Fin m, actGt s (embedF X' W1' B1' (ix2 r' j')) * W2' (ix2 j' c)) + B2' (ix2 (0 : Fin 1) c)
  rw [hB2]
  refine congrArg (· + _) (Finset.sum_congr rfl fun j' _ => ?_)
  rw [hW2 j', embedF_congr X X' W1 W1' B1 B1' r r' j' hX (fun j => hW1 j j') (hB1 j')]

end Cert.Sage

end
-- ==== Proof.LibPlainDot.lean ====
/-
  A plain matrix product read at an index.

  For the dimension numbers of an `M x K` by `K x N` product (contract the left operand's columns with the right
  operand's rows, no batch axis) the contraction index is one coordinate `k < K`, the left operand is read at
  `(row, k)` and the right at `(k, column)`. So at the ideal instance both the matrix unit's product into a zero
  accumulator and the host's `dot_general` are, at output index `(r, c)`, the sum over `k` of `l (r, k) * r (k, c)`.
-/
import Idealize.ShloMosaic.PureOps.Ideal.Laws
import Idealize.ShloMosaic.Lib.ValueIdx

noncomputable section

namespace Cert.Lib.PlainDot

open Idealize.ShloMosaic Idealize.ShloMosaic.ValueIdx

variable (M K N : ℕ)

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product, over the contracted coordinate. -/
theorem sum_plain {α : Type*} [AddCommMonoid α] (f : (⟨2, ![M, K]⟩ : Shape).Idx → (⟨2, ![K, N]⟩ : Shape).Idx → α)
    (i : (⟨2, ![M, N]⟩ : Shape).Idx) :
    ∑ q : (DotDims.plain M K N).contr.Idx, f ((DotDims.plain M K N).lhsIdx i q) ((DotDims.plain M K N).rhsIdx i q)
      = ∑ k : Fin K, f (ix2 (i 0) k) (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs0 M K N _ _
      | ⟨1, _⟩ => exact ((DotDims.plain M K N).lhsIdx_val_of_single (cl := 1) rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single (cr := 0) rfl i _).trans hk
      | ⟨1, _⟩ => exact rhs1 M K N _ _)
  rw [el, er]
  rfl

/-- The matrix unit's product into a zero accumulator, at an index. -/
theorem matmul_zero_apply {φ₁ φ₂ : FTy} (prec : Option ContractPrecision)
    (l : FVec Ideal ⟨2, ![M, K]⟩ φ₁) (r : FVec Ideal ⟨2, ![K, N]⟩ φ₂) (i : (⟨2, ![M, N]⟩ : Shape).Idx) :
    FloatOps.matmul (DotDims.plain M K N) prec l r (constant ⟨2, ![M, N]⟩ .f32 0x00000000#32) i
      = ∑ k : Fin K, l (ix2 (i 0) k) * r (ix2 k (i 1)) := by
  rw [Ideal.matmul_constant_zero_apply]
  exact sum_plain M K N (fun a b => l a * r b) i

/-- The host's `dot_general`, at an index. -/
theorem dotGeneral_apply {φ₁ φ₂ : FTy} (prec : Option ContractPrecision) (sched : HostSchedule)
    (l : FVec Ideal ⟨2, ![M, K]⟩ φ₁) (r : FVec Ideal ⟨2, ![K, N]⟩ φ₂) (i : (⟨2, ![M, N]⟩ : Shape).Idx) :
    FloatOps.dotGeneral (DotDims.plain M K N) prec sched l r i
      = ∑ k : Fin K, l (ix2 (i 0) k) * r (ix2 k (i 1)) := by
  rw [Ideal.dotGeneral_apply]
  exact sum_plain M K N (fun a b => l a * r b) i

end Cert.Lib.PlainDot

end
-- ==== Proof.BodyEmbed.lean ====
/-
  The embedding kernel's body, read at an index: rounding to a shorter float format is the identity on the extended
  reals, the matrix unit's product into a zero accumulator is the sum over the contracted coordinate, and the bias row is
  broadcast down the rows. So the stored block is `X · W` plus the bias row, entry by entry.
-/
import proofs.«139593_j16183436771650_1_alg».proof.Proof.Gen.KernelIdeal.Skeleton
import proofs.«139593_j16183436771650_1_alg».proof.Proof.Spec
import proofs.«139593_j16183436771650_1_alg».proof.Proof.LibPlainDot
import Idealize.ShloMosaic.Lib.ValueLayout
import Idealize.ShloMosaic.Lib.Pipeline.Value

noncomputable section

open scoped BigOperators

namespace Cert.Sage

open Idealize.ShloMosaic Idealize.ShloMosaic.ValueIdx Cert.KernelIdeal Cert.KernelIdeal.Gen

theorem dot0_plain : dot_S5000x64_S64x96_S5000x96_1_0_0_1_n_n = DotDims.plain 5000 64 96 := rfl

/-- The embedding body's stored value at row `p`, column `q` of its block. -/
theorem pay0_apply (v0 : Vec Ideal S5000x64 .f32) (v2 : Vec Ideal S64x96 .f32) (v5 : Vec Ideal S1x96 .f32)
    (p : Fin 5000) (q : Fin 96) :
    k0_pay1 (F := Ideal) v0 v2 v5 (ix2 p q) = embedF v0 v2 v5 (ix2 p q) := by
  unfold k0_pay1
  show FloatOps.matmul (F := Ideal) (φ₁ := .bf16) (φ₂ := .bf16) dot_S5000x64_S64x96_S5000x96_1_0_0_1_n_n none v0 v2
        (constant S5000x96 .f32 0x00000000#32) (ix2 p q)
      + broadcastTo S5000x96 (shapeCast S1x96 v5 shapeCasts_S1x96_S1x96) broadcasts_S1x96_S5000x96 (ix2 p q) = _
  rw [dot0_plain, Cert.Lib.PlainDot.matmul_zero_apply, shapeCast_self, broadcastTo_1b_ab_apply]
  rfl

end Cert.Sage

end
-- ==== Proof.Region0.lean ====
/-
  The embedding region as ONE function of its arrays. The region runs the body at ten grid points; point `t` reads rows
  `5000 t … 5000 t + 4999` of the features, the whole weight matrix and the whole bias row, and writes back the same rows
  of the output. The body's block is `X · W` plus the bias row (BodyEmbed), a row of which depends only on the same row
  of `X`; so what point `t` writes back is block `t` of `embedF` of the whole arrays, the ten blocks cover the output,
  and the output array after the region is `embedF` of the arrays as the region found them.
-/
import proofs.«139593_j16183436771650_1_alg».proof.Proof.Gen.KernelIdeal.Frame
import proofs.«139593_j16183436771650_1_alg».proof.Proof.BodyEmbed

set_option maxRecDepth 16384

noncomputable section

open scoped BigOperators

namespace Cert.Sage.R0

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the features and the output move down one block of rows per point; the weights and
    the bias stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of point `t`'s block is row `5000 t + p` of the array. -/
def row (t : Fin cfg0.N) (p : Fin 5000) : Fin 50000 :=
  ⟨t.val * 5000 + p.val, by have := t.isLt; have hN : cfg0.N = 10 := N_0; have := p.isLt; omega⟩

/-- The features' block at point `t`. -/
theorem rd_x (c : Dev nD) (t : Fin cfg0.N) (p : Fin 5000) (k : Fin 64) :
    iblk0 V c 0 t (ix2 p k) = V c main_arg0 (ix2 (row t p) k) := by
  obtain ⟨e0, e1, -⟩ := idx_facts t
  show V c main_arg0 (((cfg0.win 0).blk t).view.emb (ix2 p k)) = V c main_arg0 _
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 64 + 1 * k.val = k.val; omega

/-- The weights' block is the whole matrix. -/
theorem rd_w (c : Dev nD) (t : Fin cfg0.N) (k : Fin 64) (q : Fin 96) :
    iblk0 V c 1 t (ix2 k q) = V c main_arg3 (ix2 k q) := by
  obtain ⟨-, -, e0, e1, -⟩ := idx_facts t
  show V c main_arg3 (((cfg0.win 1).blk t).view.emb (ix2 k q)) = V c main_arg3 _
  refine congrArg _ (funext fun a => Fin.ext ?_)
  match a with
  | ⟨0, _⟩ => show win0_1.index t (0 : Fin 2) * 64 + 1 * k.val = k.val; omega
  | ⟨1, _⟩ => show win0_1.index t (1 : Fin 2) * 96 + 1 * q.val = q.val; omega

/-- The bias block is the whole row. -/
theorem rd_b (c : Dev nD) (t : Fin cfg0.N) (q : Fin 96) :
    iblk0 V c 2 t (ix2 (0 : Fin 1) q) = V c main_v12 (ix2 (0 : Fin 1) q) := by
  obtain ⟨-, -, -, -, e0, e1, -⟩ := idx_facts t
  show V c main_v12 (((cfg0.win 2).blk t).view.emb (ix2 (0 : Fin 1) q)) = V c main_v12 _
  refine congrArg _ (funext fun a => Fin.ext ?_)
  match a with
  | ⟨0, _⟩ => show win0_2.index t (0 : Fin 2) * 1 + 1 * 0 = 0; omega
  | ⟨1, _⟩ => show win0_2.index t (1 : Fin 2) * 96 + 1 * q.val = q.val; omega

/-- Where the output's block sits in its array. -/
theorem emb_out (t : Fin cfg0.N) (p : Fin 5000) (q : Fin 96) :
    ((cfg0.win 3).blk t).view.emb (ix2 p q) = ix2 (row t p) q := by
  obtain ⟨-, -, -, -, -, -, e0, e1⟩ := idx_facts t
  refine funext fun a => Fin.ext ?_
  match a with
  | ⟨0, _⟩ => show win0_3.index t (0 : Fin 2) * 5000 + 1 * p.val = t.val * 5000 + p.val; omega
  | ⟨1, _⟩ => show win0_3.index t (1 : Fin 2) * 96 + 1 * q.val = q.val; omega

/-- The body's value at an entry of point `t`'s block is `embedF` of the whole arrays at that entry's place. -/
theorem point_eq (c : Dev nD) (t : Fin cfg0.N) (j : S5000x96.Idx) :
    k0_pay1 (F := Ideal) (iblk0 V c 0 t) (iblk0 V c 1 t) (iblk0 V c 2 t) j
      = embedF (V c main_arg0) (V c main_arg3) (V c main_v12) (((cfg0.win 3).blk t).view.emb j) := by
  obtain ⟨p, q, rfl⟩ : ∃ (p : Fin 5000) (q : Fin 96), j = ix2 p q := ⟨j 0, j 1, eq_ix2 j⟩
  refine (pay0_apply (iblk0 V c 0 t) (iblk0 V c 1 t) (iblk0 V c 2 t) p q).trans ?_
  rw [emb_out t p q]
  exact embedF_congr (iblk0 V c 0 t) (V c main_arg0) (iblk0 V c 1 t) (V c main_arg3) (iblk0 V c 2 t) (V c main_v12)
    p (row t p) q (fun k => rd_x V c t p k) (fun k => rd_w V c t k q) (rd_b V c t q)

/-- WHAT POINT `t` WRITES BACK is block `t` of `embedF` of the arrays as the region finds them. -/
theorem flushed_eq (c : Dev nD) (t : Fin cfg0.N) :
    (dat0 V c).flushed 3 t
      = ((cfg0.win 3).blk t).view.read (Elt Ideal) (embedF (V c main_arg0) (V c main_arg3) (V c main_v12)) := by
  show (cfg0.win 3).cut (grid0.coords t) ((dat0 V c).after 3 t) = _
  rw [after0_3]
  unfold out0_3
  rw [View.canon_unit_zero hz]
  simp only [View.ld_unit_zero (S := S5000x64) hz, View.ld_unit_zero (S := S64x96) hz, View.ld_unit_zero (S := S1x96) hz]
  funext j
  exact point_eq V c t j

/-- An index of the output is in point `t`'s block iff its row is in the block's range. -/
theorem mem_blk (t : Fin cfg0.N) (i : S50000x96.Idx) :
    i ∈ ((cfg0.win 3).blk t).view.set ↔ ∀ a : Fin 2, win0_3.index t a * S5000x96.size a ≤ (i a).val
      ∧ (i a).val < win0_3.index t a * S5000x96.size a + S5000x96.size a := by
  show i ∈ ((View.whole main_v13).slice (win0_3.rect t)).set ↔ _
  rw [View.set_slice_whole, Rect.mem_set_unit]
  exact Iff.rfl

/-- The ten blocks cover the output: row `r` is in the block of point `r / 5000`. -/
theorem cover (i : S50000x96.Idx) :
    ∃ t : Fin cfg0.N, (cfg0.win 3).flush t = true ∧ i ∈ ((cfg0.win 3).blk t).view.set := by
  have hi0 : (i 0).val < 50000 := (i 0).isLt
  have hi1 : (i 1).val < 96 := (i 1).isLt
  have hN : cfg0.N = 10 := N_0
  refine ⟨⟨(i 0).val / 5000, by omega⟩, flush0_3 _, ?_⟩
  rw [mem_blk]
  obtain ⟨-, -, -, -, -, -, e0, e1⟩ := idx_facts ⟨(i 0).val / 5000, by omega⟩
  intro a
  match a with
  | ⟨0, _⟩ =>
    show win0_3.index _ (0 : Fin 2) * 5000 ≤ (i 0).val ∧ (i 0).val < win0_3.index _ (0 : Fin 2) * 5000 + 5000
    rw [e0]; show (i 0).val / 5000 * 5000 ≤ (i 0).val ∧ (i 0).val < (i 0).val / 5000 * 5000 + 5000; omega
  | ⟨1, _⟩ =>
    show win0_3.index _ (1 : Fin 2) * 96 ≤ (i 1).val ∧ (i 1).val < win0_3.index _ (1 : Fin 2) * 96 + 96
    rw [e1]; omega

/-- THE OUTPUT ARRAY after the region: the embedding of the arrays as the region found them. -/
theorem final (c : Dev nD) :
    (dat0 V c).arrAt 3 cfg0.N = embedF (V c main_arg0) (V c main_arg3) (V c main_v12) :=
  (dat0 V c).arrAt_eq_of_cover 3 _ (fun t _ => flushed_eq V c t) cover

end Cert.Sage.R0

end
-- ==== Proof.BodySage.lean ====
/-
  A layer kernel's body, read at an index. Before the activation the stored block is
  `(A · Wl + H · Wr) + bias row` (two products into zero accumulators, added, plus the bias row broadcast down the rows;
  rounding to a shorter format and a cast to the same shape are identities). The first two layers then keep an entry
  when it is positive and multiply it by the slope otherwise; the third stores the sum as it is.
-/
import proofs.«139593_j16183436771650_1_alg».proof.Proof.Gen.KernelIdeal.Skeleton
import proofs.«139593_j16183436771650_1_alg».proof.Proof.Spec
import proofs.«139593_j16183436771650_1_alg».proof.Proof.LibPlainDot
import Idealize.ShloMosaic.Lib.ValueLayout
import Idealize.ShloMosaic.Lib.Pipeline.Value

noncomputable section

open scoped BigOperators

namespace Cert.Sage

open Idealize.ShloMosaic Idealize.ShloMosaic.ValueIdx Cert.KernelIdeal Cert.KernelIdeal.Gen

theorem dot1_plain : dot_S5000x96_S96x96_S5000x96_1_0_0_1_n_n = DotDims.plain 5000 96 96 := rfl

/-- The activation's slope, the float nearest one tenth, as both programs spell it. -/
abbrev slope : EReal := Ideal.ofBits .f32 0x3DCCCCCD#32

/-- The layer body before its activation. -/
def preL (v0 v3 : Vec Ideal S5000x96 .f32) (v6 v9 : Vec Ideal S96x96 .f32) (v15 : Vec Ideal S1x96 .f32) :
    FVec Ideal S5000x96 .f32 :=
  addf (addf
      (FloatOps.matmul (F := Ideal) (φ₁ := .bf16) (φ₂ := .bf16) dot_S5000x96_S96x96_S5000x96_1_0_0_1_n_n none
        (shapeCast S5000x96 v0 shapeCasts_S5000x96_S5000x96) (shapeCast S96x96 v6 shapeCasts_S96x96_S96x96)
        (constant S5000x96 .f32 0x00000000#32))
      (FloatOps.matmul (F := Ideal) (φ₁ := .bf16) (φ₂ := .bf16) dot_S5000x96_S96x96_S5000x96_1_0_0_1_n_n none
        (shapeCast S5000x96 v3 shapeCasts_S5000x96_S5000x96) (shapeCast S96x96 v9 shapeCasts_S96x96_S96x96)
        (constant S5000x96 .f32 0x00000000#32)))
    (broadcastTo S5000x96 (shapeCast S1x96 v15 shapeCasts_S1x96_S1x96) broadcasts_S1x96_S5000x96)

theorem preL_apply (v0 v3 : Vec Ideal S5000x96 .f32) (v6 v9 : Vec Ideal S96x96 .f32) (v15 : Vec Ideal S1x96 .f32)
    (p : Fin 5000) (q : Fin 96) :
    preL v0 v3 v6 v9 v15 (ix2 p q) = layerK v0 v3 v6 v9 v15 (ix2 p q) := by
  unfold preL
  simp only [shapeCast_self]
  show (FloatOps.matmul (F := Ideal) (φ₁ := .bf16) (φ₂ := .bf16) dot_S5000x96_S96x96_S5000x96_1_0_0_1_n_n none v0 v6
          (constant S5000x96 .f32 0x00000000#32) (ix2 p q)
        + FloatOps.matmul (F := Ideal) (φ₁ := .bf16) (φ₂ := .bf16) dot_S5000x96_S96x96_S5000x96_1_0_0_1_n_n none v3 v9
          (constant S5000x96 .f32 0x00000000#32) (ix2 p q))
      + broadcastTo S5000x96 v15 broadcasts_S1x96_S5000x96 (ix2 p q) = _
  rw [dot1_plain, Cert.Lib.PlainDot.matmul_zero_apply, Cert.Lib.PlainDot.matmul_zero_apply, broadcastTo_1b_ab_apply]
  rfl

/-- The activation as the body applies it to a whole block. -/
def actBlock (y : FVec Ideal S5000x96 .f32) : FVec Ideal S5000x96 .f32 :=
  select (cmpf .ogt y (broadcast S5000x96 (Scalar.ofBits (F := Ideal) .f32 0x00000000#32))) y
    (mulf (broadcast S5000x96 (Scalar.ofBits (F := Ideal) .f32 0x3DCCCCCD#32)) y)

theorem actBlock_apply (y : FVec Ideal S5000x96 .f32) (i : S5000x96.Idx) : actBlock y i = actGt slope (y i) := by
  show Scalar.select (Ideal.cmp .ogt (y i) (Ideal.ofBits .f32 0x00000000#32)) (y i)
      (Ideal.ofBits .f32 0x3DCCCCCD#32 * y i) = _
  rw [Ideal.ofBits_zero_f32]
  rfl

theorem k1_eq (v0 v3 : Vec Ideal S5000x96 .f32) (v6 v9 : Vec Ideal S96x96 .f32) (v15 : Vec Ideal S1x96 .f32) :
    k1_pay1 (F := Ideal) v0 v3 v6 v9 v15 = actBlock (preL v0 v3 v6 v9 v15) := rfl
theorem k2_eq (v0 v3 : Vec Ideal S5000x96 .f32) (v6 v9 : Vec Ideal S96x96 .f32) (v15 : Vec Ideal S1x96 .f32) :
    k2_pay1 (F := Ideal) v0 v3 v6 v9 v15 = actBlock (preL v0 v3 v6 v9 v15) := rfl
theorem k3_eq (v0 v3 : Vec Ideal S5000x96 .f32) (v6 v9 : Vec Ideal S96x96 .f32) (v15 : Vec Ideal S1x96 .f32) :
    k3_pay1 (F := Ideal) v0 v3 v6 v9 v15 = preL v0 v3 v6 v9 v15 := rfl

/-- An activated layer's stored value at row `p`, column `q` of its block (the first layer's kernel). -/
theorem pay1_apply (v0 v3 : Vec Ideal S5000x96 .f32) (v6 v9 : Vec Ideal S96x96 .f32) (v15 : Vec Ideal S1x96 .f32)
    (p : Fin 5000) (q : Fin 96) :
    k1_pay1 (F := Ideal) v0 v3 v6 v9 v15 (ix2 p q) = actGt slope (layerK v0 v3 v6 v9 v15 (ix2 p q)) := by
  rw [k1_eq, actBlock_apply, preL_apply]
/-- The same for the second layer's kernel. -/
theorem pay2_apply (v0 v3 : Vec Ideal S5000x96 .f32) (v6 v9 : Vec Ideal S96x96 .f32) (v15 : Vec Ideal S1x96 .f32)
    (p : Fin 5000) (q : Fin 96) :
    k2_pay1 (F := Ideal) v0 v3 v6 v9 v15 (ix2 p q) = actGt slope (layerK v0 v3 v6 v9 v15 (ix2 p q)) := by
  rw [k2_eq, actBlock_apply, preL_apply]
/-- The third layer's kernel stores the sum without an activation. -/
theorem pay3_apply (v0 v3 : Vec Ideal S5000x96 .f32) (v6 v9 : Vec Ideal S96x96 .f32) (v15 : Vec Ideal S1x96 .f32)
    (p : Fin 5000) (q : Fin 96) :
    k3_pay1 (F := Ideal) v0 v3 v6 v9 v15 (ix2 p q) = layerK v0 v3 v6 v9 v15 (ix2 p q) := by
  rw [k3_eq, preL_apply]

end Cert.Sage

end
-- ==== Proof.Region1.lean ====
/-
  Layer region 1 as ONE function of its arrays. Ten grid points; point `t` reads rows `5000 t … 5000 t + 4999` of the
  neighbour means and of the features, the two whole weight matrices and the whole bias row, and writes back the same
  rows of the output. A row of the body's block depends only on the same rows of its two inputs (BodySage), so what
  point `t` writes back is block `t` of the layer's function of the whole arrays, the ten blocks cover the output, and
  the output array after the region is that function of the arrays as the region found them.
-/
import proofs.«139593_j16183436771650_1_alg».proof.Proof.Gen.KernelIdeal.Frame
import proofs.«139593_j16183436771650_1_alg».proof.Proof.BodySage

set_option maxRecDepth 16384

noncomputable section

open scoped BigOperators

namespace Cert.Sage.R1

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the two inputs and the output move down one block of rows per point; the weights
    and the bias stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of point `t`'s block is row `5000 t + p` of the array. -/
def row (t : Fin cfg1.N) (p : Fin 5000) : Fin 50000 :=
  ⟨t.val * 5000 + p.val, by have := t.isLt; have hN : cfg1.N = 10 := N_1; have := p.isLt; omega⟩

/-- The neighbour means' block at point `t`. -/
theorem rd_a (c : Dev nD) (t : Fin cfg1.N) (p : Fin 5000) (j : Fin 96) :
    iblk1 V c 0 t (ix2 p j) = V c main_v26 (ix2 (row t p) j) := by
  obtain ⟨e0, e1, -⟩ := idx_facts t
  show V c main_v26 (((cfg1.win 0).blk t).view.emb (ix2 p j)) = V c main_v26 _
  refine congrArg _ (funext fun a => Fin.ext ?_)
  match a with
  | ⟨0, _⟩ => show win1_0.index t (0 : Fin 2) * 5000 + 1 * p.val = t.val * 5000 + p.val; omega
  | ⟨1, _⟩ => show win1_0.index t (1 : Fin 2) * 96 + 1 * j.val = j.val; omega

/-- The features' block at point `t`. -/
theorem rd_h (c : Dev nD) (t : Fin cfg1.N) (p : Fin 5000) (j : Fin 96) :
    iblk1 V c 1 t (ix2 p j) = V c main_v13 (ix2 (row t p) j) := by
  obtain ⟨-, -, e0, e1, -⟩ := idx_facts t
  show V c main_v13 (((cfg1.win 1).blk t).view.emb (ix2 p j)) = V c main_v13 _
  refine congrArg _ (funext fun a => Fin.ext ?_)
  match a with
  | ⟨0, _⟩ => show win1_1.index t (0 : Fin 2) * 5000 + 1 * p.val = t.val * 5000 + p.val; omega
  | ⟨1, _⟩ => show win1_1.index t (1 : Fin 2) * 96 + 1 * j.val = j.val; omega

/-- The first weight block is the whole matrix. -/
theorem rd_wl (c : Dev nD) (t : Fin cfg1.N) (j : Fin 96) (q : Fin 96) :
    iblk1 V c 2 t (ix2 j q) = V c main_v28 (ix2 j q) := by
  obtain ⟨-, -, -, -, e0, e1, -⟩ := idx_facts t
  show V c main_v28 (((cfg1.win 2).blk t).view.emb (ix2 j q)) = V c main_v28 _
  refine congrArg _ (funext fun a => Fin.ext ?_)
  match a with
  | ⟨0, _⟩ => show win1_2.index t (0 : Fin 2) * 96 + 1 * j.val = j.val; omega
  | ⟨1, _⟩ => show win1_2.index t (1 : Fin 2) * 96 + 1 * q.val = q.val; omega

/-- The second weight block is the whole matrix. -/
theorem rd_wr (c : Dev nD) (t : Fin cfg1.N) (j : Fin 96) (q : Fin 96) :
    iblk1 V c 3 t (ix2 j q) = V c main_v30 (ix2 j q) := by
  obtain ⟨-, -, -, -, -, -, e0, e1, -⟩ := idx_facts t
  show V c main_v30 (((cfg1.win 3).blk t).view.emb (ix2 j q)) = V c main_v30 _
  refine congrArg _ (funext fun a => Fin.ext ?_)
  match a with
  | ⟨0, _⟩ => show win1_3.index t (0 : Fin 2) * 96 + 1 * j.val = j.val; omega
  | ⟨1, _⟩ => show win1_3.index t (1 : Fin 2) * 96 + 1 * q.val = q.val; omega

/-- The bias block is the whole row. -/
theorem rd_b (c : Dev nD) (t : Fin cfg1.N) (q : Fin 96) :
    iblk1 V c 4 t (ix2 (0 : Fin 1) q) = V c main_v33 (ix2 (0 : Fin 1) q) := by
  obtain ⟨-, -, -, -, -, -, -, -, e0, e1, -⟩ := idx_facts t
  show V c main_v33 (((cfg1.win 4).blk t).view.emb (ix2 (0 : Fin 1) q)) = V c main_v33 _
  refine congrArg _ (funext fun a => Fin.ext ?_)
  match a with
  | ⟨0, _⟩ => show win1_4.index t (0 : Fin 2) * 1 + 1 * 0 = 0; omega
  | ⟨1, _⟩ => show win1_4.index t (1 : Fin 2) * 96 + 1 * q.val = q.val; omega

/-- Where the output's block sits in its array. -/
theorem emb_out (t : Fin cfg1.N) (p : Fin 5000) (q : Fin 96) :
    ((cfg1.win 5).blk t).view.emb (ix2 p q) = ix2 (row t p) q := by
  obtain ⟨-, -, -, -, -, -, -, -, -, -, e0, e1⟩ := idx_facts t
  refine funext fun a => Fin.ext ?_
  match a with
  | ⟨0, _⟩ => show win1_5.index t (0 : Fin 2) * 5000 + 1 * p.val = t.val * 5000 + p.val; omega
  | ⟨1, _⟩ => show win1_5.index t (1 : Fin 2) * 96 + 1 * q.val = q.val; omega

/-- The layer's function of whole arrays: the sum, then the activation. -/
def G (A H : Mat 50000 96) (Wl Wr : Mat 96 96) (B : Mat 1 96) : Mat 50000 96 :=
  fun i => actGt slope (layerK A H Wl Wr B i)

/-- The body's value at an entry of point `t`'s block is the layer's function of the whole arrays at that entry's place. -/
theorem point_eq (c : Dev nD) (t : Fin cfg1.N) (j : S5000x96.Idx) :
    k1_pay1 (F := Ideal) (iblk1 V c 0 t) (iblk1 V c 1 t) (iblk1 V c 2 t) (iblk1 V c 3 t) (iblk1 V c 4 t) j
      = G (V c main_v26) (V c main_v13) (V c main_v28) (V c main_v30) (V c main_v33) (((cfg1.win 5).blk t).view.emb j) := by
  obtain ⟨p, q, rfl⟩ : ∃ (p : Fin 5000) (q : Fin 96), j = ix2 p q := ⟨j 0, j 1, eq_ix2 j⟩
  refine (pay1_apply (iblk1 V c 0 t) (iblk1 V c 1 t) (iblk1 V c 2 t) (iblk1 V c 3 t) (iblk1 V c 4 t) p q).trans ?_
  rw [emb_out t p q]
  exact congrArg (actGt slope) (layerK_congr (iblk1 V c 0 t) (iblk1 V c 1 t) (V c main_v26) (V c main_v13)
    (iblk1 V c 2 t) (V c main_v28) (iblk1 V c 3 t) (V c main_v30) (iblk1 V c 4 t) (V c main_v33)
    p (row t p) q (fun j => rd_a V c t p j) (fun j => rd_h V c t p j) (fun j => rd_wl V c t j q) (fun j => rd_wr V c t j q)
    (rd_b V c t q))

/-- WHAT POINT `t` WRITES BACK is block `t` of the layer's function of the arrays as the region finds them. -/
theorem flushed_eq (c : Dev nD) (t : Fin cfg1.N) :
    (dat1 V c).flushed 5 t
      = ((cfg1.win 5).blk t).view.read (Elt Ideal) (G (V c main_v26) (V c main_v13) (V c main_v28) (V c main_v30) (V c main_v33)) := by
  show (cfg1.win 5).cut (grid1.coords t) ((dat1 V c).after 5 t) = _
  rw [after1_5]
  unfold out1_5
  rw [View.canon_unit_zero hz]
  simp only [View.ld_unit_zero (S := S5000x96) hz, View.ld_unit_zero (S := S96x96) hz, View.ld_unit_zero (S := S1x96) hz]
  funext j
  exact point_eq V c t j

/-- An index of the output is in point `t`'s block iff its row is in the block's range. -/
theorem mem_blk (t : Fin cfg1.N) (i : S50000x96.Idx) :
    i ∈ ((cfg1.win 5).blk t).view.set ↔ ∀ a : Fin 2, win1_5.index t a * S5000x96.size a ≤ (i a).val
      ∧ (i a).val < win1_5.index t a * S5000x96.size a + S5000x96.size a := by
  show i ∈ ((View.whole main_v34).slice (win1_5.rect t)).set ↔ _
  rw [View.set_slice_whole, Rect.mem_set_unit]
  exact Iff.rfl

/-- The ten blocks cover the output: row `r` is in the block of point `r / 5000`. -/
theorem cover (i : S50000x96.Idx) :
    ∃ t : Fin cfg1.N, (cfg1.win 5).flush t = true ∧ i ∈ ((cfg1.win 5).blk t).view.set := by
  have hi0 : (i 0).val < 50000 := (i 0).isLt
  have hi1 : (i 1).val < 96 := (i 1).isLt
  have hN : cfg1.N = 10 := N_1
  refine ⟨⟨(i 0).val / 5000, by omega⟩, flush1_5 _, ?_⟩
  rw [mem_blk]
  obtain ⟨-, -, -, -, -, -, -, -, -, -, e0, e1⟩ := idx_facts ⟨(i 0).val / 5000, by omega⟩
  intro a
  match a with
  | ⟨0, _⟩ =>
    show win1_5.index _ (0 : Fin 2) * 5000 ≤ (i 0).val ∧ (i 0).val < win1_5.index _ (0 : Fin 2) * 5000 + 5000
    rw [e0]; show (i 0).val / 5000 * 5000 ≤ (i 0).val ∧ (i 0).val < (i 0).val / 5000 * 5000 + 5000; omega
  | ⟨1, _⟩ =>
    show win1_5.index _ (1 : Fin 2) * 96 ≤ (i 1).val ∧ (i 1).val < win1_5.index _ (1 : Fin 2) * 96 + 96
    rw [e1]; omega

/-- THE OUTPUT ARRAY after the region: the layer's function of the arrays as the region found them. -/
theorem final (c : Dev nD) :
    (dat1 V c).arrAt 5 cfg1.N = G (V c main_v26) (V c main_v13) (V c main_v28) (V c main_v30) (V c main_v33) :=
  (dat1 V c).arrAt_eq_of_cover 5 _ (fun t _ => flushed_eq V c t) cover

end Cert.Sage.R1

end
-- ==== Proof.Region2.lean ====
/-
  Layer region 2 as ONE function of its arrays. Ten grid points; point `t` reads rows `5000 t … 5000 t + 4999` of the
  neighbour means and of the features, the two whole weight matrices and the whole bias row, and writes back the same
  rows of the output. A row of the body's block depends only on the same rows of its two inputs (BodySage), so what
  point `t` writes back is block `t` of the layer's function of the whole arrays, the ten blocks cover the output, and
  the output array after the region is that function of the arrays as the region found them.
-/
import proofs.«139593_j16183436771650_1_alg».proof.Proof.Gen.KernelIdeal.Frame
import proofs.«139593_j16183436771650_1_alg».proof.Proof.BodySage

set_option maxRecDepth 16384

noncomputable section

open scoped BigOperators

namespace Cert.Sage.R2

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the two inputs and the output move down one block of rows per point; the weights
    and the bias stay. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `p` of point `t`'s block is row `5000 t + p` of the array. -/
def row (t : Fin cfg2.N) (p : Fin 5000) : Fin 50000 :=
  ⟨t.val * 5000 + p.val, by have := t.isLt; have hN : cfg2.N = 10 := N_2; have := p.isLt; omega⟩

/-- The neighbour means' block at point `t`. -/
theorem rd_a (c : Dev nD) (t : Fin cfg2.N) (p : Fin 5000) (j : Fin 96) :
    iblk2 V c 0 t (ix2 p j) = V c main_v47 (ix2 (row t p) j) := by
  obtain ⟨e0, e1, -⟩ := idx_facts t
  show V c main_v47 (((cfg2.win 0).blk t).view.emb (ix2 p j)) = V c main_v47 _
  refine congrArg _ (funext fun a => Fin.ext ?_)
  match a with
  | ⟨0, _⟩ => show win2_0.index t (0 : Fin 2) * 5000 + 1 * p.val = t.val * 5000 + p.val; omega
  | ⟨1, _⟩ => show win2_0.index t (1 : Fin 2) * 96 + 1 * j.val = j.val; omega

/-- The features' block at point `t`. -/
theorem rd_h (c : Dev nD) (t : Fin cfg2.N) (p : Fin 5000) (j : Fin 96) :
    iblk2 V c 1 t (ix2 p j) = V c main_v34 (ix2 (row t p) j) := by
  obtain ⟨-, -, e0, e1, -⟩ := idx_facts t
  show V c main_v34 (((cfg2.win 1).blk t).view.emb (ix2 p j)) = V c main_v34 _
  refine congrArg _ (funext fun a => Fin.ext ?_)
  match a with
  | ⟨0, _⟩ => show win2_1.index t (0 : Fin 2) * 5000 + 1 * p.val = t.val * 5000 + p.val; omega
  | ⟨1, _⟩ => show win2_1.index t (1 : Fin 2) * 96 + 1 * j.val = j.val; omega

/-- The first weight block is the whole matrix. -/
theorem rd_wl (c : Dev nD) (t : Fin cfg2.N) (j : Fin 96) (q : Fin 96) :
    iblk2 V c 2 t (ix2 j q) = V c main_v49 (ix2 j q) := by
  obtain ⟨-, -, -, -, e0, e1, -⟩ := idx_facts t
  show V c main_v49 (((cfg2.win 2).blk t).view.emb (ix2 j q)) = V c main_v49 _
  refine congrArg _ (funext fun a => Fin.ext ?_)
  match a with
  | ⟨0, _⟩ => show win2_2.index t (0 : Fin 2) * 96 + 1 * j.val = j.val; omega
  | ⟨1, _⟩ => show win2_2.index t (1 : Fin 2) * 96 + 1 * q.val = q.val; omega

/-- The second weight block is the whole matrix. -/
theorem rd_wr (c : Dev nD) (t : Fin cfg2.N) (j : Fin 96) (q : Fin 96) :
    iblk2 V c 3 t (ix2 j q) = V c main_v51 (ix2 j q) := by
  obtain ⟨-, -, -, -, -, -, e0, e1, -⟩ := idx_facts t
  show V c main_v51 (((cfg2.win 3).blk t).view.emb (ix2 j q)) = V c main_v51 _
  refine congrArg _ (funext fun a => Fin.ext ?_)
  match a with
  | ⟨0, _⟩ => show win2_3.index t (0 : Fin 2) * 96 + 1 * j.val = j.val; omega
  | ⟨1, _⟩ => show win2_3.index t (1 : Fin 2) * 96 + 1 * q.val = q.val; omega

/-- The bias block is the whole row. -/
theorem rd_b (c : Dev nD) (t : Fin cfg2.N) (q : Fin 96) :
    iblk2 V c 4 t (ix2 (0 : Fin 1) q) = V c main_v54 (ix2 (0 : Fin 1) q) := by
  obtain ⟨-, -, -, -, -, -, -, -, e0, e1, -⟩ := idx_facts t
  show V c main_v54 (((cfg2.win 4).blk t).view.emb (ix2 (0 : Fin 1) q)) = V c main_v54 _
  refine congrArg _ (funext fun a => Fin.ext ?_)
  match a with
  | ⟨0, _⟩ => show win2_4.index t (0 : Fin 2) * 1 + 1 * 0 = 0; omega
  | ⟨1, _⟩ => show win2_4.index t (1 : Fin 2) * 96 + 1 * q.val = q.val; omega

/-- Where the output's block sits in its array. -/
theorem emb_out (t : Fin cfg2.N) (p : Fin 5000) (q : Fin 96) :
    ((cfg2.win 5).blk t).view.emb (ix2 p q) = ix2 (row t p) q := by
  obtain ⟨-, -, -, -, -, -, -, -, -, -, e0, e1⟩ := idx_facts t
  refine funext fun a => Fin.ext ?_
  match a with
  | ⟨0, _⟩ => show win2_5.index t (0 : Fin 2) * 5000 + 1 * p.val = t.val * 5000 + p.val; omega
  | ⟨1, _⟩ => show win2_5.index t (1 : Fin 2) * 96 + 1 * q.val = q.val; omega

/-- The layer's function of whole arrays: the sum, then the activation. -/
def G (A H : Mat 50000 96) (Wl Wr : Mat 96 96) (B : Mat 1 96) : Mat 50000 96 :=
  fun i => actGt slope (layerK A H Wl Wr B i)

/-- The body's value at an entry of point `t`'s block is the layer's function of the whole arrays at that entry's place. -/
theorem point_eq (c : Dev nD) (t : Fin cfg2.N) (j : S5000x96.Idx) :
    k2_pay1 (F := Ideal) (iblk2 V c 0 t) (iblk2 V c 1 t) (iblk2 V c 2 t) (iblk2 V c 3 t) (iblk2 V c 4 t) j
      = G (V c main_v47) (V c main_v34) (V c main_v49) (V c main_v51) (V c main_v54) (((cfg2.win 5).blk t).view.emb j) := by
  obtain ⟨p, q, rfl⟩ : ∃ (p : Fin 5000) (q : Fin 96), j = ix2 p q := ⟨j 0, j 1, eq_ix2 j⟩
  refine (pay2_apply (iblk2 V c 0 t) (iblk2 V c 1 t) (iblk2 V c 2 t) (iblk2 V c 3 t) (iblk2 V c 4 t) p q).trans ?_
  rw [emb_out t p q]
  exact congrArg (actGt slope) (layerK_congr (iblk2 V c 0 t) (iblk2 V c 1 t) (V c main_v47) (V c main_v34)
    (iblk2 V c 2 t) (V c main_v49) (iblk2 V c 3 t) (V c main_v51) (iblk2 V c 4 t) (V c main_v54)
    p (row t p) q (fun j => rd_a V c t p j) (fun j => rd_h V c t p j) (fun j => rd_wl V c t j q) (fun j => rd_wr V c t j q)
    (rd_b V c t q))

/-- WHAT POINT `t` WRITES BACK is block `t` of the layer's function of the arrays as the region finds them. -/
theorem flushed_eq (c : Dev nD) (t : Fin cfg2.N) :
    (dat2 V c).flushed 5 t
      = ((cfg2.win 5).blk t).view.read (Elt Ideal) (G (V c main_v47) (V c main_v34) (V c main_v49) (V c main_v51) (V c main_v54)) := by
  show (cfg2.win 5).cut (grid2.coords t) ((dat2 V c).after 5 t) = _
  rw [after2_5]
  unfold out2_5
  rw [View.canon_unit_zero hz]
  simp only [View.ld_unit_zero (S := S5000x96) hz, View.ld_unit_zero (S := S96x96) hz, View.ld_unit_zero (S := S1x96) hz]
  funext j
  exact point_eq V c t j

/-- An index of the output is in point `t`'s block iff its row is in the block's range. -/
theorem mem_blk (t : Fin cfg2.N) (i : S50000x96.Idx) :
    i ∈ ((cfg2.win 5).blk t).view.set ↔ ∀ a : Fin 2, win2_5.index t a * S5000x96.size a ≤ (i a).val
      ∧ (i a).val < win2_5.index t a * S5000x96.size a + S5000x96.size a := by
  show i ∈ ((View.whole main_v55).slice (win2_5.rect t)).set ↔ _
  rw [View.set_slice_whole, Rect.mem_set_unit]
  exact Iff.rfl

/-- The ten blocks cover the output: row `r` is in the block of point `r / 5000`. -/
theorem cover (i : S50000x96.Idx) :
    ∃ t : Fin cfg2.N, (cfg2.win 5).flush t = true ∧ i ∈ ((cfg2.win 5).blk t).view.set := by
  have hi0 : (i 0).val < 50000 := (i 0).isLt
  have hi1 : (i 1).val < 96 := (i 1).isLt
  have hN : cfg2.N = 10 := N_2
  refine ⟨⟨(i 0).val / 5000, by omega⟩, flush2_5 _, ?_⟩
  rw [mem_blk]
  obtain ⟨-, -, -, -, -, -, -, -, -, -, e0, e1⟩ := idx_facts ⟨(i 0).val / 5000, by omega⟩
  intro a
  match a with
  | ⟨0, _⟩ =>
    show win2_5.index _ (0 : Fin 2) * 5000 ≤ (i 0).val ∧ (i 0).val < win2_5.index _ (0 : Fin 2) * 5000 + 5000
    rw [e0]; show (i 0).val / 5000 * 5000 ≤ (i 0).val ∧ (i 0).val < (i 0).val / 5000 * 5000 + 5000; omega
  | ⟨1, _⟩ =>
    show win2_5.index _ (1 : Fin 2) * 96 ≤ (i 1).val ∧ (i 1).val < win2_5.index _ (1 : Fin 2) * 96 + 96
    rw [e1]; omega

/-- THE OUTPUT ARRAY after the region: the layer's function of the arrays as the region found them. -/
theorem final (c : Dev nD) :
    (dat2 V c).arrAt 5 cfg2.N = G (V c main_v47) (V c main_v34) (V c main_v49) (V c main_v51) (V c main_v54) :=
  (dat2 V c).arrAt_eq_of_cover 5 _ (fun t _ => flushed_eq V c t) cover

end Cert.Sage.R2

end
-- ==== Proof.Region3.lean ====
/-
  Layer region 3 as ONE function of its arrays. Ten grid points; point `t` reads rows `5000 t … 5000 t + 4999` of the
  neighbour means and of the features, the two whole weight matrices and the whole bias row, and writes back the same
  rows of the output. A row of the body's block depends only on the same rows of its two inputs (BodySage), so what
  point `t` writes back is block `t` of the layer's function of the whole arrays, the ten blocks cover the output, and
  the output array after the region is that function of the arrays as the region found them.
-/
import proofs.«139593_j16183436771650_1_alg».proof.Proof.Gen.KernelIdeal.Frame
import proofs.«139593_j16183436771650_1_alg».proof.Proof.BodySage

set_option maxRecDepth 16384

noncomputable section

open scoped BigOperators

namespace Cert.Sage.R3

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the two inputs and the output move down one block of rows per point; the weights
    and the bias stay. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row `p` of point `t`'s block is row `5000 t + p` of the array. -/
def row (t : Fin cfg3.N) (p : Fin 5000) : Fin 50000 :=
  ⟨t.val * 5000 + p.val, by have := t.isLt; have hN : cfg3.N = 10 := N_3; have := p.isLt; omega⟩

/-- The neighbour means' block at point `t`. -/
theorem rd_a (c : Dev nD) (t : Fin cfg3.N) (p : Fin 5000) (j : Fin 96) :
    iblk3 V c 0 t (ix2 p j) = V c main_v68 (ix2 (row t p) j) := by
  obtain ⟨e0, e1, -⟩ := idx_facts t
  show V c main_v68 (((cfg3.win 0).blk t).view.emb (ix2 p j)) = V c main_v68 _
  refine congrArg _ (funext fun a => Fin.ext ?_)
  match a with
  | ⟨0, _⟩ => show win3_0.index t (0 : Fin 2) * 5000 + 1 * p.val = t.val * 5000 + p.val; omega
  | ⟨1, _⟩ => show win3_0.index t (1 : Fin 2) * 96 + 1 * j.val = j.val; omega

/-- The features' block at point `t`. -/
theorem rd_h (c : Dev nD) (t : Fin cfg3.N) (p : Fin 5000) (j : Fin 96) :
    iblk3 V c 1 t (ix2 p j) = V c main_v55 (ix2 (row t p) j) := by
  obtain ⟨-, -, e0, e1, -⟩ := idx_facts t
  show V c main_v55 (((cfg3.win 1).blk t).view.emb (ix2 p j)) = V c main_v55 _
  refine congrArg _ (funext fun a => Fin.ext ?_)
  match a with
  | ⟨0, _⟩ => show win3_1.index t (0 : Fin 2) * 5000 + 1 * p.val = t.val * 5000 + p.val; omega
  | ⟨1, _⟩ => show win3_1.index t (1 : Fin 2) * 96 + 1 * j.val = j.val; omega

/-- The first weight block is the whole matrix. -/
theorem rd_wl (c : Dev nD) (t : Fin cfg3.N) (j : Fin 96) (q : Fin 96) :
    iblk3 V c 2 t (ix2 j q) = V c main_v70 (ix2 j q) := by
  obtain ⟨-, -, -, -, e0, e1, -⟩ := idx_facts t
  show V c main_v70 (((cfg3.win 2).blk t).view.emb (ix2 j q)) = V c main_v70 _
  refine congrArg _ (funext fun a => Fin.ext ?_)
  match a with
  | ⟨0, _⟩ => show win3_2.index t (0 : Fin 2) * 96 + 1 * j.val = j.val; omega
  | ⟨1, _⟩ => show win3_2.index t (1 : Fin 2) * 96 + 1 * q.val = q.val; omega

/-- The second weight block is the whole matrix. -/
theorem rd_wr (c : Dev nD) (t : Fin cfg3.N) (j : Fin 96) (q : Fin 96) :
    iblk3 V c 3 t (ix2 j q) = V c main_v72 (ix2 j q) := by
  obtain ⟨-, -, -, -, -, -, e0, e1, -⟩ := idx_facts t
  show V c main_v72 (((cfg3.win 3).blk t).view.emb (ix2 j q)) = V c main_v72 _
  refine congrArg _ (funext fun a => Fin.ext ?_)
  match a with
  | ⟨0, _⟩ => show win3_3.index t (0 : Fin 2) * 96 + 1 * j.val = j.val; omega
  | ⟨1, _⟩ => show win3_3.index t (1 : Fin 2) * 96 + 1 * q.val = q.val; omega

/-- The bias block is the whole row. -/
theorem rd_b (c : Dev nD) (t : Fin cfg3.N) (q : Fin 96) :
    iblk3 V c 4 t (ix2 (0 : Fin 1) q) = V c main_v75 (ix2 (0 : Fin 1) q) := by
  obtain ⟨-, -, -, -, -, -, -, -, e0, e1, -⟩ := idx_facts t
  show V c main_v75 (((cfg3.win 4).blk t).view.emb (ix2 (0 : Fin 1) q)) = V c main_v75 _
  refine congrArg _ (funext fun a => Fin.ext ?_)
  match a with
  | ⟨0, _⟩ => show win3_4.index t (0 : Fin 2) * 1 + 1 * 0 = 0; omega
  | ⟨1, _⟩ => show win3_4.index t (1 : Fin 2) * 96 + 1 * q.val = q.val; omega

/-- Where the output's block sits in its array. -/
theorem emb_out (t : Fin cfg3.N) (p : Fin 5000) (q : Fin 96) :
    ((cfg3.win 5).blk t).view.emb (ix2 p q) = ix2 (row t p) q := by
  obtain ⟨-, -, -, -, -, -, -, -, -, -, e0, e1⟩ := idx_facts t
  refine funext fun a => Fin.ext ?_
  match a with
  | ⟨0, _⟩ => show win3_5.index t (0 : Fin 2) * 5000 + 1 * p.val = t.val * 5000 + p.val; omega
  | ⟨1, _⟩ => show win3_5.index t (1 : Fin 2) * 96 + 1 * q.val = q.val; omega

/-- The layer's function of whole arrays (this layer has no activation). -/
def G (A H : Mat 50000 96) (Wl Wr : Mat 96 96) (B : Mat 1 96) : Mat 50000 96 :=
  fun i => layerK A H Wl Wr B i

/-- The body's value at an entry of point `t`'s block is the layer's function of the whole arrays at that entry's place. -/
theorem point_eq (c : Dev nD) (t : Fin cfg3.N) (j : S5000x96.Idx) :
    k3_pay1 (F := Ideal) (iblk3 V c 0 t) (iblk3 V c 1 t) (iblk3 V c 2 t) (iblk3 V c 3 t) (iblk3 V c 4 t) j
      = G (V c main_v68) (V c main_v55) (V c main_v70) (V c main_v72) (V c main_v75) (((cfg3.win 5).blk t).view.emb j) := by
  obtain ⟨p, q, rfl⟩ : ∃ (p : Fin 5000) (q : Fin 96), j = ix2 p q := ⟨j 0, j 1, eq_ix2 j⟩
  refine (pay3_apply (iblk3 V c 0 t) (iblk3 V c 1 t) (iblk3 V c 2 t) (iblk3 V c 3 t) (iblk3 V c 4 t) p q).trans ?_
  rw [emb_out t p q]
  exact congrArg id (layerK_congr (iblk3 V c 0 t) (iblk3 V c 1 t) (V c main_v68) (V c main_v55)
    (iblk3 V c 2 t) (V c main_v70) (iblk3 V c 3 t) (V c main_v72) (iblk3 V c 4 t) (V c main_v75)
    p (row t p) q (fun j => rd_a V c t p j) (fun j => rd_h V c t p j) (fun j => rd_wl V c t j q) (fun j => rd_wr V c t j q)
    (rd_b V c t q))

/-- WHAT POINT `t` WRITES BACK is block `t` of the layer's function of the arrays as the region finds them. -/
theorem flushed_eq (c : Dev nD) (t : Fin cfg3.N) :
    (dat3 V c).flushed 5 t
      = ((cfg3.win 5).blk t).view.read (Elt Ideal) (G (V c main_v68) (V c main_v55) (V c main_v70) (V c main_v72) (V c main_v75)) := by
  show (cfg3.win 5).cut (grid3.coords t) ((dat3 V c).after 5 t) = _
  rw [after3_5]
  unfold out3_5
  rw [View.canon_unit_zero hz]
  simp only [View.ld_unit_zero (S := S5000x96) hz, View.ld_unit_zero (S := S96x96) hz, View.ld_unit_zero (S := S1x96) hz]
  funext j
  exact point_eq V c t j

/-- An index of the output is in point `t`'s block iff its row is in the block's range. -/
theorem mem_blk (t : Fin cfg3.N) (i : S50000x96.Idx) :
    i ∈ ((cfg3.win 5).blk t).view.set ↔ ∀ a : Fin 2, win3_5.index t a * S5000x96.size a ≤ (i a).val
      ∧ (i a).val < win3_5.index t a * S5000x96.size a + S5000x96.size a := by
  show i ∈ ((View.whole main_v76).slice (win3_5.rect t)).set ↔ _
  rw [View.set_slice_whole, Rect.mem_set_unit]
  exact Iff.rfl

/-- The ten blocks cover the output: row `r` is in the block of point `r / 5000`. -/
theorem cover (i : S50000x96.Idx) :
    ∃ t : Fin cfg3.N, (cfg3.win 5).flush t = true ∧ i ∈ ((cfg3.win 5).blk t).view.set := by
  have hi0 : (i 0).val < 50000 := (i 0).isLt
  have hi1 : (i 1).val < 96 := (i 1).isLt
  have hN : cfg3.N = 10 := N_3
  refine ⟨⟨(i 0).val / 5000, by omega⟩, flush3_5 _, ?_⟩
  rw [mem_blk]
  obtain ⟨-, -, -, -, -, -, -, -, -, -, e0, e1⟩ := idx_facts ⟨(i 0).val / 5000, by omega⟩
  intro a
  match a with
  | ⟨0, _⟩ =>
    show win3_5.index _ (0 : Fin 2) * 5000 ≤ (i 0).val ∧ (i 0).val < win3_5.index _ (0 : Fin 2) * 5000 + 5000
    rw [e0]; show (i 0).val / 5000 * 5000 ≤ (i 0).val ∧ (i 0).val < (i 0).val / 5000 * 5000 + 5000; omega
  | ⟨1, _⟩ =>
    show win3_5.index _ (1 : Fin 2) * 96 ≤ (i 1).val ∧ (i 1).val < win3_5.index _ (1 : Fin 2) * 96 + 96
    rw [e1]; omega

/-- THE OUTPUT ARRAY after the region: the layer's function of the arrays as the region found them. -/
theorem final (c : Dev nD) :
    (dat3 V c).arrAt 5 cfg3.N = G (V c main_v68) (V c main_v55) (V c main_v70) (V c main_v72) (V c main_v75) :=
  (dat3 V c).arrAt_eq_of_cover 5 _ (fun t _ => flushed_eq V c t) cover

end Cert.Sage.R3

end
-- ==== Proof.BodyMlp.lean ====
/-
  The pair scorer's body, read at an index: a first product into a zero accumulator plus a bias row, the activation
  (keep a positive entry, multiply the others by the slope), a second product into a zero accumulator of the activated
  block with a one-column matrix, plus a one-entry bias. Rounding to a shorter format is the identity throughout.
-/
import proofs.«139593_j16183436771650_1_alg».proof.Proof.Gen.KernelIdeal.Skeleton
import proofs.«139593_j16183436771650_1_alg».proof.Proof.Spec
import proofs.«139593_j16183436771650_1_alg».proof.Proof.LibPlainDot
import Idealize.ShloMosaic.Lib.ValueLayout
import Idealize.ShloMosaic.Lib.Pipeline.Value

noncomputable section

open scoped BigOperators

namespace Cert.Sage

open Idealize.ShloMosaic Idealize.ShloMosaic.ValueIdx Cert.KernelIdeal Cert.KernelIdeal.Gen

theorem dot4a_plain : dot_S4096x192_S192x96_S4096x96_1_0_0_1_n_n = DotDims.plain 4096 192 96 := rfl
theorem dot4b_plain : dot_S4096x96_S96x1_S4096x1_1_0_0_1_n_n = DotDims.plain 4096 96 1 := rfl

/-- The scorer's slope: the same float as the layers'. -/
abbrev slopeP : EReal := Ideal.ofBits .f32 0x3DCCCCCD#32

/-- The hidden layer before its activation. -/
def preH (v0 : Vec Ideal S4096x192 .f32) (v3 : Vec Ideal S192x96 .f32) (v6 : Vec Ideal S1x96 .f32) :
    FVec Ideal S4096x96 .f32 :=
  addf (FloatOps.matmul (F := Ideal) (φ₁ := .bf16) (φ₂ := .bf16) dot_S4096x192_S192x96_S4096x96_1_0_0_1_n_n none
      (shapeCast S4096x192 v0 shapeCasts_S4096x192_S4096x192) v3 (constant S4096x96 .f32 0x00000000#32))
    (broadcastTo S4096x96 (shapeCast S1x96 v6 shapeCasts_S1x96_S1x96) broadcasts_S1x96_S4096x96)

theorem preH_apply (v0 : Vec Ideal S4096x192 .f32) (v3 : Vec Ideal S192x96 .f32) (v6 : Vec Ideal S1x96 .f32)
    (p : Fin 4096) (j : Fin 96) : preH v0 v3 v6 (ix2 p j) = embedF v0 v3 v6 (ix2 p j) := by
  unfold preH
  simp only [shapeCast_self]
  show FloatOps.matmul (F := Ideal) (φ₁ := .bf16) (φ₂ := .bf16) dot_S4096x192_S192x96_S4096x96_1_0_0_1_n_n none v0 v3
        (constant S4096x96 .f32 0x00000000#32) (ix2 p j)
      + broadcastTo S4096x96 v6 broadcasts_S1x96_S4096x96 (ix2 p j) = _
  rw [dot4a_plain, Cert.Lib.PlainDot.matmul_zero_apply, broadcastTo_1b_ab_apply]
  rfl

/-- The activation on the hidden block. -/
def actH (y : FVec Ideal S4096x96 .f32) : FVec Ideal S4096x96 .f32 :=
  select (cmpf .ogt y (broadcast S4096x96 (Scalar.ofBits (F := Ideal) .f32 0x00000000#32))) y
    (mulf (broadcast S4096x96 (Scalar.ofBits (F := Ideal) .f32 0x3DCCCCCD#32)) y)

theorem actH_apply (y : FVec Ideal S4096x96 .f32) (i : S4096x96.Idx) : actH y i = actGt slopeP (y i) := by
  show Scalar.select (Ideal.cmp .ogt (y i) (Ideal.ofBits .f32 0x00000000#32)) (y i)
      (Ideal.ofBits .f32 0x3DCCCCCD#32 * y i) = _
  rw [Ideal.ofBits_zero_f32]
  rfl

theorem k4_eq (v0 : Vec Ideal S4096x192 .f32) (v3 : Vec Ideal S192x96 .f32) (v6 : Vec Ideal S1x96 .f32)
    (v16 : Vec Ideal S96x1 .f32) (v19 : Vec Ideal S1x1 .f32) :
    k4_pay1 (F := Ideal) v0 v3 v6 v16 v19
      = addf (FloatOps.matmul (F := Ideal) (φ₁ := .bf16) (φ₂ := .bf16) dot_S4096x96_S96x1_S4096x1_1_0_0_1_n_n none
          (actH (preH v0 v3 v6)) v16 (constant S4096x1 .f32 0x00000000#32))
        (broadcastTo S4096x1 (shapeCast S1x1 v19 shapeCasts_S1x1_S1x1) broadcasts_S1x1_S4096x1) := rfl

/-- The scorer's stored value at row `p` (its one column `o`). -/
theorem pay4_apply (v0 : Vec Ideal S4096x192 .f32) (v3 : Vec Ideal S192x96 .f32) (v6 : Vec Ideal S1x96 .f32)
    (v16 : Vec Ideal S96x1 .f32) (v19 : Vec Ideal S1x1 .f32) (p : Fin 4096) (o : Fin 1) :
    k4_pay1 (F := Ideal) v0 v3 v6 v16 v19 (ix2 p o) = scoreF slopeP v0 v3 v6 v16 v19 (ix2 p o) := by
  rw [k4_eq]
  simp only [shapeCast_self]
  show FloatOps.matmul (F := Ideal) (φ₁ := .bf16) (φ₂ := .bf16) dot_S4096x96_S96x1_S4096x1_1_0_0_1_n_n none
        (actH (preH v0 v3 v6)) v16 (constant S4096x1 .f32 0x00000000#32) (ix2 p o)
      + broadcastTo S4096x1 v19 broadcasts_S1x1_S4096x1 (ix2 p o) = _
  rw [dot4b_plain, Cert.Lib.PlainDot.matmul_zero_apply, broadcastTo_1b_ab_apply]
  show (∑ j : Fin 96, actH (preH v0 v3 v6) (ix2 p j) * v16 (ix2 j o)) + v19 (ix2 (0 : Fin 1) o)
    = (∑ j : Fin 96, actGt slopeP (embedF v0 v3 v6 (ix2 p j)) * v16 (ix2 j o)) + v19 (ix2 (0 : Fin 1) o)
  refine congrArg (· + _) (Finset.sum_congr rfl fun j _ => ?_)
  rw [actH_apply, preH_apply]

end Cert.Sage

end
-- ==== Proof.Region4.lean ====
/-
  The pair-scorer region as ONE function of its arrays. Eight grid points; point `t` reads rows
  `4096 t … 4096 t + 4095` of the pair features, the two whole weight matrices and the two whole biases, and writes back
  the same rows of the one-column output. A row of the body's block depends only on the same row of the pair features
  (BodyMlp), so what point `t` writes back is block `t` of the scorer's function of the whole arrays, the eight blocks
  cover the output, and the output array after the region is that function of the arrays as the region found them.
-/
import proofs.«139593_j16183436771650_1_alg».proof.Proof.Gen.KernelIdeal.Frame
import proofs.«139593_j16183436771650_1_alg».proof.Proof.BodyMlp

set_option maxRecDepth 16384

noncomputable section

open scoped BigOperators

namespace Cert.Sage.R4

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the pair features and the output move down one block of rows per point; the weights
    and the biases stay. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- Row `p` of point `t`'s block is row `4096 t + p` of the array. -/
def row (t : Fin cfg4.N) (p : Fin 4096) : Fin 32768 :=
  ⟨t.val * 4096 + p.val, by have := t.isLt; have hN : cfg4.N = 8 := N_4; have := p.isLt; omega⟩

/-- The pair features' block at point `t`. -/
theorem rd_x (c : Dev nD) (t : Fin cfg4.N) (p : Fin 4096) (j : Fin 192) :
    iblk4 V c 0 t (ix2 p j) = V c main_v84 (ix2 (row t p) j) := by
  obtain ⟨e0, e1, -⟩ := idx_facts t
  show V c main_v84 (((cfg4.win 0).blk t).view.emb (ix2 p j)) = V c main_v84 _
  refine congrArg _ (funext fun a => Fin.ext ?_)
  match a with
  | ⟨0, _⟩ => show win4_0.index t (0 : Fin 2) * 4096 + 1 * p.val = t.val * 4096 + p.val; omega
  | ⟨1, _⟩ => show win4_0.index t (1 : Fin 2) * 192 + 1 * j.val = j.val; omega

/-- The first weight block is the whole matrix. -/
theorem rd_w1 (c : Dev nD) (t : Fin cfg4.N) (j : Fin 192) (q : Fin 96) :
    iblk4 V c 1 t (ix2 j q) = V c main_arg8 (ix2 j q) := by
  obtain ⟨-, -, e0, e1, -⟩ := idx_facts t
  show V c main_arg8 (((cfg4.win 1).blk t).view.emb (ix2 j q)) = V c main_arg8 _
  refine congrArg _ (funext fun a => Fin.ext ?_)
  match a with
  | ⟨0, _⟩ => show win4_1.index t (0 : Fin 2) * 192 + 1 * j.val = j.val; omega
  | ⟨1, _⟩ => show win4_1.index t (1 : Fin 2) * 96 + 1 * q.val = q.val; omega

/-- The first bias block is the whole row. -/
theorem rd_b1 (c : Dev nD) (t : Fin cfg4.N) (q : Fin 96) :
    iblk4 V c 2 t (ix2 (0 : Fin 1) q) = V c main_v85 (ix2 (0 : Fin 1) q) := by
  obtain ⟨-, -, -, -, e0, e1, -⟩ := idx_facts t
  show V c main_v85 (((cfg4.win 2).blk t).view.emb (ix2 (0 : Fin 1) q)) = V c main_v85 _
  refine congrArg _ (funext fun a => Fin.ext ?_)
  match a with
  | ⟨0, _⟩ => show win4_2.index t (0 : Fin 2) * 1 + 1 * 0 = 0; omega
  | ⟨1, _⟩ => show win4_2.index t (1 : Fin 2) * 96 + 1 * q.val = q.val; omega

/-- The second weight block is the whole one-column matrix. -/
theorem rd_w2 (c : Dev nD) (t : Fin cfg4.N) (j : Fin 96) (o : Fin 1) :
    iblk4 V c 3 t (ix2 j o) = V c main_arg10 (ix2 j o) := by
  obtain ⟨-, -, -, -, -, -, e0, e1, -⟩ := idx_facts t
  show V c main_arg10 (((cfg4.win 3).blk t).view.emb (ix2 j o)) = V c main_arg10 _
  refine congrArg _ (funext fun a => Fin.ext ?_)
  match a with
  | ⟨0, _⟩ => show win4_3.index t (0 : Fin 2) * 96 + 1 * j.val = j.val; omega
  | ⟨1, _⟩ => show win4_3.index t (1 : Fin 2) * 1 + 1 * o.val = o.val; omega

/-- The second bias block is the whole one-entry array. -/
theorem rd_b2 (c : Dev nD) (t : Fin cfg4.N) (o : Fin 1) :
    iblk4 V c 4 t (ix2 (0 : Fin 1) o) = V c main_v86 (ix2 (0 : Fin 1) o) := by
  obtain ⟨-, -, -, -, -, -, -, -, e0, e1, -⟩ := idx_facts t
  show V c main_v86 (((cfg4.win 4).blk t).view.emb (ix2 (0 : Fin 1) o)) = V c main_v86 _
  refine congrArg _ (funext fun a => Fin.ext ?_)
  match a with
  | ⟨0, _⟩ => show win4_4.index t (0 : Fin 2) * 1 + 1 * 0 = 0; omega
  | ⟨1, _⟩ => show win4_4.index t (1 : Fin 2) * 1 + 1 * o.val = o.val; omega

/-- Where the output's block sits in its array. -/
theorem emb_out (t : Fin cfg4.N) (p : Fin 4096) (o : Fin 1) :
    ((cfg4.win 5).blk t).view.emb (ix2 p o) = ix2 (row t p) o := by
  obtain ⟨-, -, -, -, -, -, -, -, -, -, e0, e1⟩ := idx_facts t
  refine funext fun a => Fin.ext ?_
  match a with
  | ⟨0, _⟩ => show win4_5.index t (0 : Fin 2) * 4096 + 1 * p.val = t.val * 4096 + p.val; omega
  | ⟨1, _⟩ => show win4_5.index t (1 : Fin 2) * 1 + 1 * o.val = o.val; omega

/-- The body's value at an entry of point `t`'s block is the scorer's function of the whole arrays at that entry's place. -/
theorem point_eq (c : Dev nD) (t : Fin cfg4.N) (j : S4096x1.Idx) :
    k4_pay1 (F := Ideal) (iblk4 V c 0 t) (iblk4 V c 1 t) (iblk4 V c 2 t) (iblk4 V c 3 t) (iblk4 V c 4 t) j
      = scoreF slopeP (V c main_v84) (V c main_arg8) (V c main_v85) (V c main_arg10) (V c main_v86)
          (((cfg4.win 5).blk t).view.emb j) := by
  obtain ⟨p, o, rfl⟩ : ∃ (p : Fin 4096) (o : Fin 1), j = ix2 p o := ⟨j 0, j 1, eq_ix2 j⟩
  refine (pay4_apply (iblk4 V c 0 t) (iblk4 V c 1 t) (iblk4 V c 2 t) (iblk4 V c 3 t) (iblk4 V c 4 t) p o).trans ?_
  rw [emb_out t p o]
  exact scoreF_congr slopeP (iblk4 V c 0 t) (V c main_v84) (iblk4 V c 1 t) (V c main_arg8) (iblk4 V c 2 t) (V c main_v85)
    (iblk4 V c 3 t) (V c main_arg10) (iblk4 V c 4 t) (V c main_v86) p (row t p) o
    (fun j => rd_x V c t p j) (fun j j' => rd_w1 V c t j j') (fun j' => rd_b1 V c t j') (fun j' => rd_w2 V c t j' o)
    (rd_b2 V c t o)

/-- WHAT POINT `t` WRITES BACK is block `t` of the scorer's function of the arrays as the region finds them. -/
theorem flushed_eq (c : Dev nD) (t : Fin cfg4.N) :
    (dat4 V c).flushed 5 t
      = ((cfg4.win 5).blk t).view.read (Elt Ideal)
          (scoreF slopeP (V c main_v84) (V c main_arg8) (V c main_v85) (V c main_arg10) (V c main_v86)) := by
  show (cfg4.win 5).cut (grid4.coords t) ((dat4 V c).after 5 t) = _
  rw [after4_5]
  unfold out4_5
  rw [View.canon_unit_zero hz]
  simp only [View.ld_unit_zero (S := S4096x192) hz, View.ld_unit_zero (S := S192x96) hz, View.ld_unit_zero (S := S1x96) hz,
    View.ld_unit_zero (S := S96x1) hz, View.ld_unit_zero (S := S1x1) hz]
  funext j
  exact point_eq V c t j

/-- An index of the output is in point `t`'s block iff its row is in the block's range. -/
theorem mem_blk (t : Fin cfg4.N) (i : S32768x1.Idx) :
    i ∈ ((cfg4.win 5).blk t).view.set ↔ ∀ a : Fin 2, win4_5.index t a * S4096x1.size a ≤ (i a).val
      ∧ (i a).val < win4_5.index t a * S4096x1.size a + S4096x1.size a := by
  show i ∈ ((View.whole main_v87).slice (win4_5.rect t)).set ↔ _
  rw [View.set_slice_whole, Rect.mem_set_unit]
  exact Iff.rfl

/-- The eight blocks cover the output: row `r` is in the block of point `r / 4096`. -/
theorem cover (i : S32768x1.Idx) :
    ∃ t : Fin cfg4.N, (cfg4.win 5).flush t = true ∧ i ∈ ((cfg4.win 5).blk t).view.set := by
  have hi0 : (i 0).val < 32768 := (i 0).isLt
  have hi1 : (i 1).val < 1 := (i 1).isLt
  have hN : cfg4.N = 8 := N_4
  refine ⟨⟨(i 0).val / 4096, by omega⟩, flush4_5 _, ?_⟩
  rw [mem_blk]
  obtain ⟨-, -, -, -, -, -, -, -, -, -, e0, e1⟩ := idx_facts ⟨(i 0).val / 4096, by omega⟩
  intro a
  match a with
  | ⟨0, _⟩ =>
    show win4_5.index _ (0 : Fin 2) * 4096 ≤ (i 0).val ∧ (i 0).val < win4_5.index _ (0 : Fin 2) * 4096 + 4096
    rw [e0]; show (i 0).val / 4096 * 4096 ≤ (i 0).val ∧ (i 0).val < (i 0).val / 4096 * 4096 + 4096; omega
  | ⟨1, _⟩ =>
    show win4_5.index _ (1 : Fin 2) * 1 ≤ (i 1).val ∧ (i 1).val < win4_5.index _ (1 : Fin 2) * 1 + 1
    rw [e1]; omega

/-- THE OUTPUT ARRAY after the region: the scorer's function of the arrays as the region found them. -/
theorem final (c : Dev nD) :
    (dat4 V c).arrAt 5 cfg4.N
      = scoreF slopeP (V c main_v84) (V c main_arg8) (V c main_v85) (V c main_arg10) (V c main_v86) :=
  (dat4 V c).arrAt_eq_of_cover 5 _ (fun t _ => flushed_eq V c t) cover

end Cert.Sage.R4

end
-- ==== Proof.KerValue.lean ====
/-
  The kernel program's result as a function of its arguments.

  Region by region: the embedding region's inputs are the features, the weights and the bias row as the first stretch
  leaves them, so its output is the embedding of the arguments; each layer's stretch gathers the previous features along
  the edges, sums them at the destinations and scales by the reciprocal count (all from carried values), and slices that
  layer's weights and bias, so the layer region's output is the layer's function of the previous features; the last
  stretch gathers the two rows of each pair, and the scorer region's output — the program's result — is the scorer's
  function of them.
-/
import proofs.«139593_j16183436771650_1_alg».proof.Proof.KerChain
import proofs.«139593_j16183436771650_1_alg».proof.Proof.Region0
import proofs.«139593_j16183436771650_1_alg».proof.Proof.Region1
import proofs.«139593_j16183436771650_1_alg».proof.Proof.Region2
import proofs.«139593_j16183436771650_1_alg».proof.Proof.Region3
import proofs.«139593_j16183436771650_1_alg».proof.Proof.Region4

set_option maxRecDepth 16384

noncomputable section

namespace Cert.KernelIdeal.Value

open Cert.KernelIdeal Cert.KernelIdeal.Gen Cert.KernelIdeal.KerTerm Cert.KernelIdeal.Chain Cert.Sage
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

theorem aggrOf_congr {h h' : BufTy.Contents (Elt Ideal) ⟨S50000x96, .f32⟩} {s s' d d' : BufTy.Contents (Elt Ideal) ⟨S800000, .i32⟩}
    {v v' : BufTy.Contents (Elt Ideal) ⟨S50000, .f32⟩} (hh : h = h') (hs : s = s') (hd : d = d') (hv : v = v') :
    aggrOf h s d v = aggrOf h' s' d' v' := by subst hh hs hd hv; rfl

/-! ## The embedding -/

/-- The features after the embedding, as a function of the arguments. -/
def H0 (x : Mat 50000 64) (e : BufTy.Contents (Elt Ideal) ⟨S2x800000, .i32⟩) (Wemb : Mat 64 96)
    (bemb : BufTy.Contents (Elt Ideal) ⟨S96, .f32⟩) (Wl : BufTy.Contents (Elt Ideal) ⟨S3x96x96, .f32⟩)
    (bl : BufTy.Contents (Elt Ideal) ⟨S3x96, .f32⟩) (Wr : BufTy.Contents (Elt Ideal) ⟨S3x96x96, .f32⟩) : Mat 50000 96 :=
  embedF x Wemb (biasRow bemb)

theorem embedF_congr3 {x x' : Mat 50000 64} {w w' : Mat 64 96} {b b' : Mat 1 96} (hx : x = x') (hw : w = w') (hb : b = b') :
    embedF x w b = embedF x' w' b' := by subst hx hw hb; rfl

/-- Region 0's output array at its exit. -/
theorem F0 : W2 m ρ c (Proc.devRef .tc main_v13) = H0 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have hx : V1 m ρ c main_arg0 = (m ((c.tc : Thread nD τ).loc main_arg0)) := s1 m ρ c main_arg0 (by decide)
  have hw : V1 m ρ c main_arg3 = (m ((c.tc : Thread nD τ).loc main_arg3)) := s1 m ρ c main_arg3 (by decide)
  have hb : V1 m ρ c main_v12 = biasRow (m ((c.tc : Thread nD τ).loc main_arg4)) := W1_bias m ρ c
  exact (W2_arr m ρ c 3).trans ((R0.final (V1 m ρ) c).trans (embedF_congr3 hx hw hb))

/-! ## Layer 1: the stretch before its region, the region, its output -/

/-- The neighbour means the region reads: the previous features gathered, summed and scaled, from values at the
    previous boundary. -/
theorem L1_agg : V3 m ρ c main_v26
    = aggrOf (W2 m ρ c (Proc.devRef .tc main_v13)) (W2 m ρ c (Proc.devRef .tc main_v1))
        (W2 m ρ c (Proc.devRef .tc main_v3)) (W2 m ρ c (Proc.devRef .tc main_v11)) := by
  show StableHlo.after hostOps1 (W2 m ρ c) (Proc.devRef .tc main_v26) = _
  after_results_simp
  rfl
theorem L1_h : V3 m ρ c main_v13 = W2 m ρ c (Proc.devRef .tc main_v13) := s3 m ρ c main_v13 (by decide)
theorem L1_wl : V3 m ρ c main_v28 = wSlice0 (W2 m ρ c (Proc.devRef .tc main_arg5)) := by
  show StableHlo.after hostOps1 (W2 m ρ c) (Proc.devRef .tc main_v28) = _
  after_results_simp
  rfl
theorem L1_wr : V3 m ρ c main_v30 = wSlice0 (W2 m ρ c (Proc.devRef .tc main_arg7)) := by
  show StableHlo.after hostOps1 (W2 m ρ c) (Proc.devRef .tc main_v30) = _
  after_results_simp
  rfl
theorem L1_b : V3 m ρ c main_v33 = bRow0 (W2 m ρ c (Proc.devRef .tc main_arg6)) := by
  show StableHlo.after hostOps1 (W2 m ρ c) (Proc.devRef .tc main_v33) = _
  after_results_simp
  rfl

/-- The features after layer 1, as a function of the arguments. -/
def H1 (x : Mat 50000 64) (e : BufTy.Contents (Elt Ideal) ⟨S2x800000, .i32⟩) (Wemb : Mat 64 96)
    (bemb : BufTy.Contents (Elt Ideal) ⟨S96, .f32⟩) (Wl : BufTy.Contents (Elt Ideal) ⟨S3x96x96, .f32⟩)
    (bl : BufTy.Contents (Elt Ideal) ⟨S3x96, .f32⟩) (Wr : BufTy.Contents (Elt Ideal) ⟨S3x96x96, .f32⟩) : Mat 50000 96 :=
  R1.G (aggr (H0 x e Wemb bemb Wl bl Wr) e) (H0 x e Wemb bemb Wl bl Wr) (wSlice0 Wl) (wSlice0 Wr) (bRow0 bl)

theorem G1_congr {a a' h h' : Mat 50000 96} {wl wl' wr wr' : Mat 96 96} {b b' : Mat 1 96}
    (ha : a = a') (hh : h = h') (hwl : wl = wl') (hwr : wr = wr') (hb : b = b') :
    R1.G a h wl wr b = R1.G a' h' wl' wr' b' := by subst ha hh hwl hwr hb; rfl

/-- Region 1's output array at its exit. -/
theorem F1 : W4 m ρ c (Proc.devRef .tc main_v34) = H1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have hsrc : W2 m ρ c (Proc.devRef .tc main_v1) = srcRow (m ((c.tc : Thread nD τ).loc main_arg1)) := (to2 m ρ c main_v1 (by decide)).trans (W1_src m ρ c)
  have hdst : W2 m ρ c (Proc.devRef .tc main_v3) = dstRow (m ((c.tc : Thread nD τ).loc main_arg1)) := (to2 m ρ c main_v3 (by decide)).trans (W1_dst m ρ c)
  have hinv : W2 m ρ c (Proc.devRef .tc main_v11) = invCount (m ((c.tc : Thread nD τ).loc main_arg1)) := (to2 m ρ c main_v11 (by decide)).trans (W1_inv m ρ c)
  have h5 : W2 m ρ c (Proc.devRef .tc main_arg5) = (m ((c.tc : Thread nD τ).loc main_arg5)) := (to2 m ρ c main_arg5 (by decide)).trans (s1 m ρ c main_arg5 (by decide))
  have h6 : W2 m ρ c (Proc.devRef .tc main_arg6) = (m ((c.tc : Thread nD τ).loc main_arg6)) := (to2 m ρ c main_arg6 (by decide)).trans (s1 m ρ c main_arg6 (by decide))
  have h7 : W2 m ρ c (Proc.devRef .tc main_arg7) = (m ((c.tc : Thread nD τ).loc main_arg7)) := (to2 m ρ c main_arg7 (by decide)).trans (s1 m ρ c main_arg7 (by decide))
  have hprev := F0 m ρ c
  have ha : V3 m ρ c main_v26 = aggr (H0 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg1)) :=
    (L1_agg m ρ c).trans (aggrOf_congr hprev hsrc hdst hinv)
  have hh : V3 m ρ c main_v13 = H0 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := (L1_h m ρ c).trans hprev
  have hwl : V3 m ρ c main_v28 = wSlice0 (m ((c.tc : Thread nD τ).loc main_arg5)) := (L1_wl m ρ c).trans (congrArg wSlice0 h5)
  have hwr : V3 m ρ c main_v30 = wSlice0 (m ((c.tc : Thread nD τ).loc main_arg7)) := (L1_wr m ρ c).trans (congrArg wSlice0 h7)
  have hb : V3 m ρ c main_v33 = bRow0 (m ((c.tc : Thread nD τ).loc main_arg6)) := (L1_b m ρ c).trans (congrArg bRow0 h6)
  exact (W4_arr m ρ c 5).trans ((R1.final (V3 m ρ) c).trans (G1_congr ha hh hwl hwr hb))

/-! ## Layer 2: the stretch before its region, the region, its output -/

/-- The neighbour means the region reads: the previous features gathered, summed and scaled, from values at the
    previous boundary. -/
theorem L2_agg : V5 m ρ c main_v47
    = aggrOf (W4 m ρ c (Proc.devRef .tc main_v34)) (W4 m ρ c (Proc.devRef .tc main_v1))
        (W4 m ρ c (Proc.devRef .tc main_v3)) (W4 m ρ c (Proc.devRef .tc main_v11)) := by
  show StableHlo.after hostOps2 (W4 m ρ c) (Proc.devRef .tc main_v47) = _
  after_results_simp
  rfl
theorem L2_h : V5 m ρ c main_v34 = W4 m ρ c (Proc.devRef .tc main_v34) := s5 m ρ c main_v34 (by decide)
theorem L2_wl : V5 m ρ c main_v49 = wSlice1 (W4 m ρ c (Proc.devRef .tc main_arg5)) := by
  show StableHlo.after hostOps2 (W4 m ρ c) (Proc.devRef .tc main_v49) = _
  after_results_simp
  rfl
theorem L2_wr : V5 m ρ c main_v51 = wSlice1 (W4 m ρ c (Proc.devRef .tc main_arg7)) := by
  show StableHlo.after hostOps2 (W4 m ρ c) (Proc.devRef .tc main_v51) = _
  after_results_simp
  rfl
theorem L2_b : V5 m ρ c main_v54 = bRow1 (W4 m ρ c (Proc.devRef .tc main_arg6)) := by
  show StableHlo.after hostOps2 (W4 m ρ c) (Proc.devRef .tc main_v54) = _
  after_results_simp
  rfl

/-- The features after layer 2, as a function of the arguments. -/
def H2 (x : Mat 50000 64) (e : BufTy.Contents (Elt Ideal) ⟨S2x800000, .i32⟩) (Wemb : Mat 64 96)
    (bemb : BufTy.Contents (Elt Ideal) ⟨S96, .f32⟩) (Wl : BufTy.Contents (Elt Ideal) ⟨S3x96x96, .f32⟩)
    (bl : BufTy.Contents (Elt Ideal) ⟨S3x96, .f32⟩) (Wr : BufTy.Contents (Elt Ideal) ⟨S3x96x96, .f32⟩) : Mat 50000 96 :=
  R2.G (aggr (H1 x e Wemb bemb Wl bl Wr) e) (H1 x e Wemb bemb Wl bl Wr) (wSlice1 Wl) (wSlice1 Wr) (bRow1 bl)

theorem G2_congr {a a' h h' : Mat 50000 96} {wl wl' wr wr' : Mat 96 96} {b b' : Mat 1 96}
    (ha : a = a') (hh : h = h') (hwl : wl = wl') (hwr : wr = wr') (hb : b = b') :
    R2.G a h wl wr b = R2.G a' h' wl' wr' b' := by subst ha hh hwl hwr hb; rfl

/-- Region 2's output array at its exit. -/
theorem F2 : W6 m ρ c (Proc.devRef .tc main_v55) = H2 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have hsrc : W4 m ρ c (Proc.devRef .tc main_v1) = srcRow (m ((c.tc : Thread nD τ).loc main_arg1)) := (to4 m ρ c main_v1 (by decide) (by decide) (by decide)).trans (W1_src m ρ c)
  have hdst : W4 m ρ c (Proc.devRef .tc main_v3) = dstRow (m ((c.tc : Thread nD τ).loc main_arg1)) := (to4 m ρ c main_v3 (by decide) (by decide) (by decide)).trans (W1_dst m ρ c)
  have hinv : W4 m ρ c (Proc.devRef .tc main_v11) = invCount (m ((c.tc : Thread nD τ).loc main_arg1)) := (to4 m ρ c main_v11 (by decide) (by decide) (by decide)).trans (W1_inv m ρ c)
  have h5 : W4 m ρ c (Proc.devRef .tc main_arg5) = (m ((c.tc : Thread nD τ).loc main_arg5)) := (to4 m ρ c main_arg5 (by decide) (by decide) (by decide)).trans (s1 m ρ c main_arg5 (by decide))
  have h6 : W4 m ρ c (Proc.devRef .tc main_arg6) = (m ((c.tc : Thread nD τ).loc main_arg6)) := (to4 m ρ c main_arg6 (by decide) (by decide) (by decide)).trans (s1 m ρ c main_arg6 (by decide))
  have h7 : W4 m ρ c (Proc.devRef .tc main_arg7) = (m ((c.tc : Thread nD τ).loc main_arg7)) := (to4 m ρ c main_arg7 (by decide) (by decide) (by decide)).trans (s1 m ρ c main_arg7 (by decide))
  have hprev := F1 m ρ c
  have ha : V5 m ρ c main_v47 = aggr (H1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg1)) :=
    (L2_agg m ρ c).trans (aggrOf_congr hprev hsrc hdst hinv)
  have hh : V5 m ρ c main_v34 = H1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := (L2_h m ρ c).trans hprev
  have hwl : V5 m ρ c main_v49 = wSlice1 (m ((c.tc : Thread nD τ).loc main_arg5)) := (L2_wl m ρ c).trans (congrArg wSlice1 h5)
  have hwr : V5 m ρ c main_v51 = wSlice1 (m ((c.tc : Thread nD τ).loc main_arg7)) := (L2_wr m ρ c).trans (congrArg wSlice1 h7)
  have hb : V5 m ρ c main_v54 = bRow1 (m ((c.tc : Thread nD τ).loc main_arg6)) := (L2_b m ρ c).trans (congrArg bRow1 h6)
  exact (W6_arr m ρ c 5).trans ((R2.final (V5 m ρ) c).trans (G2_congr ha hh hwl hwr hb))

/-! ## Layer 3: the stretch before its region, the region, its output -/

/-- The neighbour means the region reads: the previous features gathered, summed and scaled, from values at the
    previous boundary. -/
theorem L3_agg : V7 m ρ c main_v68
    = aggrOf (W6 m ρ c (Proc.devRef .tc main_v55)) (W6 m ρ c (Proc.devRef .tc main_v1))
        (W6 m ρ c (Proc.devRef .tc main_v3)) (W6 m ρ c (Proc.devRef .tc main_v11)) := by
  show StableHlo.after hostOps3 (W6 m ρ c) (Proc.devRef .tc main_v68) = _
  after_results_simp
  rfl
theorem L3_h : V7 m ρ c main_v55 = W6 m ρ c (Proc.devRef .tc main_v55) := s7 m ρ c main_v55 (by decide)
theorem L3_wl : V7 m ρ c main_v70 = wSlice2 (W6 m ρ c (Proc.devRef .tc main_arg5)) := by
  show StableHlo.after hostOps3 (W6 m ρ c) (Proc.devRef .tc main_v70) = _
  after_results_simp
  rfl
theorem L3_wr : V7 m ρ c main_v72 = wSlice2 (W6 m ρ c (Proc.devRef .tc main_arg7)) := by
  show StableHlo.after hostOps3 (W6 m ρ c) (Proc.devRef .tc main_v72) = _
  after_results_simp
  rfl
theorem L3_b : V7 m ρ c main_v75 = bRow2 (W6 m ρ c (Proc.devRef .tc main_arg6)) := by
  show StableHlo.after hostOps3 (W6 m ρ c) (Proc.devRef .tc main_v75) = _
  after_results_simp
  rfl

/-- The features after layer 3, as a function of the arguments. -/
def H3 (x : Mat 50000 64) (e : BufTy.Contents (Elt Ideal) ⟨S2x800000, .i32⟩) (Wemb : Mat 64 96)
    (bemb : BufTy.Contents (Elt Ideal) ⟨S96, .f32⟩) (Wl : BufTy.Contents (Elt Ideal) ⟨S3x96x96, .f32⟩)
    (bl : BufTy.Contents (Elt Ideal) ⟨S3x96, .f32⟩) (Wr : BufTy.Contents (Elt Ideal) ⟨S3x96x96, .f32⟩) : Mat 50000 96 :=
  R3.G (aggr (H2 x e Wemb bemb Wl bl Wr) e) (H2 x e Wemb bemb Wl bl Wr) (wSlice2 Wl) (wSlice2 Wr) (bRow2 bl)

theorem G3_congr {a a' h h' : Mat 50000 96} {wl wl' wr wr' : Mat 96 96} {b b' : Mat 1 96}
    (ha : a = a') (hh : h = h') (hwl : wl = wl') (hwr : wr = wr') (hb : b = b') :
    R3.G a h wl wr b = R3.G a' h' wl' wr' b' := by subst ha hh hwl hwr hb; rfl

/-- Region 3's output array at its exit. -/
theorem F3 : W8 m ρ c (Proc.devRef .tc main_v76) = H3 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have hsrc : W6 m ρ c (Proc.devRef .tc main_v1) = srcRow (m ((c.tc : Thread nD τ).loc main_arg1)) := (to6 m ρ c main_v1 (by decide) (by decide) (by decide) (by decide) (by decide)).trans (W1_src m ρ c)
  have hdst : W6 m ρ c (Proc.devRef .tc main_v3) = dstRow (m ((c.tc : Thread nD τ).loc main_arg1)) := (to6 m ρ c main_v3 (by decide) (by decide) (by decide) (by decide) (by decide)).trans (W1_dst m ρ c)
  have hinv : W6 m ρ c (Proc.devRef .tc main_v11) = invCount (m ((c.tc : Thread nD τ).loc main_arg1)) := (to6 m ρ c main_v11 (by decide) (by decide) (by decide) (by decide) (by decide)).trans (W1_inv m ρ c)
  have h5 : W6 m ρ c (Proc.devRef .tc main_arg5) = (m ((c.tc : Thread nD τ).loc main_arg5)) := (to6 m ρ c main_arg5 (by decide) (by decide) (by decide) (by decide) (by decide)).trans (s1 m ρ c main_arg5 (by decide))
  have h6 : W6 m ρ c (Proc.devRef .tc main_arg6) = (m ((c.tc : Thread nD τ).loc main_arg6)) := (to6 m ρ c main_arg6 (by decide) (by decide) (by decide) (by decide) (by decide)).trans (s1 m ρ c main_arg6 (by decide))
  have h7 : W6 m ρ c (Proc.devRef .tc main_arg7) = (m ((c.tc : Thread nD τ).loc main_arg7)) := (to6 m ρ c main_arg7 (by decide) (by decide) (by decide) (by decide) (by decide)).trans (s1 m ρ c main_arg7 (by decide))
  have hprev := F2 m ρ c
  have ha : V7 m ρ c main_v68 = aggr (H2 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg1)) :=
    (L3_agg m ρ c).trans (aggrOf_congr hprev hsrc hdst hinv)
  have hh : V7 m ρ c main_v55 = H2 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := (L3_h m ρ c).trans hprev
  have hwl : V7 m ρ c main_v70 = wSlice2 (m ((c.tc : Thread nD τ).loc main_arg5)) := (L3_wl m ρ c).trans (congrArg wSlice2 h5)
  have hwr : V7 m ρ c main_v72 = wSlice2 (m ((c.tc : Thread nD τ).loc main_arg7)) := (L3_wr m ρ c).trans (congrArg wSlice2 h7)
  have hb : V7 m ρ c main_v75 = bRow2 (m ((c.tc : Thread nD τ).loc main_arg6)) := (L3_b m ρ c).trans (congrArg bRow2 h6)
  exact (W8_arr m ρ c 5).trans ((R3.final (V7 m ρ) c).trans (G3_congr ha hh hwl hwr hb))

/-! ## The pair scorer -/

theorem P_hp : V9 m ρ c main_v84 = pairRows (W8 m ρ c (Proc.devRef .tc main_v76)) (W8 m ρ c (Proc.devRef .tc main_arg2)) := by
  show StableHlo.after hostOps4 (W8 m ρ c) (Proc.devRef .tc main_v84) = _
  after_results_simp
  rfl
theorem P_b1 : V9 m ρ c main_v85 = biasRow (W8 m ρ c (Proc.devRef .tc main_arg9)) := by
  show StableHlo.after hostOps4 (W8 m ρ c) (Proc.devRef .tc main_v85) = _
  after_results_simp
  rfl
theorem P_b2 : V9 m ρ c main_v86 = biasOne (W8 m ρ c (Proc.devRef .tc main_arg11)) := by
  show StableHlo.after hostOps4 (W8 m ρ c) (Proc.devRef .tc main_v86) = _
  after_results_simp
  rfl

/-- The kernel program's result as a function of its twelve arguments, in their order. -/
def kerOut (x : Mat 50000 64) (e : BufTy.Contents (Elt Ideal) ⟨S2x800000, .i32⟩)
    (p : BufTy.Contents (Elt Ideal) ⟨S32768x2, .i32⟩) (Wemb : Mat 64 96)
    (bemb : BufTy.Contents (Elt Ideal) ⟨S96, .f32⟩) (Wl : BufTy.Contents (Elt Ideal) ⟨S3x96x96, .f32⟩)
    (bl : BufTy.Contents (Elt Ideal) ⟨S3x96, .f32⟩) (Wr : BufTy.Contents (Elt Ideal) ⟨S3x96x96, .f32⟩)
    (W1 : Mat 192 96) (b1 : BufTy.Contents (Elt Ideal) ⟨S96, .f32⟩) (W2 : Mat 96 1)
    (b2 : BufTy.Contents (Elt Ideal) ⟨S1, .f32⟩) : Mat 32768 1 :=
  scoreF slopeP (pairRows (H3 x e Wemb bemb Wl bl Wr) p) W1 (biasRow b1) W2 (biasOne b2)

theorem score_congr {x x' : Mat 32768 192} {w1 w1' : Mat 192 96} {b1 b1' : Mat 1 96} {w2 w2' : Mat 96 1} {b2 b2' : Mat 1 1}
    (hx : x = x') (hw1 : w1 = w1') (hb1 : b1 = b1') (hw2 : w2 = w2') (hb2 : b2 = b2') :
    scoreF slopeP x w1 b1 w2 b2 = scoreF slopeP x' w1' b1' w2' b2' := by subst hx hw1 hb1 hw2 hb2; rfl

theorem pairRows_congr {h h' : BufTy.Contents (Elt Ideal) ⟨S50000x96, .f32⟩} {p p' : BufTy.Contents (Elt Ideal) ⟨S32768x2, .i32⟩}
    (hh : h = h') (hp : p = p') : pairRows h p = pairRows h' p' := by subst hh hp; rfl

/-- THE RESULT ARRAY at the return. -/
theorem result : W10 m ρ c (Proc.devRef .tc main_v87)
    = kerOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  have h2 : W8 m ρ c (Proc.devRef .tc main_arg2) = (m ((c.tc : Thread nD τ).loc main_arg2)) := (to8 m ρ c main_arg2 (by decide) (by decide) (by decide) (by decide) (by decide) (by decide) (by decide)).trans (s1 m ρ c main_arg2 (by decide))
  have h9 : W8 m ρ c (Proc.devRef .tc main_arg9) = (m ((c.tc : Thread nD τ).loc main_arg9)) := (to8 m ρ c main_arg9 (by decide) (by decide) (by decide) (by decide) (by decide) (by decide) (by decide)).trans (s1 m ρ c main_arg9 (by decide))
  have h11 : W8 m ρ c (Proc.devRef .tc main_arg11) = (m ((c.tc : Thread nD τ).loc main_arg11)) := (to8 m ρ c main_arg11 (by decide) (by decide) (by decide) (by decide) (by decide) (by decide) (by decide)).trans (s1 m ρ c main_arg11 (by decide))
  have h8 : V9 m ρ c main_arg8 = (m ((c.tc : Thread nD τ).loc main_arg8)) := (to9 m ρ c main_arg8 (by decide) (by decide) (by decide) (by decide) (by decide) (by decide) (by decide) (by decide)).trans (s1 m ρ c main_arg8 (by decide))
  have h10 : V9 m ρ c main_arg10 = (m ((c.tc : Thread nD τ).loc main_arg10)) := (to9 m ρ c main_arg10 (by decide) (by decide) (by decide) (by decide) (by decide) (by decide) (by decide) (by decide)).trans (s1 m ρ c main_arg10 (by decide))
  have hx : V9 m ρ c main_v84 = pairRows (H3 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg2)) := (P_hp m ρ c).trans (pairRows_congr (F3 m ρ c) h2)
  have hb1 : V9 m ρ c main_v85 = biasRow (m ((c.tc : Thread nD τ).loc main_arg9)) := (P_b1 m ρ c).trans (congrArg biasRow h9)
  have hb2 : V9 m ρ c main_v86 = biasOne (m ((c.tc : Thread nD τ).loc main_arg11)) := (P_b2 m ρ c).trans (congrArg biasOne h11)
  exact (W10_arr m ρ c 5).trans ((R4.final (V9 m ρ) c).trans (score_congr hx h8 hb1 h10 hb2))

end Cert.KernelIdeal.Value

end
-- ==== Proof.RefTerm.lean ====
/-
  The reference network's result as a composition of named stages.

  The reference computes, for node features x, an edge table e (row 0 the source node of each edge,
  row 1 its destination), a table p of node pairs and the weights:
    h₀ = x·W_emb + b_emb,
    h₁ = leaky (conv h₀), h₂ = leaky (conv h₁), h₃ = conv h₂        (layer k's weights the k-th slices),
    out = mlp (the two rows h₃[p(i,0)], h₃[p(i,1)] side by side),
  where conv h = (mean over incoming edges of h[src]) · W_l + b_l + h · W_r, the mean being the
  scatter-added sum of the gathered rows divided by max(count, 1), and leaky z = z where z ≥ 0 and
  0.1·z elsewhere. Each stage below is exactly the composition of the printed operations that compute
  it, so the three rounds — which the program prints three times over the same edge table — are one
  definition applied three times.
-/
import proofs.«139593_j16183436771650_1_alg».proof.ReferenceIdeal

noncomputable section

namespace Cert.ReferenceIdeal.RefTerm

open Idealize.ShloMosaic Cert.ReferenceIdeal

variable {F : FTy → Type} [FloatOps F] [Facts]
open Facts₀ Facts

/-- A tensor of shape `s` and element type `t` over the float values `F`. -/
local notation "Ten[" s ", " t "]" => BufTy.Contents (Elt F) (BufTy.mk s t)

/-! ## The edge table -/

/-- Row 0 of the edge table as a vector: the source node of each edge. -/
def srcRow (e : Ten[S2x800000, .i32]) : Ten[S800000, .i32] :=
  shapeCast S800000 (extractStridedSlice S1x800000 ![0, 0] e slices_S2x800000_S1x800000_0_0) shapeCasts_S1x800000_S800000

/-- Row 1 of the edge table as a vector: the destination node of each edge. -/
def dstRow (e : Ten[S2x800000, .i32]) : Ten[S800000, .i32] :=
  shapeCast S800000 (extractStridedSlice S1x800000 ![1, 0] e slices_S2x800000_S1x800000_1_0) shapeCasts_S1x800000_S800000

/-- A vector of node indices with the negative ones counted from the end (v < 0 ↦ v + 50000), as a
    column: the index operand of the row gather. -/
def wrapCol (v : Ten[S800000, .i32]) : Ten[S800000x1, .i32] :=
  broadcastInDim S800000x1 ![0] bcast_S800000_S800000x1_0
    (select
      (cmpi .slt v (broadcastInDim S800000 ![] bcast_S_S800000 (constantI S_ 32 0#32)))
      (addi v (broadcastInDim S800000 ![] bcast_S_S800000 (constantI S_ 32 50000#32)))
      v)

/-- The destination nodes as a column: the index operand of the scatter-add. -/
def dstCol (e : Ten[S2x800000, .i32]) : Ten[S800000x1, .i32] :=
  broadcastInDim S800000x1 ![0] bcast_S800000_S800000x1_0 (dstRow e)

/-- The number of incoming edges of each node — a one scatter-added per edge onto zeros —, clamped
    below by 1, repeated along the 96 features: what the summed rows are divided by. -/
def denom (e : Ten[S2x800000, .i32]) : Ten[S50000x96, .f32] :=
  broadcastInDim S50000x96 ![0, 1] bcast_S50000x1_S50000x96_0_1
    (broadcastInDim S50000x1 ![0] bcast_S50000_S50000x1_0
      (maximumf
        (Host.scatterAdd scatter_S50000_S800000x1_S800000_n_0_0_1
          (broadcastInDim S50000 ![] bcast_S_S50000 (constant S_ .f32 0x00000000#32))
          (dstCol e)
          (broadcastInDim S800000 ![] bcast_S_S800000 (constant S_ .f32 0x3F800000#32)))
        (broadcastInDim S50000 ![] bcast_S_S50000 (constant S_ .f32 0x3F800000#32))))

/-! ## One round of message passing -/

/-- For each node the sum, over its incoming edges, of the source node's row of `h`: the rows
    gathered at the sources, scatter-added at the destinations onto zeros. -/
def rowSum (h : Ten[S50000x96, .f32]) (e : Ten[S2x800000, .i32]) : Ten[S50000x96, .f32] :=
  Host.scatterAdd scatter_S50000x96_S800000x1_S800000x96_1_0_0_1
    (broadcastInDim S50000x96 ![] bcast_S_S50000x96 (constant S_ .f32 0x00000000#32))
    (dstCol e)
    (Host.gather gather_S50000x96_S800000x1_S800000x96_1_0_n_n_0_1_196 h (wrapCol (srcRow e)))

/-- The mean of the incoming rows (zero at a node with no incoming edge). -/
def aggr (h : Ten[S50000x96, .f32]) (e : Ten[S2x800000, .i32]) : Ten[S50000x96, .f32] :=
  Host.divf (rowSum h e) (denom e)

/-- The embedding layer: x·W + b, the bias repeated along the nodes. -/
def embed (x : Ten[S50000x64, .f32]) (W : Ten[S64x96, .f32]) (b : Ten[S96, .f32]) : Ten[S50000x96, .f32] :=
  addf (Host.dotGeneral dot_S50000x64_S64x96_S50000x96_1_0_0_1_n_n none x W)
    (broadcastInDim S50000x96 ![0, 1] bcast_S1x96_S50000x96_0_1 (broadcastInDim S1x96 ![1] bcast_S96_S1x96_1 b))

/-- Layer 0's 96×96 matrix out of three stacked ones. -/
def wSlice0 (W : Ten[S3x96x96, .f32]) : Ten[S96x96, .f32] :=
  shapeCast S96x96 (extractStridedSlice S1x96x96 ![0, 0, 0] W slices_S3x96x96_S1x96x96_0_0_0) shapeCasts_S1x96x96_S96x96
/-- Layer 1's 96×96 matrix out of three stacked ones. -/
def wSlice1 (W : Ten[S3x96x96, .f32]) : Ten[S96x96, .f32] :=
  shapeCast S96x96 (extractStridedSlice S1x96x96 ![1, 0, 0] W slices_S3x96x96_S1x96x96_1_0_0) shapeCasts_S1x96x96_S96x96
/-- Layer 2's 96×96 matrix out of three stacked ones. -/
def wSlice2 (W : Ten[S3x96x96, .f32]) : Ten[S96x96, .f32] :=
  shapeCast S96x96 (extractStridedSlice S1x96x96 ![2, 0, 0] W slices_S3x96x96_S1x96x96_2_0_0) shapeCasts_S1x96x96_S96x96

/-- Layer 0's bias out of three stacked ones. -/
def bSlice0 (b : Ten[S3x96, .f32]) : Ten[S96, .f32] :=
  shapeCast S96 (extractStridedSlice S1x96 ![0, 0] b slices_S3x96_S1x96_0_0) shapeCasts_S1x96_S96
/-- Layer 1's bias out of three stacked ones. -/
def bSlice1 (b : Ten[S3x96, .f32]) : Ten[S96, .f32] :=
  shapeCast S96 (extractStridedSlice S1x96 ![1, 0] b slices_S3x96_S1x96_1_0) shapeCasts_S1x96_S96
/-- Layer 2's bias out of three stacked ones. -/
def bSlice2 (b : Ten[S3x96, .f32]) : Ten[S96, .f32] :=
  shapeCast S96 (extractStridedSlice S1x96 ![2, 0] b slices_S3x96_S1x96_2_0) shapeCasts_S1x96_S96

/-- One graph convolution: (mean of the incoming rows)·W_l + b_l + h·W_r. -/
def conv (h : Ten[S50000x96, .f32]) (e : Ten[S2x800000, .i32]) (Wl : Ten[S96x96, .f32]) (bl : Ten[S96, .f32])
    (Wr : Ten[S96x96, .f32]) : Ten[S50000x96, .f32] :=
  addf
    (addf (Host.dotGeneral dot_S50000x96_S96x96_S50000x96_1_0_0_1_n_n none (aggr h e) Wl)
      (broadcastInDim S50000x96 ![0, 1] bcast_S1x96_S50000x96_0_1 (broadcastInDim S1x96 ![1] bcast_S96_S1x96_1 bl)))
    (Host.dotGeneral dot_S50000x96_S96x96_S50000x96_1_0_0_1_n_n none h Wr)

/-- z where z ≥ 0, and 0.1·z elsewhere, on the node features. -/
def leaky (z : Ten[S50000x96, .f32]) : Ten[S50000x96, .f32] :=
  select
    (cmpf .oge z (broadcastInDim S50000x96 ![] bcast_S_S50000x96 (constant S_ .f32 0x00000000#32)))
    z
    (mulf (broadcastInDim S50000x96 ![] bcast_S_S50000x96 (id (constant S_ .f32 0x3DCCCCCD#32))) z)

/-- z where z ≥ 0, and 0.1·z elsewhere, on the pair features. -/
def leakyP (z : Ten[S32768x96, .f32]) : Ten[S32768x96, .f32] :=
  select
    (cmpf .oge z (broadcastInDim S32768x96 ![] bcast_S_S32768x96 (constant S_ .f32 0x00000000#32)))
    z
    (mulf (broadcastInDim S32768x96 ![] bcast_S_S32768x96 (id (constant S_ .f32 0x3DCCCCCD#32))) z)

/-! ## The pair head -/

/-- For each pair (a, b) of nodes — negative indices counted from the end — the rows h[a] and h[b]
    side by side: 192 features. -/
def pairRows (h : Ten[S50000x96, .f32]) (p : Ten[S32768x2, .i32]) : Ten[S32768x192, .f32] :=
  shapeCast S32768x192
    (Host.gather gather_S50000x96_S32768x2x1_S32768x2x96_2_0_n_n_0_2_196 h
      (broadcastInDim S32768x2x1 ![0, 1] bcast_S32768x2_S32768x2x1_0_1
        (select
          (cmpi .slt p (broadcastInDim S32768x2 ![] bcast_S_S32768x2 (constantI S_ 32 0#32)))
          (addi p (broadcastInDim S32768x2 ![] bcast_S_S32768x2 (constantI S_ 32 50000#32)))
          p)))
    shapeCasts_S32768x2x96_S32768x192

/-- The two-layer perceptron on the pair features: leaky (hp·W₁ + b₁)·W₂ + b₂. -/
def mlp (hp : Ten[S32768x192, .f32]) (W1 : Ten[S192x96, .f32]) (b1 : Ten[S96, .f32]) (W2 : Ten[S96x1, .f32])
    (b2 : Ten[S1, .f32]) : Ten[S32768x1, .f32] :=
  addf
    (Host.dotGeneral dot_S32768x96_S96x1_S32768x1_1_0_0_1_n_n none
      (leakyP
        (addf (Host.dotGeneral dot_S32768x192_S192x96_S32768x96_1_0_0_1_n_n none hp W1)
          (broadcastInDim S32768x96 ![0, 1] bcast_S1x96_S32768x96_0_1 (broadcastInDim S1x96 ![1] bcast_S96_S1x96_1 b1))))
      W2)
    (broadcastInDim S32768x1 ![0, 1] bcast_S1x1_S32768x1_0_1 (broadcastInDim S1x1 ![1] bcast_S1_S1x1_1 b2))

/-! ## The whole reference -/

/-- The reference's result from its twelve arguments, in the program's argument order: the embedding,
    two convolutions each followed by the leaky rectifier, a third convolution, and the pair head. -/
def refOut (x : Ten[S50000x64, .f32]) (e : Ten[S2x800000, .i32]) (p : Ten[S32768x2, .i32])
    (Wemb : Ten[S64x96, .f32]) (bemb : Ten[S96, .f32]) (Wl : Ten[S3x96x96, .f32]) (bl : Ten[S3x96, .f32])
    (Wr : Ten[S3x96x96, .f32]) (W1 : Ten[S192x96, .f32]) (b1 : Ten[S96, .f32]) (W2 : Ten[S96x1, .f32])
    (b2 : Ten[S1, .f32]) : Ten[S32768x1, .f32] :=
  mlp
    (pairRows
      (conv
        (leaky (conv
          (leaky (conv (embed x Wemb bemb) e (wSlice0 Wl) (bSlice0 bl) (wSlice0 Wr)))
          e (wSlice1 Wl) (bSlice1 bl) (wSlice1 Wr)))
        e (wSlice2 Wl) (bSlice2 bl) (wSlice2 Wr))
      p)
    W1 b1 W2 b2

end Cert.ReferenceIdeal.RefTerm

end
-- ==== Proof.RefRun.lean ====
/-
  The reference program's run.

  Its @main is a straight line of tensor operations: the three windows it is printed in run one after the other,
  and each call of the leaky rectifier stands for the callee's operations over that call's own buffers. Run in
  order from the arguments' contents, every buffer ends at the value its operation computes from the buffers it
  reads, so the result buffer ends at the operations' composed term of the arguments. That term is
  `RefTerm.refOut` of the arguments: each stage of `refOut` is by definition the composition of the printed
  operations that compute it, and the index and count terms the three rounds recompute from the same edge table are
  the same definitions applied to it. No operation writes an argument's buffer, so the arguments end unchanged.
-/
import proofs.«139593_j16183436771650_1_alg».proof.Proof.Gen.ReferenceIdeal
import proofs.«139593_j16183436771650_1_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 161 operations in order, the three calls of the leaky rectifier unfolded: each is the callee's seven
    operations over that call's own buffers — the constant zero and its broadcast, the comparison z ≥ 0, the slope
    passed through and its broadcast, the product slope·z, and the selection between z and the product, which is
    written to the buffer the call's result becomes. -/
abbrev ops : List (HloOp τ sig (Elt F)) :=
  [ -- the edge table's two rows, as vectors
    StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    -- the embedding x·W + b
    StableHlo.binary main_arg0 main_arg3 main_v4 ((fun l r => Host.dotGeneral dot_S50000x64_S64x96_S50000x96_1_0_0_1_n_n none l r) : (⟨S50000x64, .f32⟩ : BufTy).Contents (Elt F) → (⟨S64x96, .f32⟩ : BufTy).Contents (Elt F) → (⟨S50000x96, .f32⟩ : BufTy).Contents (Elt F)),
    StableHlo.unary main_arg4 main_v5 (broadcastInDim S1x96 ![1] bcast_S96_S1x96_1 : (⟨S96, .f32⟩ : BufTy).Contents (Elt F) → (⟨S1x96, .f32⟩ : BufTy).Contents (Elt F)),
    StableHlo.unary main_v5 main_v6 (broadcastInDim S50000x96 ![0, 1] bcast_S1x96_S50000x96_0_1 : (⟨S1x96, .f32⟩ : BufTy).Contents (Elt F) → (⟨S50000x96, .f32⟩ : BufTy).Contents (Elt F)),
    StableHlo.binary main_v4 main_v6 main_v7 (addf : (⟨S50000x96, .f32⟩ : BufTy).Contents (Elt F) → (⟨S50000x96, .f32⟩ : BufTy).Contents (Elt F) → (⟨S50000x96, .f32⟩ : BufTy).Contents (Elt F)),
    -- layer 0's two matrices and its bias
    StableHlo.unary main_arg5 main_v8 ((extractStridedSlice S1x96x96 ![0, 0, 0] · slices_S3x96x96_S1x96x96_0_0_0) : (⟨S3x96x96, .f32⟩ : BufTy).Contents (Elt F) → (⟨S1x96x96, .f32⟩ : BufTy).Contents (Elt F)),
    StableHlo.reshape main_v8 main_v9 rfl shapeCasts_S1x96x96_S96x96,
    StableHlo.unary main_arg6 main_v10 ((extractStridedSlice S1x96 ![0, 0] · slices_S3x96_S1x96_0_0) : (⟨S3x96, .f32⟩ : BufTy).Contents (Elt F) → (⟨S1x96, .f32⟩ : BufTy).Contents (Elt F)),
    StableHlo.reshape main_v10 main_v11 rfl shapeCasts_S1x96_S96,
    StableHlo.unary main_arg7 main_v12 ((extractStridedSlice S1x96x96 ![0, 0, 0] · slices_S3x96x96_S1x96x96_0_0_0) : (⟨S3x96x96, .f32⟩ : BufTy).Contents (Elt F) → (⟨S1x96x96, .f32⟩ : BufTy).Contents (Elt F)),
    StableHlo.reshape main_v12 main_v13 rfl shapeCasts_S1x96x96_S96x96,
    -- round 1: the sources wrapped and gathered, the rows summed at the destinations, the counts, the mean, the convolution
    StableHlo.nullary main_c (constantI S_ 32 0#32),
    StableHlo.unary main_c main_v14 (broadcastInDim S800000 ![] bcast_S_S800000 : (⟨S_, .i32⟩ : BufTy).Contents (Elt F) → (⟨S800000, .i32⟩ : BufTy).Contents (Elt F)),
    StableHlo.binary main_v1 main_v14 main_v15 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v16 (broadcastInDim S800000 ![] bcast_S_S800000 : (⟨S_, .i32⟩ : BufTy).Contents (Elt F) → (⟨S800000, .i32⟩ : BufTy).Contents (Elt F)),
    StableHlo.binary main_v1 main_v16 main_v17 (addi : (⟨S800000, .i32⟩ : BufTy).Contents (Elt F) → (⟨S800000, .i32⟩ : BufTy).Contents (Elt F) → (⟨S800000, .i32⟩ : BufTy).Contents (Elt F)),
    StableHlo.ternary main_v15 main_v17 main_v1 main_v18 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v18 main_v19 (broadcastInDim S800000x1 ![0] bcast_S800000_S800000x1_0 : (⟨S800000, .i32⟩ : BufTy).Contents (Elt F) → (⟨S800000x1, .i32⟩ : BufTy).Contents (Elt F)),
    StableHlo.binary main_v7 main_v19 main_v20 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    StableHlo.nullary main_cst (constant S_ .f32 0x00000000#32),
    StableHlo.unary main_cst main_v21 (broadcastInDim S50000x96 ![] bcast_S_S50000x96 : (⟨S_, .f32⟩ : BufTy).Contents (Elt F) → (⟨S50000x96, .f32⟩ : BufTy).Contents (Elt F)),
    StableHlo.unary main_v3 main_v22 (broadcastInDim S800000x1 ![0] bcast_S800000_S800000x1_0 : (⟨S800000, .i32⟩ : BufTy).Contents (Elt F) → (⟨S800000x1, .i32⟩ : BufTy).Contents (Elt F)),
    StableHlo.ternary main_v21 main_v22 main_v20 main_v23 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    StableHlo.nullary main_cst_1 (constant S_ .f32 0x3F800000#32),
    StableHlo.unary main_cst_1 main_v24 (broadcastInDim S800000 ![] bcast_S_S800000 : (⟨S_, .f32⟩ : BufTy).Contents (Elt F) → (⟨S800000, .f32⟩ : BufTy).Contents (Elt F)),
    StableHlo.nullary main_cst_2 (constant S_ .f32 0x00000000#32),
    StableHlo.unary main_cst_2 main_v25 (broadcastInDim S50000 ![] bcast_S_S50000 : (⟨S_, .f32⟩ : BufTy).Contents (Elt F) → (⟨S50000, .f32⟩ : BufTy).Contents (Elt F)),
    StableHlo.unary main_v3 main_v26 (broadcastInDim S800000x1 ![0] bcast_S800000_S800000x1_0 : (⟨S800000, .i32⟩ : BufTy).Contents (Elt F) → (⟨S800000x1, .i32⟩ : BufTy).Contents (Elt F)),
    StableHlo.ternary main_v25 main_v26 main_v24 main_v27 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_3 (constant S_ .f32 0x3F800000#32),
    StableHlo.unary main_cst_3 main_v28 (broadcastInDim S50000 ![] bcast_S_S50000 : (⟨S_, .f32⟩ : BufTy).Contents (Elt F) → (⟨S50000, .f32⟩ : BufTy).Contents (Elt F)),
    StableHlo.binary main_v27 main_v28 main_v29 (maximumf : (⟨S50000, .f32⟩ : BufTy).Contents (Elt F) → (⟨S50000, .f32⟩ : BufTy).Contents (Elt F) → (⟨S50000, .f32⟩ : BufTy).Contents (Elt F)),
    StableHlo.unary main_v29 main_v30 (broadcastInDim S50000x1 ![0] bcast_S50000_S50000x1_0 : (⟨S50000, .f32⟩ : BufTy).Contents (Elt F) → (⟨S50000x1, .f32⟩ : BufTy).Contents (Elt F)),
    StableHlo.unary main_v30 main_v31 (broadcastInDim S50000x96 ![0, 1] bcast_S50000x1_S50000x96_0_1 : (⟨S50000x1, .f32⟩ : BufTy).Contents (Elt F) → (⟨S50000x96, .f32⟩ : BufTy).Contents (Elt F)),
    StableHlo.binary main_v23 main_v31 main_v32 (Host.divf : (⟨S50000x96, .f32⟩ : BufTy).Contents (Elt F) → (⟨S50000x96, .f32⟩ : BufTy).Contents (Elt F) → (⟨S50000x96, .f32⟩ : BufTy).Contents (Elt F)),
    StableHlo.binary main_v32 main_v9 main_v33 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    StableHlo.unary main_v11 main_v34 (broadcastInDim S1x96 ![1] bcast_S96_S1x96_1 : (⟨S96, .f32⟩ : BufTy).Contents (Elt F) → (⟨S1x96, .f32⟩ : BufTy).Contents (Elt F)),
    StableHlo.unary main_v34 main_v35 (broadcastInDim S50000x96 ![0, 1] bcast_S1x96_S50000x96_0_1 : (⟨S1x96, .f32⟩ : BufTy).Contents (Elt F) → (⟨S50000x96, .f32⟩ : BufTy).Contents (Elt F)),
    StableHlo.binary main_v33 main_v35 main_v36 (addf : (⟨S50000x96, .f32⟩ : BufTy).Contents (Elt F) → (⟨S50000x96, .f32⟩ : BufTy).Contents (Elt F) → (⟨S50000x96, .f32⟩ : BufTy).Contents (Elt F)),
    StableHlo.binary main_v7 main_v13 main_v37 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    StableHlo.binary main_v36 main_v37 main_v38 (addf : (⟨S50000x96, .f32⟩ : BufTy).Contents (Elt F) → (⟨S50000x96, .f32⟩ : BufTy).Contents (Elt F) → (⟨S50000x96, .f32⟩ : BufTy).Contents (Elt F)),
    -- the leaky rectifier on round 1's features: the slope, then the callee's seven operations
    StableHlo.nullary main_cst_4 (constant S_ .f32 0x3DCCCCCD#32),
    StableHlo.nullary main_call0_cst (constant S_ .f32 0x00000000#32),
    StableHlo.unary main_call0_cst main_call0_v0 (broadcastInDim S50000x96 ![] bcast_S_S50000x96 : (⟨S_, .f32⟩ : BufTy).Contents (Elt F) → (⟨S50000x96, .f32⟩ : BufTy).Contents (Elt F)),
    StableHlo.binary main_v38 main_call0_v0 main_call0_v1 (cmpf .oge : (⟨S50000x96, .f32⟩ : BufTy).Contents (Elt F) → (⟨S50000x96, .f32⟩ : BufTy).Contents (Elt F) → (⟨S50000x96, .i1⟩ : BufTy).Contents (Elt F)),
    StableHlo.unary main_cst_4 main_call0_v2 (id : (⟨S_, .f32⟩ : BufTy).Contents (Elt F) → (⟨S_, .f32⟩ : BufTy).Contents (Elt F)),
    StableHlo.unary main_call0_v2 main_call0_v3 (broadcastInDim S50000x96 ![] bcast_S_S50000x96 : (⟨S_, .f32⟩ : BufTy).Contents (Elt F) → (⟨S50000x96, .f32⟩ : BufTy).Contents (Elt F)),
    StableHlo.binary main_call0_v3 main_v38 main_call0_v4 (mulf : (⟨S50000x96, .f32⟩ : BufTy).Contents (Elt F) → (⟨S50000x96, .f32⟩ : BufTy).Contents (Elt F) → (⟨S50000x96, .f32⟩ : BufTy).Contents (Elt F)),
    StableHlo.ternary main_call0_v1 main_v38 main_call0_v4 main_v39 (select : (⟨S50000x96, .i1⟩ : BufTy).Contents (Elt F) → (⟨S50000x96, .f32⟩ : BufTy).Contents (Elt F) → (⟨S50000x96, .f32⟩ : BufTy).Contents (Elt F) → (⟨S50000x96, .f32⟩ : BufTy).Contents (Elt F)),
    -- layer 1's two matrices and its bias
    StableHlo.unary main_arg5 main_v40 ((extractStridedSlice S1x96x96 ![1, 0, 0] · slices_S3x96x96_S1x96x96_1_0_0) : (⟨S3x96x96, .f32⟩ : BufTy).Contents (Elt F) → (⟨S1x96x96, .f32⟩ : BufTy).Contents (Elt F)),
    StableHlo.reshape main_v40 main_v41 rfl shapeCasts_S1x96x96_S96x96,
    StableHlo.unary main_arg6 main_v42 ((extractStridedSlice S1x96 ![1, 0] · slices_S3x96_S1x96_1_0) : (⟨S3x96, .f32⟩ : BufTy).Contents (Elt F) → (⟨S1x96, .f32⟩ : BufTy).Contents (Elt F)),
    StableHlo.reshape main_v42 main_v43 rfl shapeCasts_S1x96_S96,
    StableHlo.unary main_arg7 main_v44 ((extractStridedSlice S1x96x96 ![1, 0, 0] · slices_S3x96x96_S1x96x96_1_0_0) : (⟨S3x96x96, .f32⟩ : BufTy).Contents (Elt F) → (⟨S1x96x96, .f32⟩ : BufTy).Contents (Elt F)),
    StableHlo.reshape main_v44 main_v45 rfl shapeCasts_S1x96x96_S96x96,
    -- round 2, on the rectified features
    StableHlo.nullary main_c_5 (constantI S_ 32 0#32),
    StableHlo.unary main_c_5 main_v46 (broadcastInDim S800000 ![] bcast_S_S800000 : (⟨S_, .i32⟩ : BufTy).Contents (Elt F) → (⟨S800000, .i32⟩ : BufTy).Contents (Elt F)),
    StableHlo.binary main_v1 main_v46 main_v47 (cmpi .slt : (⟨S800000, .i32⟩ : BufTy).Contents (Elt F) → (⟨S800000, .i32⟩ : BufTy).Contents (Elt F) → (⟨S800000, .i1⟩ : BufTy).Contents (Elt F)),
    StableHlo.nullary main_c_6 (constantI S_ 32 50000#32),
    StableHlo.unary main_c_6 main_v48 (broadcastInDim S800000 ![] bcast_S_S800000 : (⟨S_, .i32⟩ : BufTy).Contents (Elt F) → (⟨S800000, .i32⟩ : BufTy).Contents (Elt F)),
    StableHlo.binary main_v1 main_v48 main_v49 (addi : (⟨S800000, .i32⟩ : BufTy).Contents (Elt F) → (⟨S800000, .i32⟩ : BufTy).Contents (Elt F) → (⟨S800000, .i32⟩ : BufTy).Contents (Elt F)),
    StableHlo.ternary main_v47 main_v49 main_v1 main_v50 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v50 main_v51 (broadcastInDim S800000x1 ![0] bcast_S800000_S800000x1_0 : (⟨S800000, .i32⟩ : BufTy).Contents (Elt F) → (⟨S800000x1, .i32⟩ : BufTy).Contents (Elt F)),
    StableHlo.binary main_v39 main_v51 main_v52 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    StableHlo.nullary main_cst_7 (constant S_ .f32 0x00000000#32),
    StableHlo.unary main_cst_7 main_v53 (broadcastInDim S50000x96 ![] bcast_S_S50000x96 : (⟨S_, .f32⟩ : BufTy).Contents (Elt F) → (⟨S50000x96, .f32⟩ : BufTy).Contents (Elt F)),
    StableHlo.unary main_v3 main_v54 (broadcastInDim S800000x1 ![0] bcast_S800000_S800000x1_0 : (⟨S800000, .i32⟩ : BufTy).Contents (Elt F) → (⟨S800000x1, .i32⟩ : BufTy).Contents (Elt F)),
    StableHlo.ternary main_v53 main_v54 main_v52 main_v55 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    StableHlo.nullary main_cst_8 (constant S_ .f32 0x3F800000#32),
    StableHlo.unary main_cst_8 main_v56 (broadcastInDim S800000 ![] bcast_S_S800000 : (⟨S_, .f32⟩ : BufTy).Contents (Elt F) → (⟨S800000, .f32⟩ : BufTy).Contents (Elt F)),
    StableHlo.nullary main_cst_9 (constant S_ .f32 0x00000000#32),
    StableHlo.unary main_cst_9 main_v57 (broadcastInDim S50000 ![] bcast_S_S50000 : (⟨S_, .f32⟩ : BufTy).Contents (Elt F) → (⟨S50000, .f32⟩ : BufTy).Contents (Elt F)),
    StableHlo.unary main_v3 main_v58 (broadcastInDim S800000x1 ![0] bcast_S800000_S800000x1_0 : (⟨S800000, .i32⟩ : BufTy).Contents (Elt F) → (⟨S800000x1, .i32⟩ : BufTy).Contents (Elt F)),
    StableHlo.ternary main_v57 main_v58 main_v56 main_v59 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_10 (constant S_ .f32 0x3F800000#32),
    StableHlo.unary main_cst_10 main_v60 (broadcastInDim S50000 ![] bcast_S_S50000 : (⟨S_, .f32⟩ : BufTy).Contents (Elt F) → (⟨S50000, .f32⟩ : BufTy).Contents (Elt F)),
    StableHlo.binary main_v59 main_v60 main_v61 (maximumf : (⟨S50000, .f32⟩ : BufTy).Contents (Elt F) → (⟨S50000, .f32⟩ : BufTy).Contents (Elt F) → (⟨S50000, .f32⟩ : BufTy).Contents (Elt F)),
    StableHlo.unary main_v61 main_v62 (broadcastInDim S50000x1 ![0] bcast_S50000_S50000x1_0 : (⟨S50000, .f32⟩ : BufTy).Contents (Elt F) → (⟨S50000x1, .f32⟩ : BufTy).Contents (Elt F)),
    StableHlo.unary main_v62 main_v63 (broadcastInDim S50000x96 ![0, 1] bcast_S50000x1_S50000x96_0_1 : (⟨S50000x1, .f32⟩ : BufTy).Contents (Elt F) → (⟨S50000x96, .f32⟩ : BufTy).Contents (Elt F)),
    StableHlo.binary main_v55 main_v63 main_v64 (Host.divf : (⟨S50000x96, .f32⟩ : BufTy).Contents (Elt F) → (⟨S50000x96, .f32⟩ : BufTy).Contents (Elt F) → (⟨S50000x96, .f32⟩ : BufTy).Contents (Elt F)),
    StableHlo.binary main_v64 main_v41 main_v65 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    StableHlo.unary main_v43 main_v66 (broadcastInDim S1x96 ![1] bcast_S96_S1x96_1 : (⟨S96, .f32⟩ : BufTy).Contents (Elt F) → (⟨S1x96, .f32⟩ : BufTy).Contents (Elt F)),
    StableHlo.unary main_v66 main_v67 (broadcastInDim S50000x96 ![0, 1] bcast_S1x96_S50000x96_0_1 : (⟨S1x96, .f32⟩ : BufTy).Contents (Elt F) → (⟨S50000x96, .f32⟩ : BufTy).Contents (Elt F)),
    StableHlo.binary main_v65 main_v67 main_v68 (addf : (⟨S50000x96, .f32⟩ : BufTy).Contents (Elt F) → (⟨S50000x96, .f32⟩ : BufTy).Contents (Elt F) → (⟨S50000x96, .f32⟩ : BufTy).Contents (Elt F)),
    StableHlo.binary main_v39 main_v45 main_v69 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    StableHlo.binary main_v68 main_v69 main_v70 (addf : (⟨S50000x96, .f32⟩ : BufTy).Contents (Elt F) → (⟨S50000x96, .f32⟩ : BufTy).Contents (Elt F) → (⟨S50000x96, .f32⟩ : BufTy).Contents (Elt F)),
    -- the leaky rectifier on round 2's features
    StableHlo.nullary main_cst_11 (constant S_ .f32 0x3DCCCCCD#32),
    StableHlo.nullary main_call1_cst (constant S_ .f32 0x00000000#32),
    StableHlo.unary main_call1_cst main_call1_v0 (broadcastInDim S50000x96 ![] bcast_S_S50000x96 : (⟨S_, .f32⟩ : BufTy).Contents (Elt F) → (⟨S50000x96, .f32⟩ : BufTy).Contents (Elt F)),
    StableHlo.binary main_v70 main_call1_v0 main_call1_v1 (cmpf .oge : (⟨S50000x96, .f32⟩ : BufTy).Contents (Elt F) → (⟨S50000x96, .f32⟩ : BufTy).Contents (Elt F) → (⟨S50000x96, .i1⟩ : BufTy).Contents (Elt F)),
    StableHlo.unary main_cst_11 main_call1_v2 (id : (⟨S_, .f32⟩ : BufTy).Contents (Elt F) → (⟨S_, .f32⟩ : BufTy).Contents (Elt F)),
    StableHlo.unary main_call1_v2 main_call1_v3 (broadcastInDim S50000x96 ![] bcast_S_S50000x96 : (⟨S_, .f32⟩ : BufTy).Contents (Elt F) → (⟨S50000x96, .f32⟩ : BufTy).Contents (Elt F)),
    StableHlo.binary main_call1_v3 main_v70 main_call1_v4 (mulf : (⟨S50000x96, .f32⟩ : BufTy).Contents (Elt F) → (⟨S50000x96, .f32⟩ : BufTy).Contents (Elt F) → (⟨S50000x96, .f32⟩ : BufTy).Contents (Elt F)),
    StableHlo.ternary main_call1_v1 main_v70 main_call1_v4 main_v71 (select : (⟨S50000x96, .i1⟩ : BufTy).Contents (Elt F) → (⟨S50000x96, .f32⟩ : BufTy).Contents (Elt F) → (⟨S50000x96, .f32⟩ : BufTy).Contents (Elt F) → (⟨S50000x96, .f32⟩ : BufTy).Contents (Elt F)),
    -- layer 2's two matrices and its bias
    StableHlo.unary main_arg5 main_v72 ((extractStridedSlice S1x96x96 ![2, 0, 0] · slices_S3x96x96_S1x96x96_2_0_0) : (⟨S3x96x96, .f32⟩ : BufTy).Contents (Elt F) → (⟨S1x96x96, .f32⟩ : BufTy).Contents (Elt F)),
    StableHlo.reshape main_v72 main_v73 rfl shapeCasts_S1x96x96_S96x96,
    StableHlo.unary main_arg6 main_v74 ((extractStridedSlice S1x96 ![2, 0] · slices_S3x96_S1x96_2_0) : (⟨S3x96, .f32⟩ : BufTy).Contents (Elt F) → (⟨S1x96, .f32⟩ : BufTy).Contents (Elt F)),
    StableHlo.reshape main_v74 main_v75 rfl shapeCasts_S1x96_S96,
    StableHlo.unary main_arg7 main_v76 ((extractStridedSlice S1x96x96 ![2, 0, 0] · slices_S3x96x96_S1x96x96_2_0_0) : (⟨S3x96x96, .f32⟩ : BufTy).Contents (Elt F) → (⟨S1x96x96, .f32⟩ : BufTy).Contents (Elt F)),
    StableHlo.reshape main_v76 main_v77 rfl shapeCasts_S1x96x96_S96x96,
    -- round 3 (no rectifier after it)
    StableHlo.nullary main_c_12 (constantI S_ 32 0#32),
    StableHlo.unary main_c_12 main_v78 (broadcastInDim S800000 ![] bcast_S_S800000 : (⟨S_, .i32⟩ : BufTy).Contents (Elt F) → (⟨S800000, .i32⟩ : BufTy).Contents (Elt F)),
    StableHlo.binary main_v1 main_v78 main_v79 (cmpi .slt : (⟨S800000, .i32⟩ : BufTy).Contents (Elt F) → (⟨S800000, .i32⟩ : BufTy).Contents (Elt F) → (⟨S800000, .i1⟩ : BufTy).Contents (Elt F)),
    StableHlo.nullary main_c_13 (constantI S_ 32 50000#32),
    StableHlo.unary main_c_13 main_v80 (broadcastInDim S800000 ![] bcast_S_S800000 : (⟨S_, .i32⟩ : BufTy).Contents (Elt F) → (⟨S800000, .i32⟩ : BufTy).Contents (Elt F)),
    StableHlo.binary main_v1 main_v80 main_v81 (addi : (⟨S800000, .i32⟩ : BufTy).Contents (Elt F) → (⟨S800000, .i32⟩ : BufTy).Contents (Elt F) → (⟨S800000, .i32⟩ : BufTy).Contents (Elt F)),
    StableHlo.ternary main_v79 main_v81 main_v1 main_v82 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v82 main_v83 (broadcastInDim S800000x1 ![0] bcast_S800000_S800000x1_0 : (⟨S800000, .i32⟩ : BufTy).Contents (Elt F) → (⟨S800000x1, .i32⟩ : BufTy).Contents (Elt F)),
    StableHlo.binary main_v71 main_v83 main_v84 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    StableHlo.nullary main_cst_14 (constant S_ .f32 0x00000000#32),
    StableHlo.unary main_cst_14 main_v85 (broadcastInDim S50000x96 ![] bcast_S_S50000x96 : (⟨S_, .f32⟩ : BufTy).Contents (Elt F) → (⟨S50000x96, .f32⟩ : BufTy).Contents (Elt F)),
    StableHlo.unary main_v3 main_v86 (broadcastInDim S800000x1 ![0] bcast_S800000_S800000x1_0 : (⟨S800000, .i32⟩ : BufTy).Contents (Elt F) → (⟨S800000x1, .i32⟩ : BufTy).Contents (Elt F)),
    StableHlo.ternary main_v85 main_v86 main_v84 main_v87 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    StableHlo.nullary main_cst_15 (constant S_ .f32 0x3F800000#32),
    StableHlo.unary main_cst_15 main_v88 (broadcastInDim S800000 ![] bcast_S_S800000 : (⟨S_, .f32⟩ : BufTy).Contents (Elt F) → (⟨S800000, .f32⟩ : BufTy).Contents (Elt F)),
    StableHlo.nullary main_cst_16 (constant S_ .f32 0x00000000#32),
    StableHlo.unary main_cst_16 main_v89 (broadcastInDim S50000 ![] bcast_S_S50000 : (⟨S_, .f32⟩ : BufTy).Contents (Elt F) → (⟨S50000, .f32⟩ : BufTy).Contents (Elt F)),
    StableHlo.unary main_v3 main_v90 (broadcastInDim S800000x1 ![0] bcast_S800000_S800000x1_0 : (⟨S800000, .i32⟩ : BufTy).Contents (Elt F) → (⟨S800000x1, .i32⟩ : BufTy).Contents (Elt F)),
    StableHlo.ternary main_v89 main_v90 main_v88 main_v91 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_17 (constant S_ .f32 0x3F800000#32),
    StableHlo.unary main_cst_17 main_v92 (broadcastInDim S50000 ![] bcast_S_S50000 : (⟨S_, .f32⟩ : BufTy).Contents (Elt F) → (⟨S50000, .f32⟩ : BufTy).Contents (Elt F)),
    StableHlo.binary main_v91 main_v92 main_v93 (maximumf : (⟨S50000, .f32⟩ : BufTy).Contents (Elt F) → (⟨S50000, .f32⟩ : BufTy).Contents (Elt F) → (⟨S50000, .f32⟩ : BufTy).Contents (Elt F)),
    StableHlo.unary main_v93 main_v94 (broadcastInDim S50000x1 ![0] bcast_S50000_S50000x1_0 : (⟨S50000, .f32⟩ : BufTy).Contents (Elt F) → (⟨S50000x1, .f32⟩ : BufTy).Contents (Elt F)),
    StableHlo.unary main_v94 main_v95 (broadcastInDim S50000x96 ![0, 1] bcast_S50000x1_S50000x96_0_1 : (⟨S50000x1, .f32⟩ : BufTy).Contents (Elt F) → (⟨S50000x96, .f32⟩ : BufTy).Contents (Elt F)),
    StableHlo.binary main_v87 main_v95 main_v96 (Host.divf : (⟨S50000x96, .f32⟩ : BufTy).Contents (Elt F) → (⟨S50000x96, .f32⟩ : BufTy).Contents (Elt F) → (⟨S50000x96, .f32⟩ : BufTy).Contents (Elt F)),
    StableHlo.binary main_v96 main_v73 main_v97 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    StableHlo.unary main_v75 main_v98 (broadcastInDim S1x96 ![1] bcast_S96_S1x96_1 : (⟨S96, .f32⟩ : BufTy).Contents (Elt F) → (⟨S1x96, .f32⟩ : BufTy).Contents (Elt F)),
    StableHlo.unary main_v98 main_v99 (broadcastInDim S50000x96 ![0, 1] bcast_S1x96_S50000x96_0_1 : (⟨S1x96, .f32⟩ : BufTy).Contents (Elt F) → (⟨S50000x96, .f32⟩ : BufTy).Contents (Elt F)),
    StableHlo.binary main_v97 main_v99 main_v100 (addf : (⟨S50000x96, .f32⟩ : BufTy).Contents (Elt F) → (⟨S50000x96, .f32⟩ : BufTy).Contents (Elt F) → (⟨S50000x96, .f32⟩ : BufTy).Contents (Elt F)),
    StableHlo.binary main_v71 main_v77 main_v101 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    StableHlo.binary main_v100 main_v101 main_v102 (addf : (⟨S50000x96, .f32⟩ : BufTy).Contents (Elt F) → (⟨S50000x96, .f32⟩ : BufTy).Contents (Elt F) → (⟨S50000x96, .f32⟩ : BufTy).Contents (Elt F)),
    -- the pairs wrapped, their rows gathered and laid side by side
    StableHlo.nullary main_c_18 (constantI S_ 32 0#32),
    StableHlo.unary main_c_18 main_v103 (broadcastInDim S32768x2 ![] bcast_S_S32768x2 : (⟨S_, .i32⟩ : BufTy).Contents (Elt F) → (⟨S32768x2, .i32⟩ : BufTy).Contents (Elt F)),
    StableHlo.binary main_arg2 main_v103 main_v104 (cmpi .slt : (⟨S32768x2, .i32⟩ : BufTy).Contents (Elt F) → (⟨S32768x2, .i32⟩ : BufTy).Contents (Elt F) → (⟨S32768x2, .i1⟩ : BufTy).Contents (Elt F)),
    StableHlo.nullary main_c_19 (constantI S_ 32 50000#32),
    StableHlo.unary main_c_19 main_v105 (broadcastInDim S32768x2 ![] bcast_S_S32768x2 : (⟨S_, .i32⟩ : BufTy).Contents (Elt F) → (⟨S32768x2, .i32⟩ : BufTy).Contents (Elt F)),
    StableHlo.binary main_arg2 main_v105 main_v106 (addi : (⟨S32768x2, .i32⟩ : BufTy).Contents (Elt F) → (⟨S32768x2, .i32⟩ : BufTy).Contents (Elt F) → (⟨S32768x2, .i32⟩ : BufTy).Contents (Elt F)),
    StableHlo.ternary main_v104 main_v106 main_arg2 main_v107 (select : (⟨S32768x2, .i1⟩ : BufTy).Contents (Elt F) → (⟨S32768x2, .i32⟩ : BufTy).Contents (Elt F) → (⟨S32768x2, .i32⟩ : BufTy).Contents (Elt F) → (⟨S32768x2, .i32⟩ : BufTy).Contents (Elt F)),
    StableHlo.unary main_v107 main_v108 (broadcastInDim S32768x2x1 ![0, 1] bcast_S32768x2_S32768x2x1_0_1 : (⟨S32768x2, .i32⟩ : BufTy).Contents (Elt F) → (⟨S32768x2x1, .i32⟩ : BufTy).Contents (Elt F)),
    StableHlo.binary main_v102 main_v108 main_v109 ((fun x i => Host.gather gather_S50000x96_S32768x2x1_S32768x2x96_2_0_n_n_0_2_196 x i) : (⟨S50000x96, .f32⟩ : BufTy).Contents (Elt F) → (⟨S32768x2x1, .i32⟩ : BufTy).Contents (Elt F) → (⟨S32768x2x96, .f32⟩ : BufTy).Contents (Elt F)),
    StableHlo.reshape main_v109 main_v110 rfl shapeCasts_S32768x2x96_S32768x192,
    -- the perceptron's first layer
    StableHlo.binary main_v110 main_arg8 main_v111 ((fun l r => Host.dotGeneral dot_S32768x192_S192x96_S32768x96_1_0_0_1_n_n none l r) : (⟨S32768x192, .f32⟩ : BufTy).Contents (Elt F) → (⟨S192x96, .f32⟩ : BufTy).Contents (Elt F) → (⟨S32768x96, .f32⟩ : BufTy).Contents (Elt F)),
    StableHlo.unary main_arg9 main_v112 (broadcastInDim S1x96 ![1] bcast_S96_S1x96_1 : (⟨S96, .f32⟩ : BufTy).Contents (Elt F) → (⟨S1x96, .f32⟩ : BufTy).Contents (Elt F)),
    StableHlo.unary main_v112 main_v113 (broadcastInDim S32768x96 ![0, 1] bcast_S1x96_S32768x96_0_1 : (⟨S1x96, .f32⟩ : BufTy).Contents (Elt F) → (⟨S32768x96, .f32⟩ : BufTy).Contents (Elt F)),
    StableHlo.binary main_v111 main_v113 main_v114 (addf : (⟨S32768x96, .f32⟩ : BufTy).Contents (Elt F) → (⟨S32768x96, .f32⟩ : BufTy).Contents (Elt F) → (⟨S32768x96, .f32⟩ : BufTy).Contents (Elt F)),
    -- the leaky rectifier on the pair features
    StableHlo.nullary main_cst_20 (constant S_ .f32 0x3DCCCCCD#32),
    StableHlo.nullary main_call2_cst (constant S_ .f32 0x00000000#32),
    StableHlo.unary main_call2_cst main_call2_v0 (broadcastInDim S32768x96 ![] bcast_S_S32768x96 : (⟨S_, .f32⟩ : BufTy).Contents (Elt F) → (⟨S32768x96, .f32⟩ : BufTy).Contents (Elt F)),
    StableHlo.binary main_v114 main_call2_v0 main_call2_v1 (cmpf .oge : (⟨S32768x96, .f32⟩ : BufTy).Contents (Elt F) → (⟨S32768x96, .f32⟩ : BufTy).Contents (Elt F) → (⟨S32768x96, .i1⟩ : BufTy).Contents (Elt F)),
    StableHlo.unary main_cst_20 main_call2_v2 (id : (⟨S_, .f32⟩ : BufTy).Contents (Elt F) → (⟨S_, .f32⟩ : BufTy).Contents (Elt F)),
    StableHlo.unary main_call2_v2 main_call2_v3 (broadcastInDim S32768x96 ![] bcast_S_S32768x96 : (⟨S_, .f32⟩ : BufTy).Contents (Elt F) → (⟨S32768x96, .f32⟩ : BufTy).Contents (Elt F)),
    StableHlo.binary main_call2_v3 main_v114 main_call2_v4 (mulf : (⟨S32768x96, .f32⟩ : BufTy).Contents (Elt F) → (⟨S32768x96, .f32⟩ : BufTy).Contents (Elt F) → (⟨S32768x96, .f32⟩ : BufTy).Contents (Elt F)),
    StableHlo.ternary main_call2_v1 main_v114 main_call2_v4 main_v115 (select : (⟨S32768x96, .i1⟩ : BufTy).Contents (Elt F) → (⟨S32768x96, .f32⟩ : BufTy).Contents (Elt F) → (⟨S32768x96, .f32⟩ : BufTy).Contents (Elt F) → (⟨S32768x96, .f32⟩ : BufTy).Contents (Elt F)),
    -- the output layer
    StableHlo.binary main_v115 main_arg10 main_v116 ((fun l r => Host.dotGeneral dot_S32768x96_S96x1_S32768x1_1_0_0_1_n_n none l r) : (⟨S32768x96, .f32⟩ : BufTy).Contents (Elt F) → (⟨S96x1, .f32⟩ : BufTy).Contents (Elt F) → (⟨S32768x1, .f32⟩ : BufTy).Contents (Elt F)),
    StableHlo.unary main_arg11 main_v117 (broadcastInDim S1x1 ![1] bcast_S1_S1x1_1 : (⟨S1, .f32⟩ : BufTy).Contents (Elt F) → (⟨S1x1, .f32⟩ : BufTy).Contents (Elt F)),
    StableHlo.unary main_v117 main_v118 (broadcastInDim S32768x1 ![0, 1] bcast_S1x1_S32768x1_0_1 : (⟨S1x1, .f32⟩ : BufTy).Contents (Elt F) → (⟨S32768x1, .f32⟩ : BufTy).Contents (Elt F)),
    StableHlo.binary main_v116 main_v118 main_v119 (addf : (⟨S32768x1, .f32⟩ : BufTy).Contents (Elt F) → (⟨S32768x1, .f32⟩ : BufTy).Contents (Elt F) → (⟨S32768x1, .f32⟩ : BufTy).Contents (Elt F)) ]

set_option maxRecDepth 8192 in
set_option maxHeartbeats 4000000 in
/-- @main is that straight line: the windows' and the functions' definitions unfolded at their calls and the
    records at their fields, both sides are one chain of steps once sequencing is reassociated; a step of a callee,
    stated over references that carry their tensor type, is the same step over the buffers themselves. -/
theorem main_eq (c : Dev nD) : main (F := F) c = seq ops := by
  simp only [main, main_part0, main_part1, main_part2, fn_leaky_relu.body, fn_leaky_relu_0.body, fn_where.body, fn_where_1.body, seq, bind_assoc, pure_bind]
  rfl

/-- The signature scopes no buffer. -/
theorem scopedRefs_eq : (Finset.univ.filter fun b : Ref sig .tc => b.isScoped) = ∅ := by decide
/-- The signature has no semaphore, so none is scoped. -/
theorem scopedSems_eq : (Finset.univ.filter fun sm : SemLoc sig => sm.isScoped .tc) = ∅ := by decide
/-- Each operation touches TensorCore buffers only. -/
theorem ops_sub : (ops : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.binary_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.binary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.ternary_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.binary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.ternary_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.reshape_bufs_sub .., StableHlo.binary_bufs_sub .., StableHlo.unary_bufs_sub .., StableHlo.unary_bufs_sub .., StableHlo.binary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.ternary_bufs_sub .., StableHlo.binary_bufs_sub .., StableHlo.unary_bufs_sub .., StableHlo.unary_bufs_sub .., StableHlo.binary_bufs_sub ..⟩

set_option maxRecDepth 8192 in
set_option maxHeartbeats 4000000 in
/-- The result buffer after the line: reading each buffer back as the value of the operation that writes it (every
    buffer is written once, by the operation it is the result of, and read only afterwards) gives the operations'
    composed term of the arguments, and that term is `refOut`'s body with its stages unfolded — the embedding, three
    convolutions over the same edge table, the rectifier after the first two, the pair head. -/
theorem out_eq (V : Valuation τ sig (Elt F)) :
    after ops V (main_v119 : DevRef τ sig)
      = RefTerm.refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  after_results_simp
  rfl

set_option maxRecDepth 8192 in
set_option maxHeartbeats 4000000 in
/-- No operation writes argument 0: it ends as it started. -/
theorem arg0_eq (V : Valuation τ sig (Elt F)) :
    after ops V (main_arg0 : DevRef τ sig) = V (main_arg0 : DevRef τ sig) := by
  after_results_simp

set_option maxRecDepth 8192 in
set_option maxHeartbeats 4000000 in
/-- No operation writes argument 1: it ends as it started. -/
theorem arg1_eq (V : Valuation τ sig (Elt F)) :
    after ops V (main_arg1 : DevRef τ sig) = V (main_arg1 : DevRef τ sig) := by
  after_results_simp

set_option maxRecDepth 8192 in
set_option maxHeartbeats 4000000 in
/-- No operation writes argument 2: it ends as it started. -/
theorem arg2_eq (V : Valuation τ sig (Elt F)) :
    after ops V (main_arg2 : DevRef τ sig) = V (main_arg2 : DevRef τ sig) := by
  after_results_simp

set_option maxRecDepth 8192 in
set_option maxHeartbeats 4000000 in
/-- No operation writes argument 3: it ends as it started. -/
theorem arg3_eq (V : Valuation τ sig (Elt F)) :
    after ops V (main_arg3 : DevRef τ sig) = V (main_arg3 : DevRef τ sig) := by
  after_results_simp

set_option maxRecDepth 8192 in
set_option maxHeartbeats 4000000 in
/-- No operation writes argument 4: it ends as it started. -/
theorem arg4_eq (V : Valuation τ sig (Elt F)) :
    after ops V (main_arg4 : DevRef τ sig) = V (main_arg4 : DevRef τ sig) := by
  after_results_simp

set_option maxRecDepth 8192 in
set_option maxHeartbeats 4000000 in
/-- No operation writes argument 5: it ends as it started. -/
theorem arg5_eq (V : Valuation τ sig (Elt F)) :
    after ops V (main_arg5 : DevRef τ sig) = V (main_arg5 : DevRef τ sig) := by
  after_results_simp

set_option maxRecDepth 8192 in
set_option maxHeartbeats 4000000 in
/-- No operation writes argument 6: it ends as it started. -/
theorem arg6_eq (V : Valuation τ sig (Elt F)) :
    after ops V (main_arg6 : DevRef τ sig) = V (main_arg6 : DevRef τ sig) := by
  after_results_simp

set_option maxRecDepth 8192 in
set_option maxHeartbeats 4000000 in
/-- No operation writes argument 7: it ends as it started. -/
theorem arg7_eq (V : Valuation τ sig (Elt F)) :
    after ops V (main_arg7 : DevRef τ sig) = V (main_arg7 : DevRef τ sig) := by
  after_results_simp

set_option maxRecDepth 8192 in
set_option maxHeartbeats 4000000 in
/-- No operation writes argument 8: it ends as it started. -/
theorem arg8_eq (V : Valuation τ sig (Elt F)) :
    after ops V (main_arg8 : DevRef τ sig) = V (main_arg8 : DevRef τ sig) := by
  after_results_simp

set_option maxRecDepth 8192 in
set_option maxHeartbeats 4000000 in
/-- No operation writes argument 9: it ends as it started. -/
theorem arg9_eq (V : Valuation τ sig (Elt F)) :
    after ops V (main_arg9 : DevRef τ sig) = V (main_arg9 : DevRef τ sig) := by
  after_results_simp

set_option maxRecDepth 8192 in
set_option maxHeartbeats 4000000 in
/-- No operation writes argument 10: it ends as it started. -/
theorem arg10_eq (V : Valuation τ sig (Elt F)) :
    after ops V (main_arg10 : DevRef τ sig) = V (main_arg10 : DevRef τ sig) := by
  after_results_simp

set_option maxRecDepth 8192 in
set_option maxHeartbeats 4000000 in
/-- No operation writes argument 11: it ends as it started. -/
theorem arg11_eq (V : Valuation τ sig (Elt F)) :
    after ops V (main_arg11 : DevRef τ sig) = V (main_arg11 : DevRef τ sig) := by
  after_results_simp

/-- On every device, for any float values, from any memory with zero counters: every weakly fair execution of
    @main terminates with the result buffer at `RefTerm.refOut` of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v119) = RefTerm.refOut (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v119).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _)⟩)
    (run_seq scopedRefs_eq scopedSems_eq defs main (fun _ => ops) main_eq (fun _ => ops_sub) m ρ)

end Cert.ReferenceIdeal.RefRun

end
-- ==== Proof.BridgeIdx.lean ====
/-
  The two programs compute one function.

  Stage by stage, at the extended reals:
  * the host-side index work (the edge table's rows, the wrap of negative indices, the row gather, the scatter-add, the
    slices of the stacked weights, the pair gather) is the SAME composition of operations in both programs, so those
    stages are equal as they stand;
  * the embedding, the layers and the scorer are, entry by entry, sums over the contracted coordinate plus a bias entry:
    the host's product is that sum, a bias repeated along the rows reads the bias entry, and the two orders in which a
    layer adds its three terms agree because addition is commutative and associative;
  * the mean of the incoming rows is the row sum times one over the clamped count in one program and the row sum divided
    by the clamped count in the other; the clamped count is at least one, hence not zero, and then both are the sum times
    the count's inverse;
  * the activation tests `0 < y` in one program and `0 ≤ y` in the other, and at `y = 0` both branches give `0`.
-/
import proofs.«139593_j16183436771650_1_alg».proof.Proof.BodySage
import proofs.«139593_j16183436771650_1_alg».proof.Proof.BodyMlp
import proofs.«139593_j16183436771650_1_alg».proof.Proof.KerTerm
import proofs.«139593_j16183436771650_1_alg».proof.Proof.Gen.KernelIdeal
import proofs.«139593_j16183436771650_1_alg».proof.Proof.RefTerm
import proofs.«139593_j16183436771650_1_alg».proof.Proof.Gen.ReferenceIdeal
import Idealize.ShloMosaic.Lib.IdealHost
import Idealize.ShloMosaic.Lib.KernelVsHost

set_option maxRecDepth 16384

noncomputable section

open scoped BigOperators

namespace Cert.Sage.Bridge

open Idealize.ShloMosaic Idealize.ShloMosaic.ValueIdx Cert.Sage

/-! ## Broadcasts and casts read at an index -/

/-- A vector repeated along the rows (first made a one-row matrix, then broadcast down the rows) reads, at `(r, q)`, its
    entry `q`; and so does its cast to a one-row matrix at `(0, q)`. -/
theorem rowBcast_apply {α : Type} {m n : ℕ} (hb1 : (⟨1, ![n]⟩ : Shape).BroadcastsInDim ⟨2, ![1, n]⟩ ![1])
    (hbc : (⟨2, ![1, n]⟩ : Shape).BroadcastsInDim ⟨2, ![m, n]⟩ ![0, 1]) (h1 : (⟨1, ![n]⟩ : Shape).ShapeCasts ⟨2, ![1, n]⟩)
    (b : (⟨1, ![n]⟩ : Shape).Idx → α) (r : Fin m) (q : Fin n) :
    broadcastInDim ⟨2, ![m, n]⟩ ![0, 1] hbc (broadcastInDim ⟨2, ![1, n]⟩ ![1] hb1 b) (ix2 r q)
      = shapeCast ⟨2, ![1, n]⟩ b h1 (ix2 (0 : Fin 1) q) := by
  rw [broadcastInDim_oneRow_apply]
  have e1 := broadcastInDim_apply ![1] hb1 b (ix2 (0 : Fin 1) q) (ix1 q) (by
    intro a
    match a with
    | ⟨0, _⟩ =>
      show q.val = if n = 1 then 0 else q.val
      split
      · have := q.isLt; omega
      · rfl)
  have e2 := shapeCast_apply b h1 (ix2 (0 : Fin 1) q) (ix1 q) (by
    rw [Shape.rowMajor_val_two, Shape.rowMajor_val_one]; show q.val = 0 * n + q.val; omega)
  exact e1.trans e2.symm

/-- A vector repeated along the columns (first made a one-column matrix, then broadcast along the rows) reads, at
    `(r, q)`, its entry `r`. -/
theorem colBcast_apply {α : Type} {m n : ℕ} (hb1 : (⟨1, ![m]⟩ : Shape).BroadcastsInDim ⟨2, ![m, 1]⟩ ![0])
    (hbc : (⟨2, ![m, 1]⟩ : Shape).BroadcastsInDim ⟨2, ![m, n]⟩ ![0, 1])
    (v : (⟨1, ![m]⟩ : Shape).Idx → α) (r : Fin m) (q : Fin n) :
    broadcastInDim ⟨2, ![m, n]⟩ ![0, 1] hbc (broadcastInDim ⟨2, ![m, 1]⟩ ![0] hb1 v) (ix2 r q) = v (ix1 r) := by
  have e1 := broadcastInDim_apply ![0, 1] hbc (broadcastInDim ⟨2, ![m, 1]⟩ ![0] hb1 v) (ix2 r q) (ix2 r (0 : Fin 1)) (by
    intro a
    match a with
    | ⟨0, _⟩ =>
      show r.val = if m = 1 then 0 else r.val
      split
      · have := r.isLt; omega
      · rfl
    | ⟨1, _⟩ => rfl)
  have e2 := broadcastInDim_apply ![0] hb1 v (ix2 r (0 : Fin 1)) (ix1 r) (by
    intro a
    match a with
    | ⟨0, _⟩ =>
      show r.val = if m = 1 then 0 else r.val
      split
      · have := r.isLt; omega
      · rfl)
  exact e1.trans e2

/-- The host's plain product at an entry. -/
theorem hostDot_apply {M K N : ℕ} (d : DotDims ⟨2, ![M, K]⟩ ⟨2, ![K, N]⟩ ⟨2, ![M, N]⟩) (hd : d = DotDims.plain M K N)
    (l : FVec Ideal ⟨2, ![M, K]⟩ .f32) (r : FVec Ideal ⟨2, ![K, N]⟩ .f32) (a : Fin M) (c : Fin N) :
    Host.dotGeneral d none l r (ix2 a c) = ∑ k : Fin K, l (ix2 a k) * r (ix2 k c) := by
  subst hd
  exact Cert.Lib.PlainDot.dotGeneral_apply M K N none _ l r (ix2 a c)

theorem dotE_plain : Cert.ReferenceIdeal.dot_S50000x64_S64x96_S50000x96_1_0_0_1_n_n = DotDims.plain 50000 64 96 := rfl
theorem dotL_plain : Cert.ReferenceIdeal.dot_S50000x96_S96x96_S50000x96_1_0_0_1_n_n = DotDims.plain 50000 96 96 := rfl
theorem dotP1_plain : Cert.ReferenceIdeal.dot_S32768x192_S192x96_S32768x96_1_0_0_1_n_n = DotDims.plain 32768 192 96 := rfl
theorem dotP2_plain : Cert.ReferenceIdeal.dot_S32768x96_S96x1_S32768x1_1_0_0_1_n_n = DotDims.plain 32768 96 1 := rfl

/-! ## The shared host stages are the same compositions -/

theorem rowSum_eq (h : Mat 50000 96) (e : IVec ⟨2, ![2, 800000]⟩ 32) :
    Cert.KernelIdeal.KerTerm.rowSumOf (F := Ideal) h (Cert.KernelIdeal.KerTerm.srcRow (F := Ideal) e) (Cert.KernelIdeal.KerTerm.dstRow (F := Ideal) e) = Cert.ReferenceIdeal.RefTerm.rowSum (F := Ideal) h e := rfl
theorem wSlice0_eq (W : FVec Ideal ⟨3, ![3, 96, 96]⟩ .f32) : Cert.KernelIdeal.KerTerm.wSlice0 (F := Ideal) W = Cert.ReferenceIdeal.RefTerm.wSlice0 (F := Ideal) W := rfl
theorem wSlice1_eq (W : FVec Ideal ⟨3, ![3, 96, 96]⟩ .f32) : Cert.KernelIdeal.KerTerm.wSlice1 (F := Ideal) W = Cert.ReferenceIdeal.RefTerm.wSlice1 (F := Ideal) W := rfl
theorem wSlice2_eq (W : FVec Ideal ⟨3, ![3, 96, 96]⟩ .f32) : Cert.KernelIdeal.KerTerm.wSlice2 (F := Ideal) W = Cert.ReferenceIdeal.RefTerm.wSlice2 (F := Ideal) W := rfl
theorem bRow0_eq (b : FVec Ideal ⟨2, ![3, 96]⟩ .f32) : Cert.KernelIdeal.KerTerm.bRow0 (F := Ideal) b = Cert.KernelIdeal.KerTerm.biasRow (F := Ideal) (Cert.ReferenceIdeal.RefTerm.bSlice0 (F := Ideal) b) := rfl
theorem bRow1_eq (b : FVec Ideal ⟨2, ![3, 96]⟩ .f32) : Cert.KernelIdeal.KerTerm.bRow1 (F := Ideal) b = Cert.KernelIdeal.KerTerm.biasRow (F := Ideal) (Cert.ReferenceIdeal.RefTerm.bSlice1 (F := Ideal) b) := rfl
theorem bRow2_eq (b : FVec Ideal ⟨2, ![3, 96]⟩ .f32) : Cert.KernelIdeal.KerTerm.bRow2 (F := Ideal) b = Cert.KernelIdeal.KerTerm.biasRow (F := Ideal) (Cert.ReferenceIdeal.RefTerm.bSlice2 (F := Ideal) b) := rfl
theorem pairRows_eq (h : Mat 50000 96) (p : IVec ⟨2, ![32768, 2]⟩ 32) :
    Cert.KernelIdeal.KerTerm.pairRows (F := Ideal) h p = Cert.ReferenceIdeal.RefTerm.pairRows (F := Ideal) h p := rfl

/-- The reference's divisor is the clamped count repeated along the features. -/
theorem denom_eq (e : IVec ⟨2, ![2, 800000]⟩ 32) :
    Cert.ReferenceIdeal.RefTerm.denom (F := Ideal) e
      = broadcastInDim Cert.KernelIdeal.S50000x96 ![0, 1] Cert.KernelIdeal.Facts₀.bcast_S50000x1_S50000x96_0_1
          (broadcastInDim Cert.KernelIdeal.S50000x1 ![0] Cert.KernelIdeal.Facts₀.bcast_S50000_S50000x1_0 (Cert.KernelIdeal.KerTerm.clampedCount (F := Ideal) e)) := rfl

end Cert.Sage.Bridge

end
-- ==== Proof.BridgeMean.lean ====
/-
  The mean of a node's incoming rows, in the two programs: the row sum times one over the clamped count, and the row
  sum divided by the clamped count. The clamped count is a maximum with one, hence at least one and not zero; for a
  divisor that is not zero, multiplying by its reciprocal and dividing by it are both the product with its inverse.
-/
import proofs.«139593_j16183436771650_1_alg».proof.Proof.BridgeIdx
import Idealize.ShloMosaic.Lib.IdealHost
import Idealize.ShloMosaic.Lib.KernelVsHost

set_option maxRecDepth 16384

noncomputable section

open scoped BigOperators

namespace Cert.Sage.Bridge

open Idealize.ShloMosaic Idealize.ShloMosaic.ValueIdx Cert.Sage

/-- A constant splat reads its value everywhere. -/
theorem splat_apply {T : Shape} (h : (⟨0, ![]⟩ : Shape).BroadcastsInDim T ![]) (w : BitVec 32) (j : T.Idx) :
    broadcastInDim T ![] h (constant (F := Ideal) ⟨0, ![]⟩ .f32 w) j = Ideal.ofBits .f32 w := by
  rw [broadcastInDim_scalar_apply]
  rfl

/-- The clamped count is a maximum with one, so it is not zero. -/
theorem clamped_ne_zero (e : IVec ⟨2, ![2, 800000]⟩ 32) (r : Fin 50000) :
    Cert.KernelIdeal.KerTerm.clampedCount (F := Ideal) e (ix1 r) ≠ 0 := by
  unfold Cert.KernelIdeal.KerTerm.clampedCount
  rw [maximumf_apply, splat_apply, Ideal.ofBits_one_f32]
  exact max_ne_zero _ _ zero_lt_one

/-- One over the clamped count, at a node. -/
theorem invCount_apply (e : IVec ⟨2, ![2, 800000]⟩ 32) (r : Fin 50000) :
    Cert.KernelIdeal.KerTerm.invCount (F := Ideal) e (ix1 r) = Ideal.div 1 (Cert.KernelIdeal.KerTerm.clampedCount (F := Ideal) e (ix1 r)) := by
  unfold Cert.KernelIdeal.KerTerm.invCount
  rw [hostDivf_apply, splat_apply, Ideal.ofBits_one_f32]

/-- The row sum times one over the clamped count is the row sum divided by the clamped count. -/
theorem aggr_eq (h : Mat 50000 96) (e : IVec ⟨2, ![2, 800000]⟩ 32) :
    Cert.KernelIdeal.KerTerm.aggr (F := Ideal) h e = Cert.ReferenceIdeal.RefTerm.aggr (F := Ideal) h e := by
  funext i
  obtain ⟨r, q, rfl⟩ : ∃ (r : Fin 50000) (q : Fin 96), i = ix2 r q := ⟨i 0, i 1, eq_ix2 i⟩
  unfold Cert.KernelIdeal.KerTerm.aggr Cert.KernelIdeal.KerTerm.aggrOf Cert.ReferenceIdeal.RefTerm.aggr
  rw [mulf_apply, hostDivf_apply, colBcast_apply, denom_eq, colBcast_apply, rowSum_eq, invCount_apply]
  exact Ideal.mul_one_div (clamped_ne_zero e r)

end Cert.Sage.Bridge

end
-- ==== Proof.BridgeLayers.lean ====
/-
  The embedding, a layer, the activation and the pair scorer, in the reference's operations, read at an entry: the
  host's product is the sum over the contracted coordinate, a bias repeated along the rows reads the bias entry, the
  activation keeps an entry that is at least zero and multiplies the others by the slope. Entry by entry these are the
  specification's functions; a layer's three terms are added in another order than the kernel's, which changes nothing,
  and the activation's test differs from the kernel's only at zero, where both give zero.
-/
import proofs.«139593_j16183436771650_1_alg».proof.Proof.BridgeIdx
import proofs.«139593_j16183436771650_1_alg».proof.Proof.BridgeMean
import Idealize.ShloMosaic.Lib.IdealHost
import Idealize.ShloMosaic.Lib.KernelVsHost

set_option maxRecDepth 16384

noncomputable section

open scoped BigOperators

namespace Cert.Sage.Bridge

open Idealize.ShloMosaic Idealize.ShloMosaic.ValueIdx Cert.Sage

theorem embed_eq (x : Mat 50000 64) (W : Mat 64 96) (b : FVec Ideal ⟨1, ![96]⟩ .f32) :
    Cert.ReferenceIdeal.RefTerm.embed (F := Ideal) x W b = embedF x W (Cert.KernelIdeal.KerTerm.biasRow (F := Ideal) b) := by
  funext i
  obtain ⟨r, q, rfl⟩ : ∃ (r : Fin 50000) (q : Fin 96), i = ix2 r q := ⟨i 0, i 1, eq_ix2 i⟩
  unfold Cert.ReferenceIdeal.RefTerm.embed
  rw [addf_apply, hostDot_apply _ dotE_plain, rowBcast_apply _ _ Cert.KernelIdeal.Facts₀.shapeCasts_S96_S1x96]
  rfl

/-- A layer before its activation, in the reference's order. -/
theorem conv_apply (h : Mat 50000 96) (e : IVec ⟨2, ![2, 800000]⟩ 32) (Wl Wr : Mat 96 96) (bl : FVec Ideal ⟨1, ![96]⟩ .f32)
    (r : Fin 50000) (q : Fin 96) :
    Cert.ReferenceIdeal.RefTerm.conv (F := Ideal) h e Wl bl Wr (ix2 r q)
      = layerR (Cert.ReferenceIdeal.RefTerm.aggr (F := Ideal) h e) h Wl Wr (Cert.KernelIdeal.KerTerm.biasRow (F := Ideal) bl) (ix2 r q) := by
  unfold Cert.ReferenceIdeal.RefTerm.conv
  rw [addf_apply, addf_apply, hostDot_apply _ dotL_plain, hostDot_apply _ dotL_plain,
    rowBcast_apply _ _ Cert.KernelIdeal.Facts₀.shapeCasts_S96_S1x96]
  rfl

/-- The reference's activation at an entry (on the node features). -/
theorem leaky_apply (z : Mat 50000 96) (i : (⟨2, ![50000, 96]⟩ : Shape).Idx) :
    Cert.ReferenceIdeal.RefTerm.leaky (F := Ideal) z i = actGe slope (z i) := by
  unfold Cert.ReferenceIdeal.RefTerm.leaky
  rw [select_apply, cmpf_apply, mulf_apply, splat_apply]
  show Scalar.select (Ideal.cmp .oge (z i) (Ideal.ofBits .f32 0x00000000#32)) (z i)
      (broadcastInDim Cert.ReferenceIdeal.S50000x96 ![] Cert.ReferenceIdeal.Facts₀.bcast_S_S50000x96 (constant (F := Ideal) Cert.ReferenceIdeal.S_ .f32 0x3DCCCCCD#32) i * z i) = _
  rw [splat_apply, Ideal.ofBits_zero_f32]
  rfl

/-- The reference's activation at an entry (on the pair features). -/
theorem leakyP_apply (z : Mat 32768 96) (i : (⟨2, ![32768, 96]⟩ : Shape).Idx) :
    Cert.ReferenceIdeal.RefTerm.leakyP (F := Ideal) z i = actGe slopeP (z i) := by
  unfold Cert.ReferenceIdeal.RefTerm.leakyP
  rw [select_apply, cmpf_apply, mulf_apply, splat_apply]
  show Scalar.select (Ideal.cmp .oge (z i) (Ideal.ofBits .f32 0x00000000#32)) (z i)
      (broadcastInDim Cert.ReferenceIdeal.S32768x96 ![] Cert.ReferenceIdeal.Facts₀.bcast_S_S32768x96 (constant (F := Ideal) Cert.ReferenceIdeal.S_ .f32 0x3DCCCCCD#32) i * z i) = _
  rw [splat_apply, Ideal.ofBits_zero_f32]
  rfl

/-- An activated layer: the kernel's function of the previous features is the reference's. -/
theorem layerAct_eq (h : Mat 50000 96) (e : IVec ⟨2, ![2, 800000]⟩ 32) (Wl Wr : Mat 96 96) (bl : FVec Ideal ⟨1, ![96]⟩ .f32) :
    (fun i => actGt slope (layerK (Cert.KernelIdeal.KerTerm.aggr (F := Ideal) h e) h Wl Wr (Cert.KernelIdeal.KerTerm.biasRow (F := Ideal) bl) i))
      = Cert.ReferenceIdeal.RefTerm.leaky (F := Ideal) (Cert.ReferenceIdeal.RefTerm.conv (F := Ideal) h e Wl bl Wr) := by
  funext i
  obtain ⟨r, q, rfl⟩ : ∃ (r : Fin 50000) (q : Fin 96), i = ix2 r q := ⟨i 0, i 1, eq_ix2 i⟩
  rw [leaky_apply, conv_apply, aggr_eq, layerK_eq_layerR, actGt_eq_actGe]

/-- The last layer has no activation. -/
theorem layerLin_eq (h : Mat 50000 96) (e : IVec ⟨2, ![2, 800000]⟩ 32) (Wl Wr : Mat 96 96) (bl : FVec Ideal ⟨1, ![96]⟩ .f32) :
    (fun i => layerK (Cert.KernelIdeal.KerTerm.aggr (F := Ideal) h e) h Wl Wr (Cert.KernelIdeal.KerTerm.biasRow (F := Ideal) bl) i)
      = Cert.ReferenceIdeal.RefTerm.conv (F := Ideal) h e Wl bl Wr := by
  funext i
  obtain ⟨r, q, rfl⟩ : ∃ (r : Fin 50000) (q : Fin 96), i = ix2 r q := ⟨i 0, i 1, eq_ix2 i⟩
  rw [conv_apply, aggr_eq, layerK_eq_layerR]

/-- The scorer's hidden layer before its activation, at an entry. -/
theorem hidden_apply (hp : Mat 32768 192) (W1 : Mat 192 96) (b1 : FVec Ideal ⟨1, ![96]⟩ .f32) (r : Fin 32768) (j : Fin 96) :
    addf (F := Ideal) (φ := .f32) (Host.dotGeneral (F := Ideal) (φ₁ := .f32) (φ₂ := .f32) Cert.ReferenceIdeal.dot_S32768x192_S192x96_S32768x96_1_0_0_1_n_n none hp W1)
        (broadcastInDim Cert.ReferenceIdeal.S32768x96 ![0, 1] Cert.ReferenceIdeal.Facts₀.bcast_S1x96_S32768x96_0_1
          (broadcastInDim Cert.ReferenceIdeal.S1x96 ![1] Cert.ReferenceIdeal.Facts₀.bcast_S96_S1x96_1 b1)) (ix2 r j)
      = embedF hp W1 (Cert.KernelIdeal.KerTerm.biasRow (F := Ideal) b1) (ix2 r j) := by
  rw [addf_apply, hostDot_apply _ dotP1_plain, rowBcast_apply _ _ Cert.KernelIdeal.Facts₀.shapeCasts_S96_S1x96]
  rfl

/-- The pair scorer. -/
theorem mlp_eq (hp : Mat 32768 192) (W1 : Mat 192 96) (b1 : FVec Ideal ⟨1, ![96]⟩ .f32) (W2 : Mat 96 1)
    (b2 : FVec Ideal ⟨1, ![1]⟩ .f32) :
    scoreF slopeP hp W1 (Cert.KernelIdeal.KerTerm.biasRow (F := Ideal) b1) W2 (Cert.KernelIdeal.KerTerm.biasOne (F := Ideal) b2)
      = Cert.ReferenceIdeal.RefTerm.mlp (F := Ideal) hp W1 b1 W2 b2 := by
  funext i
  obtain ⟨r, o, rfl⟩ : ∃ (r : Fin 32768) (o : Fin 1), i = ix2 r o := ⟨i 0, i 1, eq_ix2 i⟩
  symm
  unfold Cert.ReferenceIdeal.RefTerm.mlp
  rw [addf_apply, hostDot_apply _ dotP2_plain, rowBcast_apply _ _ Cert.KernelIdeal.Facts₀.shapeCasts_S1_S1x1]
  show _ = (∑ j : Fin 96, actGt slopeP (embedF hp W1 (Cert.KernelIdeal.KerTerm.biasRow (F := Ideal) b1) (ix2 r j)) * W2 (ix2 j o))
      + Cert.KernelIdeal.KerTerm.biasOne (F := Ideal) b2 (ix2 (0 : Fin 1) o)
  refine congrArg (· + _) (Finset.sum_congr rfl fun j _ => ?_)
  rw [leakyP_apply, hidden_apply, actGt_eq_actGe]

end Cert.Sage.Bridge

end
-- ==== Proof.Bridge.lean ====
/-
  The kernel program's result function is the reference's: the stage equalities, composed along the network — the
  embedding, two activated layers, a third layer, the pair gather and the scorer.
-/
import proofs.«139593_j16183436771650_1_alg».proof.Proof.KerValue
import proofs.«139593_j16183436771650_1_alg».proof.Proof.BridgeLayers

set_option maxRecDepth 16384

noncomputable section

namespace Cert.Sage.Bridge

open Idealize.ShloMosaic Idealize.ShloMosaic.ValueIdx Cert.Sage

/-! ## The whole network -/

open Cert.KernelIdeal.Value in
/-- The kernel program's result function is the reference's. -/
theorem kerOut_eq_refOut (x : Mat 50000 64) (e : IVec ⟨2, ![2, 800000]⟩ 32) (p : IVec ⟨2, ![32768, 2]⟩ 32)
    (Wemb : Mat 64 96) (bemb : FVec Ideal ⟨1, ![96]⟩ .f32) (Wl : FVec Ideal ⟨3, ![3, 96, 96]⟩ .f32)
    (bl : FVec Ideal ⟨2, ![3, 96]⟩ .f32) (Wr : FVec Ideal ⟨3, ![3, 96, 96]⟩ .f32) (W1 : Mat 192 96)
    (b1 : FVec Ideal ⟨1, ![96]⟩ .f32) (W2 : Mat 96 1) (b2 : FVec Ideal ⟨1, ![1]⟩ .f32) :
    kerOut x e p Wemb bemb Wl bl Wr W1 b1 W2 b2 = Cert.ReferenceIdeal.RefTerm.refOut (F := Ideal) x e p Wemb bemb Wl bl Wr W1 b1 W2 b2 := by
  have e0 : H0 x e Wemb bemb Wl bl Wr = Cert.ReferenceIdeal.RefTerm.embed (F := Ideal) x Wemb bemb := (embed_eq x Wemb bemb).symm
  have e1 : H1 x e Wemb bemb Wl bl Wr
      = Cert.ReferenceIdeal.RefTerm.leaky (F := Ideal) (Cert.ReferenceIdeal.RefTerm.conv (F := Ideal) (Cert.ReferenceIdeal.RefTerm.embed (F := Ideal) x Wemb bemb) e
          (Cert.ReferenceIdeal.RefTerm.wSlice0 (F := Ideal) Wl) (Cert.ReferenceIdeal.RefTerm.bSlice0 (F := Ideal) bl) (Cert.ReferenceIdeal.RefTerm.wSlice0 (F := Ideal) Wr)) := by
    unfold H1 R1.G
    rw [e0, wSlice0_eq, wSlice0_eq, bRow0_eq]
    exact layerAct_eq _ e _ _ _
  have e2 : H2 x e Wemb bemb Wl bl Wr
      = Cert.ReferenceIdeal.RefTerm.leaky (F := Ideal) (Cert.ReferenceIdeal.RefTerm.conv (F := Ideal) (H1 x e Wemb bemb Wl bl Wr) e
          (Cert.ReferenceIdeal.RefTerm.wSlice1 (F := Ideal) Wl) (Cert.ReferenceIdeal.RefTerm.bSlice1 (F := Ideal) bl) (Cert.ReferenceIdeal.RefTerm.wSlice1 (F := Ideal) Wr)) := by
    unfold H2 R2.G
    rw [wSlice1_eq, wSlice1_eq, bRow1_eq]
    exact layerAct_eq _ e _ _ _
  have e3 : H3 x e Wemb bemb Wl bl Wr
      = Cert.ReferenceIdeal.RefTerm.conv (F := Ideal) (H2 x e Wemb bemb Wl bl Wr) e
          (Cert.ReferenceIdeal.RefTerm.wSlice2 (F := Ideal) Wl) (Cert.ReferenceIdeal.RefTerm.bSlice2 (F := Ideal) bl) (Cert.ReferenceIdeal.RefTerm.wSlice2 (F := Ideal) Wr) := by
    unfold H3 R3.G
    rw [wSlice2_eq, wSlice2_eq, bRow2_eq]
    exact layerLin_eq _ e _ _ _
  unfold kerOut Cert.ReferenceIdeal.RefTerm.refOut
  rw [mlp_eq, pairRows_eq, e3, e2, e1]

end Cert.Sage.Bridge

end
-- ==== Proof.lean ====
/-
  A graph network scored on node pairs, as a TPU program of five kernels against its plain reference, at the extended
  reals.

  Both programs embed the node features (`x · W + b`), apply three message-passing layers — each takes, for every node,
  the mean of its in-neighbours' rows (the rows gathered along the edges, summed at the destinations, divided by the
  neighbour count clamped below by one), multiplies that mean and the node's own row by two matrices and adds a bias, the
  first two layers followed by a leaky rectifier of slope one tenth — and score each given pair of nodes by a
  two-layer perceptron on the two rows side by side.

  The kernel program runs the embedding, the three layers' dense parts and the perceptron as kernels over blocks of rows
  and leaves the gathers and scatter-adds to the host; the reference does everything on the host. They differ in four
  ways, none of which changes a value at the extended reals: a kernel rounds its matrix operands to a shorter format
  (the identity there) and multiplies block by block (each output row depends only on the same input rows, and the blocks
  tile the rows); the mean multiplies by the reciprocal count where the reference divides by the count (the count is at
  least one, so both are the product with its inverse); a layer adds its three terms in another order (addition is
  commutative and associative); and the rectifier tests `0 < y` where the reference tests `0 ≤ y` (at zero both give
  zero). No rewrite was made when the kernel program was idealized, so the fourth claim is trivially true.

  The run of each program (termination, no fault, the arguments unchanged, the result array named) comes first; then the
  result arrays are the same function of arguments that agree.
-/
import proofs.«139593_j16183436771650_1_alg».proof.Defs
import proofs.«139593_j16183436771650_1_alg».proof.Proof.Gen.Kernel
import proofs.«139593_j16183436771650_1_alg».proof.Proof.Gen.Kernel.Frame
import proofs.«139593_j16183436771650_1_alg».proof.Proof.Gen.KernelIdeal
import proofs.«139593_j16183436771650_1_alg».proof.Proof.Gen.KernelIdeal.Frame
import proofs.«139593_j16183436771650_1_alg».proof.Proof.Gen.ReferenceIdeal
import proofs.«139593_j16183436771650_1_alg».proof.Proof.Gen.Pre_finite_inputs
import proofs.«139593_j16183436771650_1_alg».proof.Proof.KernelRun
import proofs.«139593_j16183436771650_1_alg».proof.Proof.KerValue
import proofs.«139593_j16183436771650_1_alg».proof.Proof.RefRun
import proofs.«139593_j16183436771650_1_alg».proof.Proof.Bridge

set_option maxRecDepth 16384

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The two programs end with equal result arrays: both are the one network function of the arguments. -/
theorem algebraic : Cert.algebraic_KernelIdeal_ReferenceIdeal := by
  intro m ρ m' ρ' _ hagree
  refine ⟨fun c => Cert.KernelIdeal.Value.kerOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Value.result m ρ c), (h c).2⟩)
      (Cert.KernelIdeal.RunAll.run (F := Ideal) m ρ)
  · refine (θ_run Cert.ReferenceIdeal.defs _ _).mono (fun r h c => ⟨(h c).1.trans ?_, (h c).2⟩)
      (Cert.ReferenceIdeal.RefRun.run (F := Ideal) m' ρ')
    obtain ⟨e0, e1, e2, e3, e4, e5, e6, e7, e8, e9, e10, e11⟩ := hagree c
    rw [e0, e1, e2, e3, e4, e5, e6, e7, e8, e9, e10, e11]
    exact (Cert.Sage.Bridge.kerOut_eq_refOut _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
